-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S800000 32) (main_arg6 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S16x128 : Shape := ⟨2, ![16, 128]⟩
abbrev S5000x128 : Shape := ⟨2, ![5000, 128]⟩
abbrev S5000x1 : Shape := ⟨2, ![5000, 1]⟩
abbrev S8x128 : Shape := ⟨2, ![8, 128]⟩
abbrev S1x128 : Shape := ⟨2, ![1, 128]⟩

abbrev nBuf : Space → Nat
  | .hbm => 75
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S_, .i32⟩
  | .hbm, ⟨37, _⟩ => ⟨S_, .f32⟩
  | .hbm, ⟨38, _⟩ => ⟨S50000x128, .f32⟩
  | .hbm, ⟨39, _⟩ => ⟨S_, .i32⟩
  | .hbm, ⟨40, _⟩ => ⟨S_, .f32⟩
  | .hbm, ⟨41, _⟩ => ⟨S50000x1, .f32⟩
  | .hbm, ⟨42, _⟩ => ⟨S_, .i32⟩
  | .hbm, ⟨43, _⟩ => ⟨S_, .f32⟩
  | .hbm, ⟨44, _⟩ => ⟨S50000x128, .f32⟩
  | .hbm, ⟨45, _⟩ => ⟨S128x128, .f32⟩
  | .hbm, ⟨46, _⟩ => ⟨S16x128, .f32⟩
  | .hbm, ⟨47, _⟩ => ⟨S16x128, .f32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S_, .f32⟩
  | .hbm, ⟨55, _⟩ => ⟨S1x128, .f32⟩
  | .hbm, ⟨56, _⟩ => ⟨S1x128, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S_, .f32⟩
  | .hbm, ⟨63, _⟩ => ⟨S1x128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_call1_v0 : Ref sig .tc := ⟨.hbm, 37, rfl⟩
abbrev main_v20 : Ref sig .tc := ⟨.hbm, 38, rfl⟩
abbrev main_c_6 : Ref sig .tc := ⟨.hbm, 39, rfl⟩
abbrev main_call2_v0 : Ref sig .tc := ⟨.hbm, 40, rfl⟩
abbrev main_v21 : Ref sig .tc := ⟨.hbm, 41, rfl⟩
abbrev main_c_7 : Ref sig .tc := ⟨.hbm, 42, rfl⟩
abbrev main_call3_v0 : Ref sig .tc := ⟨.hbm, 43, rfl⟩
abbrev main_v22 : Ref sig .tc := ⟨.hbm, 44, rfl⟩
abbrev main_v23 : Ref sig .tc := ⟨.hbm, 45, rfl⟩
abbrev main_v24_0 : Ref sig .tc := ⟨.hbm, 46, rfl⟩
abbrev main_v24_1 : Ref sig .tc := ⟨.hbm, 47, rfl⟩
abbrev main_cst_8 : Ref sig .tc := ⟨.hbm, 48, rfl⟩
abbrev main_v25 : Ref sig .tc := ⟨.hbm, 49, rfl⟩
abbrev main_v26 : Ref sig .tc := ⟨.hbm, 50, rfl⟩
abbrev main_cst_9 : Ref sig .tc := ⟨.hbm, 51, rfl⟩
abbrev main_v27 : Ref sig .tc := ⟨.hbm, 52, rfl⟩
abbrev main_v28 : Ref sig .tc := ⟨.hbm, 53, rfl⟩
abbrev main_cst_10 : Ref sig .tc := ⟨.hbm, 54, rfl⟩
abbrev main_v29 : Ref sig .tc := ⟨.hbm, 55, rfl⟩
abbrev main_v30 : Ref sig .tc := ⟨.hbm, 56, rfl⟩
abbrev main_cst_11 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_12 : Ref sig .tc := ⟨.hbm, 62, rfl⟩
abbrev main_v35 : Ref sig .tc := ⟨.hbm, 63, rfl⟩
abbrev main_v36 : Ref sig .tc := ⟨.hbm, 64, rfl⟩
abbrev main_cst_13 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v45 : BitVec 1 := Scalar.cmpi .eq arg1 c4_i32
  let v46 : BitVec 32 := Scalar.extui v45
  let c0_i32_17 : BitVec 32 := 0#32
  let v47 : BitVec 1 := Scalar.cmpi .ne v46 c0_i32_17
  v47

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  pads_S50000x128_S50000x128_000_000 : S50000x128.Pads (![0, 0] : Fin 2 → Nat) ![0, 0] ![0, 0] S50000x128
  h_S_ : 0 < S_.numel
  pads_S50000x1_S50000x1_000_000 : S50000x1.Pads (![0, 0] : Fin 2 → Nat) ![0, 0] ![0, 0] S50000x1
  transposes_S128x128_S128x128_1_0 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  iota_S5000x1_d0_w32 : S5000x1.Iotas .tc 32 [0]
  natLt_1_32 : 1 < 32
  reduces_S5000x128_S128 : S5000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S16x128_S128_d0 : S16x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S16x128.size a
  hwx0_5 : ∀ i : grid0.Coords, EltTy.bits .f32 = 32 ∨ (Rect.block (s := S16x128) S8x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_1) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S50000x128, .f32⟩
  | .hbm, ⟨59, _⟩ => ⟨S50000x128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Assembly.lean ====
/-
  The launch of the two-region program over its twelve segments, stated once for ANY proof data of the two
  pipelines that meet the obligations listed in `Legs`: nine stretches of host operations, the statistics
  region, one more stretch, the normalising region. Between two segments every unscoped buffer of a core is
  held whole at a named valuation: the launch memory, then each stretch's operations folded over it, and after a
  region its windows' arrays at what the write-backs leave (`Dat.arrAt` at the last point) with every other
  buffer as the region found it. The run's post names EVERY unscoped buffer's final contents; the frame (each
  argument array as launched) and the result array's value are read off it.
-/
import proofs.«112734_j34411277975785_2_alg».proof.Proof.Gen.Kernel.Launch
import proofs.«112734_j34411277975785_2_alg».proof.Proof.Gen.Kernel.Points
import proofs.«112734_j34411277975785_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed family of buffer contents read at the TensorCore's references: what a region's proof data take
    as the contents the region is entered from. -/
abbrev Entry (F : FTy → Type) [FloatOps F] : Type :=
  (c : Dev nD) → (b : Ref sig .tc) → Buf (Elt F) ((c : Thread nD τ).loc b)

/-- What the launch needs of the two pipelines' proof data, whatever the entry contents: the arrays are the entry
    contents, full shares, nothing owed, the body obligation at every point, and the invariant entered from and
    left at the scoped rest beside the generator register (the class invariant `ΦA`). -/
structure Legs (dat0 : Entry F → (c : Dev nD) → Dat τ (Elt F) Unit ℕ (UR sig nD τ) ℕ cfg0 c)
    (dat1 : Entry F → (c : Dev nD) → Dat τ (Elt F) Unit ℕ (UR sig nD τ) ℕ cfg1 c) : Prop where
  A0 : ∀ V c w, (dat0 V c).A w = V c (Pipeline.arrRef spec0 w)
  q0 : ∀ V c w, (dat0 V c).q w = fullShare
  owed0 : ∀ V c t, (dat0 V c).owed t = 0
  rec0 : ∀ V c t, (dat0 V c).recorded t = Set.univ
  body0 : ∀ V c, BodyObligation (dat0 V c) (defs₀ (F := F)) Variants.none () Set.univ
  hin0 : ∀ V c, (Pipeline.ΦA spec0 c : sProp 𝕄) ⊢ (dat0 V c).Φ 0
  hout0 : ∀ V c, (dat0 V c).Φ (Fin.last cfg0.N) ⊢ (Pipeline.ΦA spec0 c : sProp 𝕄)
  A1 : ∀ V c w, (dat1 V c).A w = V c (Pipeline.arrRef spec1 w)
  q1 : ∀ V c w, (dat1 V c).q w = fullShare
  owed1 : ∀ V c t, (dat1 V c).owed t = 0
  rec1 : ∀ V c t, (dat1 V c).recorded t = Set.univ
  body1 : ∀ V c, BodyObligation (dat1 V c) (defs₀ (F := F)) Variants.none () Set.univ
  hin1 : ∀ V c, (Pipeline.ΦA spec1 c : sProp 𝕄) ⊢ (dat1 V c).Φ 0
  hout1 : ∀ V c, (dat1 V c).Φ (Fin.last cfg1.N) ⊢ (Pipeline.ΦA spec1 c : sProp 𝕄)

variable (m : (ℓ : Loc nD τ sig) → Buf (Elt F) ℓ) (ρ : Dev nD → PrngReg)
variable (dat0 : Entry F → (c : Dev nD) → Dat τ (Elt F) Unit ℕ (UR sig nD τ) ℕ cfg0 c)
  (dat1 : Entry F → (c : Dev nD) → Dat τ (Elt F) Unit ℕ (UR sig nD τ) ℕ cfg1 c)

/-! ## The buffers' contents at the boundaries after the first nine stretches -/

/-- Entry contents of the statistics region: the launch memory with the nine host stretches folded over it. -/
abbrev E9 : Entry F := fun c b => V9 m c b
/-- After the statistics region: its windows' arrays at what its write-backs leave, every other buffer as entered. -/
def Y10 (c : Dev nD) : Valuation τ sig (Elt F) :=
  Pipeline.withArrays spec0 c (V9 m c) fun w => (dat0 (E9 m) c).arrAt w cfg0.N
theorem Y10_arr (c : Dev nD) (w : Fin cfg0.W) :
    Y10 m dat0 c (Proc.devRef .tc (Pipeline.arrRef spec0 w)) = (dat0 (E9 m) c).arrAt w cfg0.N := by
  unfold Y10; exact Pipeline.withArrays_arr spec0 launch0.win.arr_inj c _ _ w
theorem Y10_of_ne (c : Dev nD) (b : Ref sig .tc) (hb : ∀ w, Pipeline.arrRef spec0 w ≠ b) :
    Y10 m dat0 c (Proc.devRef .tc b) = V9 m c (Proc.devRef .tc b) := by
  unfold Y10; exact Pipeline.withArrays_of_ne spec0 c _ _ b hb
abbrev E10 : Entry F := fun c b => Y10 m dat0 c b
theorem hF0 (c : Dev nD) (w : Fin cfg0.W) : (dat0 (E9 m) c).arrAt w cfg0.N = E10 m dat0 c (Pipeline.arrRef spec0 w) :=
  (Y10_arr m dat0 c w).symm
theorem hrest0 (c : Dev nD) : ∀ b, b ∉ Finset.univ.image (Pipeline.arrRef spec0) → E10 m dat0 c b = E9 m c b :=
  fun b hb => Y10_of_ne m dat0 c b fun w e => hb (Finset.mem_image.mpr ⟨w, Finset.mem_univ _, e⟩)

/-- After the stretch between the regions (the column statistics turned into scale and shift). -/
abbrev Y11 : Dev nD → Valuation τ sig (Elt F) := fun c => StableHlo.after hostOps1 (Y10 m dat0 c)
abbrev E11 : Entry F := fun c b => Y11 m dat0 c b
/-- After the normalising region. -/
def Y12 (c : Dev nD) : Valuation τ sig (Elt F) :=
  Pipeline.withArrays spec1 c (Y11 m dat0 c) fun w => (dat1 (E11 m dat0) c).arrAt w cfg1.N
theorem Y12_arr (c : Dev nD) (w : Fin cfg1.W) :
    Y12 m dat0 dat1 c (Proc.devRef .tc (Pipeline.arrRef spec1 w)) = (dat1 (E11 m dat0) c).arrAt w cfg1.N := by
  unfold Y12; exact Pipeline.withArrays_arr spec1 launch1.win.arr_inj c _ _ w
theorem Y12_of_ne (c : Dev nD) (b : Ref sig .tc) (hb : ∀ w, Pipeline.arrRef spec1 w ≠ b) :
    Y12 m dat0 dat1 c (Proc.devRef .tc b) = Y11 m dat0 c (Proc.devRef .tc b) := by
  unfold Y12; exact Pipeline.withArrays_of_ne spec1 c _ _ b hb
abbrev E12 : Entry F := fun c b => Y12 m dat0 dat1 c b
theorem hF1 (c : Dev nD) (w : Fin cfg1.W) : (dat1 (E11 m dat0) c).arrAt w cfg1.N = E12 m dat0 dat1 c (Pipeline.arrRef spec1 w) :=
  (Y12_arr m dat0 dat1 c w).symm
theorem hrest1 (c : Dev nD) : ∀ b, b ∉ Finset.univ.image (Pipeline.arrRef spec1) → E12 m dat0 dat1 c b = E11 m dat0 c b :=
  fun b hb => Y12_of_ne m dat0 dat1 c b fun w e => hb (Finset.mem_image.mpr ⟨w, Finset.mem_univ _, e⟩)

/-! ## The proof data family and the thread state -/

abbrev hadm : (p : Fin 2) → (pcfgs (F := F) p).Adm := fun p => (cfgs p).toPCfg_adm
/-- Both pipelines' proof data, each at its region's entry contents (a literal match on the pipeline's index). -/
def pd : (p : Fin 2) → (c : Dev nD) → Dat τ (Elt F) Unit ℕ (UR sig nD τ) ℕ (Pipeline.pin (pcfgs (F := F)) hadm p) c
  | ⟨0, _⟩ => fun c => dat0 (E9 m) c
  | ⟨1, _⟩ => fun c => dat1 (E11 m dat0) c
abbrev vNone : Variants := Variants.none
abbrev noL : GSem nD τ sig → Finset Unit := fun _ => ∅
abbrev lv0 : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vNone noL lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Y12 m dat0 dat1 c) ∗ ∃ r, prngReg c r)

variable {dat0 dat1} (hL : Legs (F := F) dat0 dat1)

/-! ## The regions as segments -/

set_option backward.isDefEq.respectTransparency.types false in
/-- The statistics region: entered from every unscoped buffer at the ninth boundary's contents, left at `Y10`. Its
    arrays are split out of the unscoped buffers and put back at the exit contents; the generator register and the
    scoped rest enter the kernel's invariant through the class invariant and come back the same way. -/
def reg0 : Pipeline.RegionSeg (pcfgs (F := F)) hadm (pd m dat0 dat1) () defs₀ vNone noL lv0 0 where
  win := launch0.win.to₀
  block_pos := launch0.block_pos
  stage_whole := launch0.stage_whole
  K := PEmpty
  osem k := k.elim
  ho := Pipeline.OwnSemFacts.none _
  hbody c := (hL.body0 (E9 m) c).loose
  hwaits := Pipeline.hwaits_of_owed_zero _ _ _ _ noL lv0 0 fun c t => hL.owed0 (E9 m) c t
  pre c := iprop(StableHlo.held (c : Thread nD τ) (Pipeline.ucRefs τ sig) (V9 m c) ∗ Rst c)
  post c := iprop(StableHlo.held (c : Thread nD τ) (Pipeline.ucRefs τ sig) (Y10 m dat0 c) ∗ Rst c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) hadm (pd m dat0 dat1) launch0.win launch0.arr_whole c
      ((pd m dat0 dat1 0 c).share_full fun w => hL.q0 (E9 m) c w) (E9 m c) fun w => hL.A0 (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd m dat0 dat1 0 c).owed 0 = 0 from hL.owed0 (E9 m) c 0]
      icases HO with ⟨%W, HO⟩; iexists W; isplitr
      · ipureintro; exact fun x _ => Or.inl (show x ∈ (dat0 (E9 m) c).recorded 0 from by rw [hL.rec0]; trivial)
      iexact HO
    isplitl [Hp]; · iexact Hp
    iexact Hrest
  hin c := by
    have h1 : (iprop((∃ r, prngReg c r) ∗ Pipeline.prefHeld (pcfgs (F := F) 0).pre c (fun _ => fullShare) (hadm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (hL.hin0 (E9 m) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hL.hout0 (E9 m) c).trans h2
  hexit c := by
    have hjoin := Pipeline.unscopedBufs_of_arrays (p := 0) (pcfgs (F := F)) hadm (Ix := Unit) (Name := ℕ) (U := UR sig nD τ) (Lvl := ℕ)
      launch0.win launch0.arr_whole c (pd m dat0 dat1) ((pd m dat0 dat1 0 c).share_full fun w => hL.q0 (E9 m) c w)
      (E9 m c) (E10 m dat0 c) ((pd m dat0 dat1 0 c).arrAt · cfg0.N) (hF0 m dat0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pd m dat0 dat1 0 c).owed (Fin.last _) = 0 from hL.owed0 (E9 m) c _]
    icases HO with ⟨%W, -, HO⟩; iexists W; iexact HO

set_option backward.isDefEq.respectTransparency.types false in
/-- The normalising region: entered from every unscoped buffer at `Y11`, left at `Y12` (what the launch reads at the end). -/
def reg1 : Pipeline.RegionSeg (pcfgs (F := F)) hadm (pd m dat0 dat1) () defs₀ vNone noL lv0 1 where
  win := launch1.win.to₀
  block_pos := launch1.block_pos
  stage_whole := launch1.stage_whole
  K := PEmpty
  osem k := k.elim
  ho := Pipeline.OwnSemFacts.none _
  hbody c := (hL.body1 (E11 m dat0) c).loose
  hwaits := Pipeline.hwaits_of_owed_zero _ _ _ _ noL lv0 1 fun c t => hL.owed1 (E11 m dat0) c t
  pre c := iprop(StableHlo.held (c : Thread nD τ) (Pipeline.ucRefs τ sig) (Y11 m dat0 c) ∗ Rst c)
  post c := iprop(Tn m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E11 m dat0 c)
  hentry c := by
    rw [Pipeline.ownSems0_none]
    have hsplit := Pipeline.arrays_of_unscopedBufs (p := 1) (pcfgs (F := F)) hadm (pd m dat0 dat1) launch1.win launch1.arr_whole c
      ((pd m dat0 dat1 1 c).share_full fun w => hL.q1 (E11 m dat0) c w) (E11 m dat0 c) fun w => hL.A1 (E11 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd m dat0 dat1 1 c).owed 0 = 0 from hL.owed1 (E11 m dat0) c 0]
      icases HO with ⟨%W, HO⟩; iexists W; isplitr
      · ipureintro; exact fun x _ => Or.inl (show x ∈ (dat1 (E11 m dat0) c).recorded 0 from by rw [hL.rec1]; trivial)
      iexact HO
    isplitl [Hp]; · iexact Hp
    iexact Hrest
  hin c := by
    have h1 : (iprop((∃ r, prngReg c r) ∗ Pipeline.prefHeld (pcfgs (F := F) 1).pre c (fun _ => fullShare) (hadm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h1.trans (hL.hin1 (E11 m dat0) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hL.hout1 (E11 m dat0) c).trans h2
  hexit c := by
    have hjoin := Pipeline.unscopedBufs_of_arrays (p := 1) (pcfgs (F := F)) hadm (Ix := Unit) (Name := ℕ) (U := UR sig nD τ) (Lvl := ℕ)
      launch1.win launch1.arr_whole c (pd m dat0 dat1) ((pd m dat0 dat1 1 c).share_full fun w => hL.q1 (E11 m dat0) c w)
      (E11 m dat0 c) (E12 m dat0 dat1 c) ((pd m dat0 dat1 1 c).arrAt · cfg1.N) (hF1 m dat0 dat1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pd m dat0 dat1 1 c).owed (Fin.last _) = 0 from hL.owed1 (E11 m dat0) c _]
    icases HO with ⟨%W, -, HO⟩; iexists W; iexact HO

/-! ## @main as segments, and the launch -/

/-- @main's twelve segments in order. -/
abbrev hsegs : List (Pipeline.Seg (pcfgs (F := F)) hadm (pd m dat0 dat1) () defs₀ vNone noL lv0) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .region (reg0 m hL),
    .host (hseg hostOps1 hostOps1_sub hostOps1_fresh (Y10 m dat0)),
    .region (reg1 m hL) ]

include hL in
set_option backward.isDefEq.respectTransparency.types false in
/-- THE RUN: from any memory with zero counters every weakly fair execution of @main terminates, nothing faulting,
    and every final state holds every unscoped buffer of every core at the last boundary's contents `Y12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Y12 m dat0 dat1 c b) :=
  Pipeline.θ_run_regions_kit (pcfgs (F := F)) hadm (pd m dat0 dat1) () cellOf_inj emb₁ defs₀ vNone noL lv0 m ρ main (hsegs m hL)
    (fun c Q => by
      rewrite [main_chain c, Pipeline.Seg.run_eq_chain,
        show (hsegs m hL).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tn m dat0 dat1)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach noL lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y12 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (Y12 m dat0 dat1 c) s')
      isplitl [Hh] <;> iassumption)
    (hQ := fun s h c => h c)

end Cert.Kernel.Hand

end
-- ==== Proof.K.Frames.lean ====
/-
  What the run's post gives: every argument array ends as launched, and the result array ends at what the
  normalising region's write-backs leave. An argument is written by no host operation and is no output window's
  array; the bias vector is an INPUT window's array of both regions, so its buffer is read back through the two
  regions' entry contents (an input window's array is never written back).
-/
import proofs.«112734_j34411277975785_2_alg».proof.Proof.K.Assembly

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)
variable {dat0 : Entry F → (c : Dev nD) → Dat τ (Elt F) Unit ℕ (UR sig nD τ) ℕ cfg0 c}
  {dat1 : Entry F → (c : Dev nD) → Dat τ (Elt F) Unit ℕ (UR sig nD τ) ℕ cfg1 c}

/-- A buffer none of the first nine stretches writes holds its launch contents at the ninth boundary. -/
theorem V9_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) : V9 m c r = m ((c : Thread nD τ).loc r) :=
  (V9_of m c r h8).trans <| (V8_of m c r h7).trans <| (V7_of m c r h6).trans <| (V6_of m c r h5).trans <|
    (V5_of m c r h4).trans <| (V4_of m c r h3).trans <| (V3_of m c r h2).trans <| (V2_of m c r h1).trans <|
    (V1_of m c r h0).trans rfl

/-- A buffer that is no window's array of either region and that the stretch between them does not write ends
    at its contents at the ninth boundary. -/
theorem Y12_keep (c : Dev nD) (r : Ref sig .tc) (ha : ∀ w, Pipeline.arrRef spec0 w ≠ r) (hb : ∀ w, Pipeline.arrRef spec1 w ≠ r)
    (h : r ∉ hostOps1_W) : Y12 m dat0 dat1 c r = V9 m c r :=
  (Y12_of_ne m dat0 dat1 c r hb).trans <|
    (StableHlo.after_of_writes_sub hostOps1 _ hostOps1_writes h).trans (Y10_of_ne m dat0 c r ha)

variable (hL : Legs (F := F) dat0 dat1)
include hL

/-- The bias vector's buffer, an input window's array of both regions, ends as at the ninth boundary. -/
theorem Y12_bias (c : Dev nD) : Y12 m dat0 dat1 c main_arg2 = V9 m c main_arg2 :=
  calc Y12 m dat0 dat1 c main_arg2
    _ = Y11 m dat0 c main_arg2 := (Y12_arr m dat0 dat1 c 4).trans (((dat1 (E11 m dat0) c).arrAt_in 4 rfl _).trans (hL.A1 (E11 m dat0) c 4))
    _ = Y10 m dat0 c main_arg2 := StableHlo.after_of_writes_sub hostOps1 _ hostOps1_writes (by decide)
    _ = V9 m c main_arg2 := (Y10_arr m dat0 c 3).trans (((dat0 (E9 m) c).arrAt_in 3 rfl _).trans (hL.A0 (E9 m) c 3))

/-- The result array ends at what the normalising region's write-backs leave in its output window's array. -/
theorem Y12_result (c : Dev nD) : Y12 m dat0 dat1 c main_v45 = (dat1 (E11 m dat0) c).arrAt 7 cfg1.N :=
  Y12_arr m dat0 dat1 c 7

/-- THE RUN with its readings: the result array named, every argument as launched. -/
theorem run_value : θ_run defs (onTc (τ := τ) (main (F := F))) ⟨m, fun _ => 0, ρ⟩ (fun r => ∀ c : Dev nD,
      r.2.mem ((c.tc : Thread nD τ).loc main_v45) = (dat1 (E11 m dat0) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v45 (by decide))).trans (Y12_result m hL c),
     (h c _ (mem_uc main_arg0 (by decide))).trans ((Y12_keep m c main_arg0 (by decide) (by decide) (by decide)).trans
        (V9_keep m c main_arg0 (by decide) (by decide) (by decide) (by decide) (by decide) (by decide) (by decide) (by decide) (by decide))),
     (h c _ (mem_uc main_arg1 (by decide))).trans ((Y12_keep m c main_arg1 (by decide) (by decide) (by decide)).trans
        (V9_keep m c main_arg1 (by decide) (by decide) (by decide) (by decide) (by decide) (by decide) (by decide) (by decide) (by decide))),
     (h c _ (mem_uc main_arg2 (by decide))).trans ((Y12_bias m hL c).trans
        (V9_keep m c main_arg2 (by decide) (by decide) (by decide) (by decide) (by decide) (by decide) (by decide) (by decide) (by decide))),
     (h c _ (mem_uc main_arg3 (by decide))).trans ((Y12_keep m c main_arg3 (by decide) (by decide) (by decide)).trans
        (V9_keep m c main_arg3 (by decide) (by decide) (by decide) (by decide) (by decide) (by decide) (by decide) (by decide) (by decide))),
     (h c _ (mem_uc main_arg4 (by decide))).trans ((Y12_keep m c main_arg4 (by decide) (by decide) (by decide)).trans
        (V9_keep m c main_arg4 (by decide) (by decide) (by decide) (by decide) (by decide) (by decide) (by decide) (by decide) (by decide))),
     (h c _ (mem_uc main_arg5 (by decide))).trans ((Y12_keep m c main_arg5 (by decide) (by decide) (by decide)).trans
        (V9_keep m c main_arg5 (by decide) (by decide) (by decide) (by decide) (by decide) (by decide) (by decide) (by decide) (by decide))),
     (h c _ (mem_uc main_arg6 (by decide))).trans ((Y12_keep m c main_arg6 (by decide) (by decide) (by decide)).trans
        (V9_keep m c main_arg6 (by decide) (by decide) (by decide) (by decide) (by decide) (by decide) (by decide) (by decide) (by decide)))⟩)
    (run_all m ρ hL)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ hL)

end Cert.Kernel.Hand

end
-- ==== Proof.K.Region0.Runs.lean ====
import proofs.«112734_j34411277975785_2_alg».proof.Proof.Gen.Kernel.Launch
import proofs.«112734_j34411277975785_2_alg».proof.Proof.Gen.Kernel.Skeleton
import proofs.«112734_j34411277975785_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the statistics kernel, grid 2 × 5) at the buffer contents `V` found when the region is entered:
    what the three whole-body runs share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- The first conditional's condition (inner coordinate = 0: the accumulators are zeroed), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition (inner coordinate = 4: row 0 of the outputs is stored). -/
abbrev cond0_1 (i : grid0.Coords) : Prop := k0_cond2 i = 1#1
/-- It holds at the points ≡ 4 (mod 5). -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Output 4 is idle and not written back where the inner coordinate is not 4; live where it is. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
/-- Output 5 is idle and not written back where the inner coordinate is not 4; live where it is. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output window, through which its contents are stated (the choice does not matter). -/
abbrev VO0_4 : View sig .tc .vmem S8x128 .f32 := (Memref.whole cc0_stg4_0 : Memref sig .tc .vmem S8x128 .f32).view
abbrev VO0_5 : View sig .tc .vmem S8x128 .f32 := (Memref.whole cc0_stg5_0 : Memref sig .tc .vmem S8x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The two scratch operands (the running column sums of h and of h·h): whole scoped buffers, passed beside the windows. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The core's other scoped buffers that are no staging buffer of this region (the second region's staging buffers),
    each whole at some contents: the body never touches them. -/
def restA0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant the launch hands over, with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restA0 (F := F) c) ∗ (∃ r, prngReg c r)) := by
  unfold Pipeline.ΦA restA0; rw [scopedRest0_eq]; simp only [scM0_0, scM0_1, owns_whole]; try rfl

end Cert.Kernel.Hand

end
-- ==== Proof.K.Region0.RunA.lean ====
import proofs.«112734_j34411277975785_2_alg».proof.Proof.K.Region0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The whole body in the case of inner coordinate 0 (points 0, 5): both accumulators are zeroed, then this block's column sums are added; the outputs are left untouched. On whole staging memrefs — the inputs' at their contents `x·`, the outputs' at contents `xi·` handed back untouched, the accumulators at anything — the
    body runs to the continuation holding the inputs' as they were and each accumulator with its pieces `LS·` written.
    The pieces (last first) are the witness the run finds. -/
noncomputable def kernelRun0_A (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) :
    Σ' (L4 : List (View.Piece (Elt F) S8x128 .f32)) (L5 : List (View.Piece (Elt F) S8x128 .f32)) (LS0 : List (View.Piece (Elt F) S1x128 .f32)), { LS1 : List (View.Piece (Elt F) S1x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Region0.RunB.lean ====
import proofs.«112734_j34411277975785_2_alg».proof.Proof.K.Region0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The whole body in the case of inner coordinate 1, 2, 3 (points 1–3, 6–8): this block's column sums are added to the accumulators; the outputs are left untouched. On whole staging memrefs — the inputs' at their contents `x·`, the outputs' at contents `xi·` handed back untouched, the accumulators at the contents `xs·` the point before left — the
    body runs to the continuation holding the inputs' as they were and each accumulator with its pieces `LS·` written.
    The pieces (last first) are the witness the run finds. -/
noncomputable def kernelRun0_B (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) :
    Σ' (L4 : List (View.Piece (Elt F) S8x128 .f32)) (L5 : List (View.Piece (Elt F) S8x128 .f32)) (LS0 : List (View.Piece (Elt F) S1x128 .f32)), { LS1 : List (View.Piece (Elt F) S1x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.K.Region0.RunC.lean ====
import proofs.«112734_j34411277975785_2_alg».proof.Proof.K.Region0.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The whole body in the case of inner coordinate 4 (points 4, 9): this block's column sums are added to the accumulators, and row 0 of each output block is stored from them (the other rows zero). On whole staging memrefs — the inputs' at their contents `x·`, the outputs' at anything, the accumulators at the contents `xs·` the point before left — the
    body runs to the continuation holding the inputs' as they were, each output's buffer with its pieces `L·` written and each accumulator with its pieces `LS·` written.
    The pieces (last first) are the witness the run finds. -/
noncomputable def kernelRun0_C (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) :
    Σ' (L4 : List (View.Piece (Elt F) S8x128 .f32)) (L5 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.Kernel.Hand

end
-- ==== Proof.K.Region0.lean ====
import proofs.«112734_j34411277975785_2_alg».proof.Proof.K.Region0.RunA
import proofs.«112734_j34411277975785_2_alg».proof.Proof.K.Region0.RunB
import proofs.«112734_j34411277975785_2_alg».proof.Proof.K.Region0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the statistics kernel): what the outputs and the two accumulators hold point by point, the proof
    data, and the body obligation, at the buffer contents `V` found when the region is entered -/

/-! ## What each case leaves in the outputs' buffers and in the accumulators -/

/-- What the case of inner coordinate 0 leaves in output 4's staging buffer: its pieces read back (none: the case stores nothing there, the window is idle and not written back, and nothing consults this placeholder). -/
def out0_A_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S8x128 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

/-- What the case of inner coordinate 0 leaves in output 5's staging buffer: its pieces read back (none: the case stores nothing there, the window is idle and not written back, and nothing consults this placeholder). -/
def out0_A_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S8x128 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3).2.1)

/-- In the case of inner coordinate 0 the stores into accumulator 0 are of the whole row, so the pieces cover it. -/
theorem scover0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) (y : S1x128.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S1x128.size (by sl_kernel_rfl) y

/-- What the case of inner coordinate 0 leaves in accumulator 0: its pieces read back. -/
def sout0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.2.1)

/-- In the case of inner coordinate 0 the stores into accumulator 1 are of the whole row, so the pieces cover it. -/
theorem scover0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) (y : S1x128.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S1x128.size (by sl_kernel_rfl) y

/-- What the case of inner coordinate 0 leaves in accumulator 1: its pieces read back. -/
def sout0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.2.1)

/-- What the case of inner coordinate 1, 2 or 3 leaves in output 4's staging buffer: its pieces read back (none: the case stores nothing there, the window is idle and not written back, and nothing consults this placeholder). -/
def out0_B_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1).1)

/-- What the case of inner coordinate 1, 2 or 3 leaves in output 5's staging buffer: its pieces read back (none: the case stores nothing there, the window is idle and not written back, and nothing consults this placeholder). -/
def out0_B_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 xs0 xs1).2.1)

/-- In the case of inner coordinate 1, 2 or 3 the stores into accumulator 0 are of the whole row, so the pieces cover it. -/
theorem scover0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.1 S1x128.size (by sl_kernel_rfl) y

/-- What the case of inner coordinate 1, 2 or 3 leaves in accumulator 0: its pieces read back. -/
def sout0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).2.2.1)

/-- In the case of inner coordinate 1, 2 or 3 the stores into accumulator 1 are of the whole row, so the pieces cover it. -/
theorem scover0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the case of inner coordinate 1, 2 or 3 leaves in accumulator 1: its pieces read back. -/
def sout0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.2.2.1)

/-- In the case of inner coordinate 4 the one store into output 4 is of the whole block, so the pieces cover it. -/
theorem cover0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S8x128.size (by sl_kernel_rfl) y

/-- What the case of inner coordinate 4 leaves in output 4's staging buffer: its pieces read back. -/
def out0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

/-- In the case of inner coordinate 4 the one store into output 5 is of the whole block, so the pieces cover it. -/
theorem cover0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S8x128.size (by sl_kernel_rfl) y

/-- What the case of inner coordinate 4 leaves in output 5's staging buffer: its pieces read back. -/
def out0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-- In the case of inner coordinate 4 the stores into accumulator 0 are of the whole row, so the pieces cover it. -/
theorem scover0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1x128.size (by sl_kernel_rfl) y

/-- What the case of inner coordinate 4 leaves in accumulator 0: its pieces read back. -/
def sout0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

/-- In the case of inner coordinate 4 the stores into accumulator 1 are of the whole row, so the pieces cover it. -/
theorem scover0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the case of inner coordinate 4 leaves in accumulator 1: its pieces read back. -/
def sout0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

/-! ## What the outputs and the accumulators hold after each point -/

/-- What the two outputs' staging buffers and the two accumulators hold after the body at position `n`, as a tuple
    (output 4's buffer, output 5's buffer, accumulator 0 — the running column sums of h —, accumulator 1 — those of h·h):
    the case the closed forms select at `n`, run at the point's memrefs and input blocks, the accumulators taken at
    what the point before left (in the case of inner coordinate 0 they are zeroed first, so nothing earlier is read). -/
def outsAt0 (c : Dev nD) : (n : ℕ) → n < cfg0.N → Vec F S8x128 .f32 × Vec F S8x128 .f32 × Vec F S1x128 .f32 × Vec F S1x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 5 = 0 then
      if h1 : (n + 1) % 5 = 4 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 5 = 4 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- `outsAt0` at a point of inner coordinate 0. -/
theorem outsAt0_A (c : Dev nD) (t : Fin cfg0.N) (h0 : t.val % 5 = 0) (h1 : ¬t.val % 5 = 4) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of inner coordinate 1, 2 or 3: over what the point before left in the accumulators. -/
theorem outsAt0_B (c : Dev nD) (t : Fin cfg0.N) (h0 : ¬t.val % 5 = 0) (h1 : ¬t.val % 5 = 4) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of inner coordinate 4: over what the point before left in the accumulators. -/
theorem outsAt0_C (c : Dev nD) (t : Fin cfg0.N) (h0 : ¬t.val % 5 = 0) (h1 : t.val % 5 = 4) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (both accumulators at
    anything); afterwards both accumulators at what the point before left in them, the other scoped buffers at anything,
    and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restA0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restA0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restA0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body both accumulators at what the point before left (at anything before the first point) and
    takes them back at this point's contents; an output the case does not store is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_4 out0_C_5 sout0_C_0 sout0_C_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Cert.Kernel.Hand

end
-- ==== Proof.K.Region1.lean ====
/- REGION 1 of @main: the fused layer kernel (pipeline 1), at the buffer contents `V` found when the region is
   entered. Each window's block at a grid point; what the body leaves in the output window's buffer, as a function
   of the seven input blocks; the body's triple; the pipeline's proof data; the body obligation at every point. -/
import proofs.«112734_j34411277975785_2_alg».proof.Proof.Gen.Kernel.Launch
import proofs.«112734_j34411277975785_2_alg».proof.Proof.Gen.Kernel.Skeleton
import proofs.«112734_j34411277975785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the blocks' long axis has 5000 coordinates
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether or not the block is
    transferred there: where it is not, the block index has not moved since the last transfer, and the body leaves
    the block in place. Stated for ANY proof data whose array is `V`'s (`hA`) and whose body leaves the block in
    place (`hafter`). Windows 0, 1, 2 move at every point; windows 3, 4, 5, 6 (the weight, the bias, the scale and
    the shift) are whole arrays, transferred once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window is read or written WHOLE, through the rectangle of all its indices -/

abbrev r1_a : Rect S5000x128 := Rect.unit (s := S5000x128) ![0, 0] S5000x128.size inb_S5000x128_S5000x128_0_0
abbrev r1_n : Rect S5000x1 := Rect.unit (s := S5000x1) ![0, 0] S5000x1.size inb_S5000x1_S5000x1_0_0
abbrev r1_w : Rect S128x128 := Rect.unit (s := S128x128) ![0, 0] S128x128.size inb_S128x128_S128x128_0_0
abbrev r1_b : Rect S128 := Rect.unit (s := S128) ![0] S128.size inb_S128_S128_0
abbrev r1_s : Rect S1x128 := Rect.unit (s := S1x128) ![0, 0] S1x128.size inb_S1x128_S1x128_0_0

theorem zero_off2 : (![0, 0] : Fin 2 → Nat) = fun _ => 0 := by funext a; fin_cases a <;> rfl
theorem zero_off1 : (![0] : Fin 1 → Nat) = fun _ => 0 := by funext a; fin_cases a; rfl

/-! ## What the body leaves in the output window's buffer -/

/-- Window 7's staging buffer after the body, from the seven input blocks (aggregate, degree norm, features,
    weight, bias, scale, shift): its one store, of `feat + max(((agg·W + b)·norm)·scale + shift, 0)`. -/
def out1_7 (x0 : Vec F S5000x128 .f32) (x1 : Vec F S5000x1 .f32) (x2 : Vec F S5000x128 .f32) (x3 : Vec F S128x128 .f32) (x4 : Vec F S128 .f32) (x5 x6 : Vec F S1x128 .f32) : Vec F S5000x128 .f32 :=
  View.canon [⟨r1_a, k1_pay1 (View.ld x0 r1_a) (View.ld x3 r1_w) (View.ld x4 r1_b) (View.ld x1 r1_n) (View.ld x5 r1_s) (View.ld x6 r1_s) (View.ld x2 r1_a)⟩]

/-- One store through the rectangle of ALL the buffer's indices leaves its payload, and a load through such a
    rectangle reads the whole contents: the buffer after the body is the body's arithmetic of the input blocks. -/
theorem out1_7_eq (x0 : Vec F S5000x128 .f32) (x1 : Vec F S5000x1 .f32) (x2 : Vec F S5000x128 .f32) (x3 : Vec F S128x128 .f32) (x4 : Vec F S128 .f32) (x5 x6 : Vec F S1x128 .f32) :
    out1_7 x0 x1 x2 x3 x4 x5 x6 = k1_pay1 x0 x3 x4 x1 x5 x6 x2 := by
  unfold out1_7
  rw [View.canon_unit_zero zero_off2]
  simp only [View.ld_unit_zero (S := S5000x128) zero_off2, View.ld_unit_zero (S := S5000x1) zero_off2,
    View.ld_unit_zero (S := S128x128) zero_off2, View.ld_unit_zero (S := S128) zero_off1,
    View.ld_unit_zero (S := S1x128) zero_off2]

/-- The one store covers the buffer. -/
theorem cover1_7 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S5000x1 .f32) (x2 : Vec F S5000x128 .f32) (x3 : Vec F S128x128 .f32) (x4 : Vec F S128 .f32) (x5 x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point
    `t` each input's buffer at its block and the output's at `out1_7` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Legs.lean ====
/-
  The two pipelines' proof data meet what the launch asks of them: the arrays are the entry contents, full shares,
  nothing owed, the body obligation at every point; the statistics region's invariant (its two running column sums
  tracked point by point) is entered from and left at the scoped rest beside the generator register, and the
  normalising region's invariant is that rest itself.
-/
import proofs.«112734_j34411277975785_2_alg».proof.Proof.K.Assembly
import proofs.«112734_j34411277975785_2_alg».proof.Proof.K.Region0
import proofs.«112734_j34411277975785_2_alg».proof.Proof.K.Region1

set_option maxRecDepth 16384

noncomputable section

namespace Cert.Kernel.Hand

open Cert.Kernel Cert.Kernel.Gen
open Idealize.ShloMosaic Idealize.ShloMosaic.TcCoe
open Idealize.SL Idealize.SL.BI Idealize.SL.Sem
open Idealize.ShloMosaic.Pipeline (Dat)

variable {F : FTy → Type} [FloatOps F]

theorem legs : Legs (F := F) (fun V c => dat0 V c) (fun V c => dat1 V c) where
  A0 := fun V c w => A_eq0 V c w
  q0 := fun V c w => rfl
  owed0 := fun V c t => rfl
  rec0 := fun V c t => rfl
  body0 := fun V c => body_obligation0 V c
  hin0 := fun V c => hin0 V c
  hout0 := fun V c => hout0 V c
  A1 := fun V c w => A_eq1 V c w
  q1 := fun V c w => rfl
  owed1 := fun V c t => rfl
  rec1 := fun V c t => rfl
  body1 := fun V c => body_obligation1 V c
  hin1 := fun V c => .rfl
  hout1 := fun V c => .rfl

end Cert.Kernel.Hand

end
-- ==== Proof.KI.Assembly.lean ====
/-
  The launch of the two-region program over its twelve segments, stated once for ANY proof data of the two
  pipelines that meet the obligations listed in `Legs`: nine stretches of host operations, the statistics
  region, one more stretch, the normalising region. Between two segments every unscoped buffer of a core is
  held whole at a named valuation: the launch memory, then each stretch's operations folded over it, and after a
  region its windows' arrays at what the write-backs leave (`Dat.arrAt` at the last point) with every other
  buffer as the region found it. The run's post names EVERY unscoped buffer's final contents; the frame (each
  argument array as launched) and the result array's value are read off it.
-/
import proofs.«112734_j34411277975785_2_alg».proof.Proof.Gen.KernelIdeal.Launch
import proofs.«112734_j34411277975785_2_alg».proof.Proof.Gen.KernelIdeal.Points
import proofs.«112734_j34411277975785_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed family of buffer contents read at the TensorCore's references: what a region's proof data take
    as the contents the region is entered from. -/
abbrev Entry (F : FTy → Type) [FloatOps F] : Type :=
  (c : Dev nD) → (b : Ref sig .tc) → Buf (Elt F) ((c : Thread nD τ).loc b)

/-- What the launch needs of the two pipelines' proof data, whatever the entry contents: the arrays are the entry
    contents, full shares, nothing owed, the body obligation at every point, and the invariant entered from and
    left at the scoped rest beside the generator register (the class invariant `ΦA`). -/
structure Legs (dat0 : Entry F → (c : Dev nD) → Dat τ (Elt F) Unit ℕ (UR sig nD τ) ℕ cfg0 c)
    (dat1 : Entry F → (c : Dev nD) → Dat τ (Elt F) Unit ℕ (UR sig nD τ) ℕ cfg1 c) : Prop where
  A0 : ∀ V c w, (dat0 V c).A w = V c (Pipeline.arrRef spec0 w)
  q0 : ∀ V c w, (dat0 V c).q w = fullShare
  owed0 : ∀ V c t, (dat0 V c).owed t = 0
  rec0 : ∀ V c t, (dat0 V c).recorded t = Set.univ
  body0 : ∀ V c, BodyObligation (dat0 V c) (defs₀ (F := F)) Variants.none () Set.univ
  hin0 : ∀ V c, (Pipeline.ΦA spec0 c : sProp 𝕄) ⊢ (dat0 V c).Φ 0
  hout0 : ∀ V c, (dat0 V c).Φ (Fin.last cfg0.N) ⊢ (Pipeline.ΦA spec0 c : sProp 𝕄)
  A1 : ∀ V c w, (dat1 V c).A w = V c (Pipeline.arrRef spec1 w)
  q1 : ∀ V c w, (dat1 V c).q w = fullShare
  owed1 : ∀ V c t, (dat1 V c).owed t = 0
  rec1 : ∀ V c t, (dat1 V c).recorded t = Set.univ
  body1 : ∀ V c, BodyObligation (dat1 V c) (defs₀ (F := F)) Variants.none () Set.univ
  hin1 : ∀ V c, (Pipeline.ΦA spec1 c : sProp 𝕄) ⊢ (dat1 V c).Φ 0
  hout1 : ∀ V c, (dat1 V c).Φ (Fin.last cfg1.N) ⊢ (Pipeline.ΦA spec1 c : sProp 𝕄)

variable (m : (ℓ : Loc nD τ sig) → Buf (Elt F) ℓ) (ρ : Dev nD → PrngReg)
variable (dat0 : Entry F → (c : Dev nD) → Dat τ (Elt F) Unit ℕ (UR sig nD τ) ℕ cfg0 c)
  (dat1 : Entry F → (c : Dev nD) → Dat τ (Elt F) Unit ℕ (UR sig nD τ) ℕ cfg1 c)

/-! ## The buffers' contents at the boundaries after the first nine stretches -/

/-- Entry contents of the statistics region: the launch memory with the nine host stretches folded over it. -/
abbrev E9 : Entry F := fun c b => V9 m c b
/-- After the statistics region: its windows' arrays at what its write-backs leave, every other buffer as entered. -/
def Y10 (c : Dev nD) : Valuation τ sig (Elt F) :=
  Pipeline.withArrays spec0 c (V9 m c) fun w => (dat0 (E9 m) c).arrAt w cfg0.N
theorem Y10_arr (c : Dev nD) (w : Fin cfg0.W) :
    Y10 m dat0 c (Proc.devRef .tc (Pipeline.arrRef spec0 w)) = (dat0 (E9 m) c).arrAt w cfg0.N := by
  unfold Y10; exact Pipeline.withArrays_arr spec0 launch0.win.arr_inj c _ _ w
theorem Y10_of_ne (c : Dev nD) (b : Ref sig .tc) (hb : ∀ w, Pipeline.arrRef spec0 w ≠ b) :
    Y10 m dat0 c (Proc.devRef .tc b) = V9 m c (Proc.devRef .tc b) := by
  unfold Y10; exact Pipeline.withArrays_of_ne spec0 c _ _ b hb
abbrev E10 : Entry F := fun c b => Y10 m dat0 c b
theorem hF0 (c : Dev nD) (w : Fin cfg0.W) : (dat0 (E9 m) c).arrAt w cfg0.N = E10 m dat0 c (Pipeline.arrRef spec0 w) :=
  (Y10_arr m dat0 c w).symm
theorem hrest0 (c : Dev nD) : ∀ b, b ∉ Finset.univ.image (Pipeline.arrRef spec0) → E10 m dat0 c b = E9 m c b :=
  fun b hb => Y10_of_ne m dat0 c b fun w e => hb (Finset.mem_image.mpr ⟨w, Finset.mem_univ _, e⟩)

/-- After the stretch between the regions (the column statistics turned into scale and shift). -/
abbrev Y11 : Dev nD → Valuation τ sig (Elt F) := fun c => StableHlo.after hostOps1 (Y10 m dat0 c)
abbrev E11 : Entry F := fun c b => Y11 m dat0 c b
/-- After the normalising region. -/
def Y12 (c : Dev nD) : Valuation τ sig (Elt F) :=
  Pipeline.withArrays spec1 c (Y11 m dat0 c) fun w => (dat1 (E11 m dat0) c).arrAt w cfg1.N
theorem Y12_arr (c : Dev nD) (w : Fin cfg1.W) :
    Y12 m dat0 dat1 c (Proc.devRef .tc (Pipeline.arrRef spec1 w)) = (dat1 (E11 m dat0) c).arrAt w cfg1.N := by
  unfold Y12; exact Pipeline.withArrays_arr spec1 launch1.win.arr_inj c _ _ w
theorem Y12_of_ne (c : Dev nD) (b : Ref sig .tc) (hb : ∀ w, Pipeline.arrRef spec1 w ≠ b) :
    Y12 m dat0 dat1 c (Proc.devRef .tc b) = Y11 m dat0 c (Proc.devRef .tc b) := by
  unfold Y12; exact Pipeline.withArrays_of_ne spec1 c _ _ b hb
abbrev E12 : Entry F := fun c b => Y12 m dat0 dat1 c b
theorem hF1 (c : Dev nD) (w : Fin cfg1.W) : (dat1 (E11 m dat0) c).arrAt w cfg1.N = E12 m dat0 dat1 c (Pipeline.arrRef spec1 w) :=
  (Y12_arr m dat0 dat1 c w).symm
theorem hrest1 (c : Dev nD) : ∀ b, b ∉ Finset.univ.image (Pipeline.arrRef spec1) → E12 m dat0 dat1 c b = E11 m dat0 c b :=
  fun b hb => Y12_of_ne m dat0 dat1 c b fun w e => hb (Finset.mem_image.mpr ⟨w, Finset.mem_univ _, e⟩)

/-! ## The proof data family and the thread state -/

abbrev hadm : (p : Fin 2) → (pcfgs (F := F) p).Adm := fun p => (cfgs p).toPCfg_adm
/-- Both pipelines' proof data, each at its region's entry contents (a literal match on the pipeline's index). -/
def pd : (p : Fin 2) → (c : Dev nD) → Dat τ (Elt F) Unit ℕ (UR sig nD τ) ℕ (Pipeline.pin (pcfgs (F := F)) hadm p) c
  | ⟨0, _⟩ => fun c => dat0 (E9 m) c
  | ⟨1, _⟩ => fun c => dat1 (E11 m dat0) c
abbrev vNone : Variants := Variants.none
abbrev noL : GSem nD τ sig → Finset Unit := fun _ => ∅
abbrev lv0 : GSem nD τ sig → Unit → ℕ := fun _ _ => 0
/-- What rides beside the buffers through every segment: the generator register at some state, nothing owed. -/
abbrev Rst (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vNone noL lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (Y12 m dat0 dat1 c) ∗ ∃ r, prngReg c r)

variable {dat0 dat1} (hL : Legs (F := F) dat0 dat1)

/-! ## The regions as segments -/

set_option backward.isDefEq.respectTransparency.types false in
/-- The statistics region: entered from every unscoped buffer at the ninth boundary's contents, left at `Y10`. Its
    arrays are split out of the unscoped buffers and put back at the exit contents; the generator register and the
    scoped rest enter the kernel's invariant through the class invariant and come back the same way. -/
def reg0 : Pipeline.RegionSeg (pcfgs (F := F)) hadm (pd m dat0 dat1) () defs₀ vNone noL lv0 0 where
  win := launch0.win.to₀
  block_pos := launch0.block_pos
  stage_whole := launch0.stage_whole
  K := PEmpty
  osem k := k.elim
  ho := Pipeline.OwnSemFacts.none _
  hbody c := (hL.body0 (E9 m) c).loose
  hwaits := Pipeline.hwaits_of_owed_zero _ _ _ _ noL lv0 0 fun c t => hL.owed0 (E9 m) c t
  pre c := iprop(StableHlo.held (c : Thread nD τ) (Pipeline.ucRefs τ sig) (V9 m c) ∗ Rst c)
  post c := iprop(StableHlo.held (c : Thread nD τ) (Pipeline.ucRefs τ sig) (Y10 m dat0 c) ∗ Rst c)
  X c := iprop(∃ r, prngReg c r)
  Y c := iprop(∃ r, prngReg c r)
  Z c := Pipeline.unscopedRest (Ix := Unit) (Name := ℕ) (U := UR sig nD τ) (Lvl := ℕ) spec0 c (E9 m c)
  hentry c := by
    rw [Pipeline.ownSems0_none]
    have hsplit := Pipeline.arrays_of_unscopedBufs (p := 0) (pcfgs (F := F)) hadm (pd m dat0 dat1) launch0.win launch0.arr_whole c
      ((pd m dat0 dat1 0 c).share_full fun w => hL.q0 (E9 m) c w) (E9 m c) fun w => hL.A0 (E9 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd m dat0 dat1 0 c).owed 0 = 0 from hL.owed0 (E9 m) c 0]
      icases HO with ⟨%W, HO⟩; iexists W; isplitr
      · ipureintro; exact fun x _ => Or.inl (show x ∈ (dat0 (E9 m) c).recorded 0 from by rw [hL.rec0]; trivial)
      iexact HO
    isplitl [Hp]; · iexact Hp
    iexact Hrest
  hin c := by
    have h1 : (iprop((∃ r, prngReg c r) ∗ Pipeline.prefHeld (pcfgs (F := F) 0).pre c (fun _ => fullShare) (hadm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (hL.hin0 (E9 m) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (hL.hout0 (E9 m) c).trans h2
  hexit c := by
    have hjoin := Pipeline.unscopedBufs_of_arrays (p := 0) (pcfgs (F := F)) hadm (Ix := Unit) (Name := ℕ) (U := UR sig nD τ) (Lvl := ℕ)
      launch0.win launch0.arr_whole c (pd m dat0 dat1) ((pd m dat0 dat1 0 c).share_full fun w => hL.q0 (E9 m) c w)
      (E9 m c) (E10 m dat0 c) ((pd m dat0 dat1 0 c).arrAt · cfg0.N) (hF0 m dat0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pd m dat0 dat1 0 c).owed (Fin.last _) = 0 from hL.owed0 (E9 m) c _]
    icases HO with ⟨%W, -, HO⟩; iexists W; iexact HO

set_option backward.isDefEq.respectTransparency.types false in
/-- The normalising region: entered from every unscoped buffer at `Y11`, left at `Y12` (what the launch reads at the end). -/
def reg1 : Pipeline.RegionSeg (pcfgs (F := F)) hadm (pd m dat0 dat1) () defs₀ vNone noL lv0 1 where
  win := launch1.win.to₀
  block_pos := launch1.block_pos
  stage_whole := launch1.stage_whole
  K := PEmpty
  osem k := k.elim
  ho := Pipeline.OwnSemFacts.none _
  hbody c := (hL.body1 (E11 m dat0) c).loose
  hwaits := Pipeline.hwaits_of_owed_zero _ _ _ _ noL lv0 1 fun c t => hL.owed1 (E11 m dat0) c t
  pre c := iprop(StableHlo.held (c : Thread nD τ) (Pipeline.ucRefs τ sig) (Y11 m dat0 c) ∗ Rst c)
  post c := iprop(Tn m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E11 m dat0 c)
  hentry c := by
    rw [Pipeline.ownSems0_none]
    have hsplit := Pipeline.arrays_of_unscopedBufs (p := 1) (pcfgs (F := F)) hadm (pd m dat0 dat1) launch1.win launch1.arr_whole c
      ((pd m dat0 dat1 1 c).share_full fun w => hL.q1 (E11 m dat0) c w) (E11 m dat0 c) fun w => hL.A1 (E11 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pd m dat0 dat1 1 c).owed 0 = 0 from hL.owed1 (E11 m dat0) c 0]
      icases HO with ⟨%W, HO⟩; iexists W; isplitr
      · ipureintro; exact fun x _ => Or.inl (show x ∈ (dat1 (E11 m dat0) c).recorded 0 from by rw [hL.rec1]; trivial)
      iexact HO
    isplitl [Hp]; · iexact Hp
    iexact Hrest
  hin c := by
    have h1 : (iprop((∃ r, prngReg c r) ∗ Pipeline.prefHeld (pcfgs (F := F) 1).pre c (fun _ => fullShare) (hadm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h1.trans (hL.hin1 (E11 m dat0) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hL.hout1 (E11 m dat0) c).trans h2
  hexit c := by
    have hjoin := Pipeline.unscopedBufs_of_arrays (p := 1) (pcfgs (F := F)) hadm (Ix := Unit) (Name := ℕ) (U := UR sig nD τ) (Lvl := ℕ)
      launch1.win launch1.arr_whole c (pd m dat0 dat1) ((pd m dat0 dat1 1 c).share_full fun w => hL.q1 (E11 m dat0) c w)
      (E11 m dat0 c) (E12 m dat0 dat1 c) ((pd m dat0 dat1 1 c).arrAt · cfg1.N) (hF1 m dat0 dat1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pd m dat0 dat1 1 c).owed (Fin.last _) = 0 from hL.owed1 (E11 m dat0) c _]
    icases HO with ⟨%W, -, HO⟩; iexists W; iexact HO

/-! ## @main as segments, and the launch -/

/-- @main's twelve segments in order. -/
abbrev hsegs : List (Pipeline.Seg (pcfgs (F := F)) hadm (pd m dat0 dat1) () defs₀ vNone noL lv0) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .region (reg0 m hL),
    .host (hseg hostOps1 hostOps1_sub hostOps1_fresh (Y10 m dat0)),
    .region (reg1 m hL) ]

include hL in
set_option backward.isDefEq.respectTransparency.types false in
/-- THE RUN: from any memory with zero counters every weakly fair execution of @main terminates, nothing faulting,
    and every final state holds every unscoped buffer of every core at the last boundary's contents `Y12`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Y12 m dat0 dat1 c b) :=
  Pipeline.θ_run_regions_kit (pcfgs (F := F)) hadm (pd m dat0 dat1) () cellOf_inj emb₁ defs₀ vNone noL lv0 m ρ main (hsegs m hL)
    (fun c Q => by
      rewrite [main_chain c, Pipeline.Seg.run_eq_chain,
        show (hsegs m hL).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (by simp only [hsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c)) (Tₙ := Tn m dat0 dat1)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach noL lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y12 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (Y12 m dat0 dat1 c) s')
      isplitl [Hh] <;> iassumption)
    (hQ := fun s h c => h c)

end Cert.KernelIdeal.Hand

end
-- ==== Proof.KI.Frames.lean ====
/-
  What the run's post gives: every argument array ends as launched, and the result array ends at what the
  normalising region's write-backs leave. An argument is written by no host operation and is no output window's
  array; the bias vector is an INPUT window's array of both regions, so its buffer is read back through the two
  regions' entry contents (an input window's array is never written back).
-/
import proofs.«112734_j34411277975785_2_alg».proof.Proof.KI.Assembly

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (ρ : Dev nD → PrngReg)
variable {dat0 : Entry F → (c : Dev nD) → Dat τ (Elt F) Unit ℕ (UR sig nD τ) ℕ cfg0 c}
  {dat1 : Entry F → (c : Dev nD) → Dat τ (Elt F) Unit ℕ (UR sig nD τ) ℕ cfg1 c}

/-- A buffer none of the first nine stretches writes holds its launch contents at the ninth boundary. -/
theorem V9_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W)
    (h8 : r ∉ hostOps0_8_W) : V9 m c r = m ((c : Thread nD τ).loc r) :=
  (V9_of m c r h8).trans <| (V8_of m c r h7).trans <| (V7_of m c r h6).trans <| (V6_of m c r h5).trans <|
    (V5_of m c r h4).trans <| (V4_of m c r h3).trans <| (V3_of m c r h2).trans <| (V2_of m c r h1).trans <|
    (V1_of m c r h0).trans rfl

/-- A buffer that is no window's array of either region and that the stretch between them does not write ends
    at its contents at the ninth boundary. -/
theorem Y12_keep (c : Dev nD) (r : Ref sig .tc) (ha : ∀ w, Pipeline.arrRef spec0 w ≠ r) (hb : ∀ w, Pipeline.arrRef spec1 w ≠ r)
    (h : r ∉ hostOps1_W) : Y12 m dat0 dat1 c r = V9 m c r :=
  (Y12_of_ne m dat0 dat1 c r hb).trans <|
    (StableHlo.after_of_writes_sub hostOps1 _ hostOps1_writes h).trans (Y10_of_ne m dat0 c r ha)

variable (hL : Legs (F := F) dat0 dat1)
include hL

/-- The bias vector's buffer, an input window's array of both regions, ends as at the ninth boundary. -/
theorem Y12_bias (c : Dev nD) : Y12 m dat0 dat1 c main_arg2 = V9 m c main_arg2 :=
  calc Y12 m dat0 dat1 c main_arg2
    _ = Y11 m dat0 c main_arg2 := (Y12_arr m dat0 dat1 c 4).trans (((dat1 (E11 m dat0) c).arrAt_in 4 rfl _).trans (hL.A1 (E11 m dat0) c 4))
    _ = Y10 m dat0 c main_arg2 := StableHlo.after_of_writes_sub hostOps1 _ hostOps1_writes (by decide)
    _ = V9 m c main_arg2 := (Y10_arr m dat0 c 3).trans (((dat0 (E9 m) c).arrAt_in 3 rfl _).trans (hL.A0 (E9 m) c 3))

/-- The result array ends at what the normalising region's write-backs leave in its output window's array. -/
theorem Y12_result (c : Dev nD) : Y12 m dat0 dat1 c main_v45 = (dat1 (E11 m dat0) c).arrAt 7 cfg1.N :=
  Y12_arr m dat0 dat1 c 7

/-- THE RUN with its readings: the result array named, every argument as launched. -/
theorem run_value : θ_run defs (onTc (τ := τ) (main (F := F))) ⟨m, fun _ => 0, ρ⟩ (fun r => ∀ c : Dev nD,
      r.2.mem ((c.tc : Thread nD τ).loc main_v45) = (dat1 (E11 m dat0) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v45 (by decide))).trans (Y12_result m hL c),
     (h c _ (mem_uc main_arg0 (by decide))).trans ((Y12_keep m c main_arg0 (by decide) (by decide) (by decide)).trans
        (V9_keep m c main_arg0 (by decide) (by decide) (by decide) (by decide) (by decide) (by decide) (by decide) (by decide) (by decide))),
     (h c _ (mem_uc main_arg1 (by decide))).trans ((Y12_keep m c main_arg1 (by decide) (by decide) (by decide)).trans
        (V9_keep m c main_arg1 (by decide) (by decide) (by decide) (by decide) (by decide) (by decide) (by decide) (by decide) (by decide))),
     (h c _ (mem_uc main_arg2 (by decide))).trans ((Y12_bias m hL c).trans
        (V9_keep m c main_arg2 (by decide) (by decide) (by decide) (by decide) (by decide) (by decide) (by decide) (by decide) (by decide))),
     (h c _ (mem_uc main_arg3 (by decide))).trans ((Y12_keep m c main_arg3 (by decide) (by decide) (by decide)).trans
        (V9_keep m c main_arg3 (by decide) (by decide) (by decide) (by decide) (by decide) (by decide) (by decide) (by decide) (by decide))),
     (h c _ (mem_uc main_arg4 (by decide))).trans ((Y12_keep m c main_arg4 (by decide) (by decide) (by decide)).trans
        (V9_keep m c main_arg4 (by decide) (by decide) (by decide) (by decide) (by decide) (by decide) (by decide) (by decide) (by decide))),
     (h c _ (mem_uc main_arg5 (by decide))).trans ((Y12_keep m c main_arg5 (by decide) (by decide) (by decide)).trans
        (V9_keep m c main_arg5 (by decide) (by decide) (by decide) (by decide) (by decide) (by decide) (by decide) (by decide) (by decide))),
     (h c _ (mem_uc main_arg6 (by decide))).trans ((Y12_keep m c main_arg6 (by decide) (by decide) (by decide)).trans
        (V9_keep m c main_arg6 (by decide) (by decide) (by decide) (by decide) (by decide) (by decide) (by decide) (by decide) (by decide)))⟩)
    (run_all m ρ hL)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ hL)

end Cert.KernelIdeal.Hand

end
-- ==== Proof.KI.Region0.Runs.lean ====
import proofs.«112734_j34411277975785_2_alg».proof.Proof.Gen.KernelIdeal.Launch
import proofs.«112734_j34411277975785_2_alg».proof.Proof.Gen.KernelIdeal.Skeleton
import proofs.«112734_j34411277975785_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the statistics kernel, grid 2 × 5) at the buffer contents `V` found when the region is entered:
    what the three whole-body runs share -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- The first conditional's condition (inner coordinate = 0: the accumulators are zeroed), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 5). -/
theorem hcond0_0 : ∀ t : Fin cfg0.N, cond0_0 (grid0.coords t) ↔ t.val % 5 = 0 :=
  (by decide +kernel : ∀ t : Fin grid0.N, cond0_0 (grid0.coords t) ↔ t.val % 5 = 0)

/-- The second conditional's condition (inner coordinate = 4: row 0 of the outputs is stored). -/
abbrev cond0_1 (i : grid0.Coords) : Prop := k0_cond2 i = 1#1
/-- It holds at the points ≡ 4 (mod 5). -/
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Output 4 is idle and not written back where the inner coordinate is not 4; live where it is. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel
/-- Output 5 is idle and not written back where the inner coordinate is not 4; live where it is. -/
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output window, through which its contents are stated (the choice does not matter). -/
abbrev VO0_4 : View sig .tc .vmem S8x128 .f32 := (Memref.whole cc0_stg4_0 : Memref sig .tc .vmem S8x128 .f32).view
abbrev VO0_5 : View sig .tc .vmem S8x128 .f32 := (Memref.whole cc0_stg5_0 : Memref sig .tc .vmem S8x128 .f32).view
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x128 .f32 := win0_5.stage (cfg0.slots t 5)
abbrev hs0_5 (t : Fin cfg0.N) : (ms0_5 t).IsWhole := hstage0_5 ((cfg0.slots t 5).cast nbuf0_5)
/-- The two scratch operands (the running column sums of h and of h·h): whole scoped buffers, passed beside the windows. -/
abbrev scM0_0 : Memref sig .tc .vmem S1x128 .f32 := Memref.whole cc0_scratch0
abbrev scM0_1 : Memref sig .tc .vmem S1x128 .f32 := Memref.whole cc0_scratch1
abbrev VS0_0 : View sig .tc .vmem S1x128 .f32 := scM0_0.view
abbrev VS0_1 : View sig .tc .vmem S1x128 .f32 := scM0_1.view

/-- The core's other scoped buffers that are no staging buffer of this region (the second region's staging buffers),
    each whole at some contents: the body never touches them. -/
def restA0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region invariant the launch hands over, with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restA0 (F := F) c) ∗ (∃ r, prngReg c r)) := by
  unfold Pipeline.ΦA restA0; rw [scopedRest0_eq]; simp only [scM0_0, scM0_1, owns_whole]; try rfl

end Cert.KernelIdeal.Hand

end
-- ==== Proof.KI.Region0.RunA.lean ====
import proofs.«112734_j34411277975785_2_alg».proof.Proof.KI.Region0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The whole body in the case of inner coordinate 0 (points 0, 5): both accumulators are zeroed, then this block's column sums are added; the outputs are left untouched. On whole staging memrefs — the inputs' at their contents `x·`, the outputs' at contents `xi·` handed back untouched, the accumulators at anything — the
    body runs to the continuation holding the inputs' as they were and each accumulator with its pieces `LS·` written.
    The pieces (last first) are the witness the run finds. -/
noncomputable def kernelRun0_A (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) :
    Σ' (L4 : List (View.Piece (Elt F) S8x128 .f32)) (L5 : List (View.Piece (Elt F) S8x128 .f32)) (LS0 : List (View.Piece (Elt F) S1x128 .f32)), { LS1 : List (View.Piece (Elt F) S1x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Region0.RunB.lean ====
import proofs.«112734_j34411277975785_2_alg».proof.Proof.KI.Region0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The whole body in the case of inner coordinate 1, 2, 3 (points 1–3, 6–8): this block's column sums are added to the accumulators; the outputs are left untouched. On whole staging memrefs — the inputs' at their contents `x·`, the outputs' at contents `xi·` handed back untouched, the accumulators at the contents `xs·` the point before left — the
    body runs to the continuation holding the inputs' as they were and each accumulator with its pieces `LS·` written.
    The pieces (last first) are the witness the run finds. -/
noncomputable def kernelRun0_B (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) :
    Σ' (L4 : List (View.Piece (Elt F) S8x128 .f32)) (L5 : List (View.Piece (Elt F) S8x128 .f32)) (LS0 : List (View.Piece (Elt F) S1x128 .f32)), { LS1 : List (View.Piece (Elt F) S1x128 .f32) //
      ∀ (xi4 xi5 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KI.Region0.RunC.lean ====
import proofs.«112734_j34411277975785_2_alg».proof.Proof.KI.Region0.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The whole body in the case of inner coordinate 4 (points 4, 9): this block's column sums are added to the accumulators, and row 0 of each output block is stored from them (the other rows zero). On whole staging memrefs — the inputs' at their contents `x·`, the outputs' at anything, the accumulators at the contents `xs·` the point before left — the
    body runs to the continuation holding the inputs' as they were, each output's buffer with its pieces `L·` written and each accumulator with its pieces `LS·` written.
    The pieces (last first) are the witness the run finds. -/
noncomputable def kernelRun0_C (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) :
    Σ' (L4 : List (View.Piece (Elt F) S8x128 .f32)) (L5 : List (View.Piece (Elt F) S8x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Hand

end
-- ==== Proof.KI.Region0.lean ====
import proofs.«112734_j34411277975785_2_alg».proof.Proof.KI.Region0.RunA
import proofs.«112734_j34411277975785_2_alg».proof.Proof.KI.Region0.RunB
import proofs.«112734_j34411277975785_2_alg».proof.Proof.KI.Region0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the statistics kernel): what the outputs and the two accumulators hold point by point, the proof
    data, and the body obligation, at the buffer contents `V` found when the region is entered -/

/-! ## What each case leaves in the outputs' buffers and in the accumulators -/

/-- What the case of inner coordinate 0 leaves in output 4's staging buffer: its pieces read back (none: the case stores nothing there, the window is idle and not written back, and nothing consults this placeholder). -/
def out0_A_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S8x128 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

/-- What the case of inner coordinate 0 leaves in output 5's staging buffer: its pieces read back (none: the case stores nothing there, the window is idle and not written back, and nothing consults this placeholder). -/
def out0_A_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S8x128 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3).2.1)

/-- In the case of inner coordinate 0 the stores into accumulator 0 are of the whole row, so the pieces cover it. -/
theorem scover0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) (y : S1x128.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S1x128.size (by sl_kernel_rfl) y

/-- What the case of inner coordinate 0 leaves in accumulator 0: its pieces read back. -/
def sout0_A_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S1x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.2.1)

/-- In the case of inner coordinate 0 the stores into accumulator 1 are of the whole row, so the pieces cover it. -/
theorem scover0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) (y : S1x128.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S1x128.size (by sl_kernel_rfl) y

/-- What the case of inner coordinate 0 leaves in accumulator 1: its pieces read back. -/
def sout0_A_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) : Vec F S1x128 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.2.1)

/-- What the case of inner coordinate 1, 2 or 3 leaves in output 4's staging buffer: its pieces read back (none: the case stores nothing there, the window is idle and not written back, and nothing consults this placeholder). -/
def out0_B_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1).1)

/-- What the case of inner coordinate 1, 2 or 3 leaves in output 5's staging buffer: its pieces read back (none: the case stores nothing there, the window is idle and not written back, and nothing consults this placeholder). -/
def out0_B_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 xs0 xs1).2.1)

/-- In the case of inner coordinate 1, 2 or 3 the stores into accumulator 0 are of the whole row, so the pieces cover it. -/
theorem scover0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.1 S1x128.size (by sl_kernel_rfl) y

/-- What the case of inner coordinate 1, 2 or 3 leaves in accumulator 0: its pieces read back. -/
def sout0_B_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1).2.2.1)

/-- In the case of inner coordinate 1, 2 or 3 the stores into accumulator 1 are of the whole row, so the pieces cover it. -/
theorem scover0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the case of inner coordinate 1, 2 or 3 leaves in accumulator 1: its pieces read back. -/
def sout0_B_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1).2.2.2.1)

/-- In the case of inner coordinate 4 the one store into output 4 is of the whole block, so the pieces cover it. -/
theorem cover0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).1 S8x128.size (by sl_kernel_rfl) y

/-- What the case of inner coordinate 4 leaves in output 4's staging buffer: its pieces read back. -/
def out0_C_4 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1).1)

/-- In the case of inner coordinate 4 the one store into output 5 is of the whole block, so the pieces cover it. -/
theorem cover0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S8x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.1 S8x128.size (by sl_kernel_rfl) y

/-- What the case of inner coordinate 4 leaves in output 5's staging buffer: its pieces read back. -/
def out0_C_5 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S8x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 xs0 xs1).2.1)

/-- In the case of inner coordinate 4 the stores into accumulator 0 are of the whole row, so the pieces cover it. -/
theorem scover0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.1 S1x128.size (by sl_kernel_rfl) y

/-- What the case of inner coordinate 4 leaves in accumulator 0: its pieces read back. -/
def sout0_C_0 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1).2.2.1)

/-- In the case of inner coordinate 4 the stores into accumulator 1 are of the whole row, so the pieces cover it. -/
theorem scover0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) (y : S1x128.Idx) :
    ∃ pc ∈ (kernelRun0_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1).2.2.2.1 S1x128.size (by sl_kernel_rfl) y

/-- What the case of inner coordinate 4 leaves in accumulator 1: its pieces read back. -/
def sout0_C_1 (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 : Vec F S1x128 .f32) (xs1 : Vec F S1x128 .f32) : Vec F S1x128 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1).2.2.2.1)

/-! ## What the outputs and the accumulators hold after each point -/

/-- What the two outputs' staging buffers and the two accumulators hold after the body at position `n`, as a tuple
    (output 4's buffer, output 5's buffer, accumulator 0 — the running column sums of h —, accumulator 1 — those of h·h):
    the case the closed forms select at `n`, run at the point's memrefs and input blocks, the accumulators taken at
    what the point before left (in the case of inner coordinate 0 they are zeroed first, so nothing earlier is read). -/
def outsAt0 (c : Dev nD) : (n : ℕ) → n < cfg0.N → Vec F S8x128 .f32 × Vec F S8x128 .f32 × Vec F S1x128 .f32 × Vec F S1x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 5 = 0 then
      if h1 : (n + 1) % 5 = 4 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 5 = 4 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- `outsAt0` at a point of inner coordinate 0. -/
theorem outsAt0_A (c : Dev nD) (t : Fin cfg0.N) (h0 : t.val % 5 = 0) (h1 : ¬t.val % 5 = 4) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of inner coordinate 1, 2 or 3: over what the point before left in the accumulators. -/
theorem outsAt0_B (c : Dev nD) (t : Fin cfg0.N) (h0 : ¬t.val % 5 = 0) (h1 : ¬t.val % 5 = 4) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of inner coordinate 4: over what the point before left in the accumulators. -/
theorem outsAt0_C (c : Dev nD) (t : Fin cfg0.N) (h0 : ¬t.val % 5 = 0) (h1 : t.val % 5 = 4) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (both accumulators at
    anything); afterwards both accumulators at what the point before left in them, the other scoped buffers at anything,
    and the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restA0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ restA0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ restA0 (F := F) c) ∗ (∃ r, prngReg c r)) := by
  cases n with
  | zero => exact absurd rfl hz
  | succ n => rfl

/-! ## The pipeline's proof data -/

/-- The proof data of region 0 on core `c`: the arrays as the region finds them (`V`); after the body at point `t`
    each input's buffer at its block and the outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body both accumulators at what the point before left (at anything before the first point) and
    takes them back at this point's contents; an output the case does not store is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val % 5 = 0
  · by_cases h1 : t.val % 5 = 4
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0 sout0_A_1; (try dsimp only)
      by_cases hz : t.val = 0
      · rw [PhiS0_castSucc V c t, PhiS0_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · by_cases h1 : t.val % 5 = 4
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_4 out0_C_5 sout0_C_0 sout0_C_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS0_castSucc V c t, PhiS0_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Cert.KernelIdeal.Hand

end
-- ==== Proof.KI.Region1.lean ====
/- REGION 1 of @main: the fused layer kernel (pipeline 1), at the buffer contents `V` found when the region is
   entered. Each window's block at a grid point; what the body leaves in the output window's buffer, as a function
   of the seven input blocks; the body's triple; the pipeline's proof data; the body obligation at every point. -/
import proofs.«112734_j34411277975785_2_alg».proof.Proof.Gen.KernelIdeal.Launch
import proofs.«112734_j34411277975785_2_alg».proof.Proof.Gen.KernelIdeal.Skeleton
import proofs.«112734_j34411277975785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- the blocks' long axis has 5000 coordinates
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, whether or not the block is
    transferred there: where it is not, the block index has not moved since the last transfer, and the body leaves
    the block in place. Stated for ANY proof data whose array is `V`'s (`hA`) and whose body leaves the block in
    place (`hafter`). Windows 0, 1, 2 move at every point; windows 3, 4, 5, 6 (the weight, the bias, the scale and
    the shift) are whole arrays, transferred once. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every window is read or written WHOLE, through the rectangle of all its indices -/

abbrev r1_a : Rect S5000x128 := Rect.unit (s := S5000x128) ![0, 0] S5000x128.size inb_S5000x128_S5000x128_0_0
abbrev r1_n : Rect S5000x1 := Rect.unit (s := S5000x1) ![0, 0] S5000x1.size inb_S5000x1_S5000x1_0_0
abbrev r1_w : Rect S128x128 := Rect.unit (s := S128x128) ![0, 0] S128x128.size inb_S128x128_S128x128_0_0
abbrev r1_b : Rect S128 := Rect.unit (s := S128) ![0] S128.size inb_S128_S128_0
abbrev r1_s : Rect S1x128 := Rect.unit (s := S1x128) ![0, 0] S1x128.size inb_S1x128_S1x128_0_0

theorem zero_off2 : (![0, 0] : Fin 2 → Nat) = fun _ => 0 := by funext a; fin_cases a <;> rfl
theorem zero_off1 : (![0] : Fin 1 → Nat) = fun _ => 0 := by funext a; fin_cases a; rfl

/-! ## What the body leaves in the output window's buffer -/

/-- Window 7's staging buffer after the body, from the seven input blocks (aggregate, degree norm, features,
    weight, bias, scale, shift): its one store, of `feat + max(((agg·W + b)·norm)·scale + shift, 0)`. -/
def out1_7 (x0 : Vec F S5000x128 .f32) (x1 : Vec F S5000x1 .f32) (x2 : Vec F S5000x128 .f32) (x3 : Vec F S128x128 .f32) (x4 : Vec F S128 .f32) (x5 x6 : Vec F S1x128 .f32) : Vec F S5000x128 .f32 :=
  View.canon [⟨r1_a, k1_pay1 (View.ld x0 r1_a) (View.ld x3 r1_w) (View.ld x4 r1_b) (View.ld x1 r1_n) (View.ld x5 r1_s) (View.ld x6 r1_s) (View.ld x2 r1_a)⟩]

/-- One store through the rectangle of ALL the buffer's indices leaves its payload, and a load through such a
    rectangle reads the whole contents: the buffer after the body is the body's arithmetic of the input blocks. -/
theorem out1_7_eq (x0 : Vec F S5000x128 .f32) (x1 : Vec F S5000x1 .f32) (x2 : Vec F S5000x128 .f32) (x3 : Vec F S128x128 .f32) (x4 : Vec F S128 .f32) (x5 x6 : Vec F S1x128 .f32) :
    out1_7 x0 x1 x2 x3 x4 x5 x6 = k1_pay1 x0 x3 x4 x1 x5 x6 x2 := by
  unfold out1_7
  rw [View.canon_unit_zero zero_off2]
  simp only [View.ld_unit_zero (S := S5000x128) zero_off2, View.ld_unit_zero (S := S5000x1) zero_off2,
    View.ld_unit_zero (S := S128x128) zero_off2, View.ld_unit_zero (S := S128) zero_off1,
    View.ld_unit_zero (S := S1x128) zero_off2]

/-- The one store covers the buffer. -/
theorem cover1_7 (p0 : Vec F S5000x128 .f32) (y : S5000x128.Idx) :
    ∃ pc ∈ ([⟨r1_a, p0⟩] : List (View.Piece (Elt F) S5000x128 .f32)), y ∈ pc.1.set :=
  View.cover_of_tiled [⟨r1_a, p0⟩] S5000x128.size (by rfl) y

/-! ## The body's triple -/

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S5000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S5000x1 .f32) (x2 : Vec F S5000x128 .f32) (x3 : Vec F S128x128 .f32) (x4 : Vec F S128 .f32) (x5 x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__fused_kernel i arg1 harg1 arg2 harg2 arg3 harg3 arg4 harg4 arg5 harg5 arg6 harg6 arg7 harg7 arg8 harg8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of pipeline 1 on core `c`: the arrays as the region finds them (`V`); after the body at point
    `t` each input's buffer at its block and the output's at `out1_7` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline's proof data, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Legs.lean ====
/-
  The two pipelines' proof data meet what the launch asks of them: the arrays are the entry contents, full shares,
  nothing owed, the body obligation at every point; the statistics region's invariant (its two running column sums
  tracked point by point) is entered from and left at the scoped rest beside the generator register, and the
  normalising region's invariant is that rest itself.
-/
import proofs.«112734_j34411277975785_2_alg».proof.Proof.KI.Assembly
import proofs.«112734_j34411277975785_2_alg».proof.Proof.KI.Region0
import proofs.«112734_j34411277975785_2_alg».proof.Proof.KI.Region1

set_option maxRecDepth 16384

noncomputable section

namespace Cert.KernelIdeal.Hand

open Cert.KernelIdeal Cert.KernelIdeal.Gen
open Idealize.ShloMosaic Idealize.ShloMosaic.TcCoe
open Idealize.SL Idealize.SL.BI Idealize.SL.Sem
open Idealize.ShloMosaic.Pipeline (Dat)

variable {F : FTy → Type} [FloatOps F]

theorem legs : Legs (F := F) (fun V c => dat0 V c) (fun V c => dat1 V c) where
  A0 := fun V c w => A_eq0 V c w
  q0 := fun V c w => rfl
  owed0 := fun V c t => rfl
  rec0 := fun V c t => rfl
  body0 := fun V c => body_obligation0 V c
  hin0 := fun V c => hin0 V c
  hout0 := fun V c => hout0 V c
  A1 := fun V c w => A_eq1 V c w
  q1 := fun V c w => rfl
  owed1 := fun V c t => rfl
  rec1 := fun V c t => rfl
  body1 := fun V c => body_obligation1 V c
  hin1 := fun V c => .rfl
  hout1 := fun V c => .rfl

end Cert.KernelIdeal.Hand

end
-- ==== Proof.KI.Mid.lean ====
/-
  Between the two regions: the column statistics the first region leaves in two [16,128] arrays are summed over
  their sixteen rows, divided by the number of nodes, and turned into the affine map's scale and shift rows
      mean k  = (Σ_i s (i,k)) / N,      var k = max ((Σ_i q (i,k)) / N − mean k · mean k) 0,
      scale k = gamma k · (var k + ε)^(−1/2),      shift k = beta k − mean k · scale k,
  read here entry by entry at the exact extended reals.
-/
import proofs.«112734_j34411277975785_2_alg».proof.Proof.KI.Assembly
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The column sums of a [16,128] array as a [1,128] row (the host's sum from a zero start). -/
def colSum16 (s : FVec Ideal S16x128 .f32) : FVec Ideal S1x128 .f32 :=
  broadcastInDim S1x128 ![1] bcast_S128_S1x128_1
    (Host.reduceAdd (F := Ideal) s (constant (F := Ideal) S_ .f32 0x00000000#32) reducesTo_S16x128_S128_d0 h_S_)
/-- A scalar word laid over a [1,128] row. -/
def wordRow (w : BitVec 32) : FVec Ideal S1x128 .f32 :=
  broadcastInDim S1x128 ![] bcast_S_S1x128 (constant (F := Ideal) S_ .f32 w)
/-- A [128] vector laid out as a [1,128] row. -/
def vecRow (v : FVec Ideal S128 .f32) : FVec Ideal S1x128 .f32 :=
  broadcastInDim S1x128 ![1] bcast_S128_S1x128_1 v
def meanRow (s : FVec Ideal S16x128 .f32) : FVec Ideal S1x128 .f32 :=
  Host.divf (F := Ideal) (colSum16 s) (wordRow 0x47435000#32)
def scaleRow (s q : FVec Ideal S16x128 .f32) (gamma : FVec Ideal S128 .f32) :
    FVec Ideal S1x128 .f32 :=
  mulf (vecRow gamma) (Host.rsqrt (F := Ideal) (addf (maximumf (subf (Host.divf (F := Ideal) (colSum16 q) (wordRow 0x47435000#32))
    (mulf (meanRow s) (meanRow s))) (wordRow 0x00000000#32)) (wordRow 0x3727C5AC#32)))
def shiftRow (s q : FVec Ideal S16x128 .f32) (gamma beta : FVec Ideal S128 .f32) :
    FVec Ideal S1x128 .f32 :=
  subf (vecRow beta) (mulf (meanRow s) (scaleRow s q gamma))

variable (m : (ℓ : Loc nD τ sig) → Buf (Elt Ideal) ℓ)
variable (dat0 : Entry Ideal → (c : Dev nD) → Dat τ (Elt Ideal) Unit ℕ (UR sig nD τ) ℕ cfg0 c)

/-- The scale row the second region is entered with. -/
theorem E11_scale (c : Dev nD) : E11 m dat0 c main_v41
    = scaleRow (Y10 m dat0 c main_v24_0) (Y10 m dat0 c main_v24_1) (Y10 m dat0 c main_arg3) := by
  show StableHlo.after hostOps1 (Y10 m dat0 c) (Proc.devRef .tc main_v41) = _
  generalize Y10 m dat0 c = W
  after_results_simp
  rfl

/-- The shift row the second region is entered with. -/
theorem E11_shift (c : Dev nD) : E11 m dat0 c main_v44
    = shiftRow (Y10 m dat0 c main_v24_0) (Y10 m dat0 c main_v24_1) (Y10 m dat0 c main_arg3) (Y10 m dat0 c main_arg4) := by
  show StableHlo.after hostOps1 (Y10 m dat0 c) (Proc.devRef .tc main_v44) = _
  generalize Y10 m dat0 c = W
  after_results_simp
  rfl

/-! ## The rows read at an entry -/

theorem wordRow_apply (w : BitVec 32) (i : S1x128.Idx) : wordRow w i = Ideal.ofBits .f32 w := by
  unfold wordRow
  exact broadcastInDim_apply _ bcast_S_S1x128 (constant (F := Ideal) S_ .f32 w) i (fun a => a.elim0) (fun a => a.elim0)

theorem vecRow_apply (v : FVec Ideal S128 .f32) (u : Fin 1) (k : Fin 128) :
    vecRow v (ix2 u k) = v (ix1 k) := by
  unfold vecRow
  exact broadcastInDim_apply _ bcast_S128_S1x128_1 v (ix2 u k) (ix1 k) (fun a => match a with
    | ⟨0, _⟩ => by show k.val = if (128 : Nat) = 1 then 0 else k.val; rw [if_neg (by decide)])

theorem colSum16_apply (s : FVec Ideal S16x128 .f32) (u : Fin 1) (k : Fin 128) :
    colSum16 s (ix2 u k) = ∑ i : Fin 16, s (ix2 i k) := by
  unfold colSum16
  refine (vecRow_apply _ u k).trans ?_
  simp only [Host.reduceAdd, Ideal.hostReduceAdd_def]
  rw [Ideal.hostReduceAdd_single reducesTo_S16x128_S128_d0 (by decide)]
  have h0 : (constant (F := Ideal) S_ .f32 0x00000000#32) (Shape.Idx.first h_S_) = 0 := by
    show Ideal.ofBits .f32 0x00000000#32 = 0
    exact Ideal.ofBits_zero_f32
  rw [h0, zero_add]
  refine Finset.sum_congr rfl fun i _ => ?_
  exact congrArg s (funext fun a => Fin.ext (by match a with | ⟨0, _⟩ => rfl | ⟨1, _⟩ => rfl))

theorem meanRow_apply (s : FVec Ideal S16x128 .f32) (u : Fin 1) (k : Fin 128) :
    meanRow s (ix2 u k) = Ideal.div (∑ i : Fin 16, s (ix2 i k)) (Ideal.ofBits .f32 0x47435000#32) := by
  unfold meanRow
  show FloatOps.hostDivf (colSum16 s (ix2 u k)) (wordRow 0x47435000#32 (ix2 u k)) = _
  rw [colSum16_apply, wordRow_apply, Ideal.hostDivf_def]

theorem scaleRow_apply (s q : FVec Ideal S16x128 .f32) (gamma : FVec Ideal S128 .f32)
    (u : Fin 1) (k : Fin 128) :
    scaleRow s q gamma (ix2 u k) = gamma (ix1 k) * Ideal.rsqrt (max (Ideal.div (∑ i : Fin 16, q (ix2 i k)) (Ideal.ofBits .f32 0x47435000#32)
      - Ideal.div (∑ i : Fin 16, s (ix2 i k)) (Ideal.ofBits .f32 0x47435000#32) * Ideal.div (∑ i : Fin 16, s (ix2 i k)) (Ideal.ofBits .f32 0x47435000#32)) 0
      + Ideal.ofBits .f32 0x3727C5AC#32) := by
  unfold scaleRow
  show FloatOps.mulf (vecRow gamma (ix2 u k)) (FloatOps.hostUnary .rsqrt (FloatOps.addf (FloatOps.maximumf (FloatOps.subf
    (FloatOps.hostDivf (colSum16 q (ix2 u k)) (wordRow 0x47435000#32 (ix2 u k))) (FloatOps.mulf (meanRow s (ix2 u k)) (meanRow s (ix2 u k))))
    (wordRow 0x00000000#32 (ix2 u k))) (wordRow 0x3727C5AC#32 (ix2 u k)))) = _
  rw [vecRow_apply, colSum16_apply, meanRow_apply, wordRow_apply, wordRow_apply, wordRow_apply, Ideal.ofBits_zero_f32]
  simp only [Ideal.mulf_def, Ideal.hostUnary_rsqrt_def, Ideal.addf_def, Ideal.maximumf_def, Ideal.subf_def, Ideal.hostDivf_def]

theorem shiftRow_apply (s q : FVec Ideal S16x128 .f32) (gamma beta : FVec Ideal S128 .f32)
    (u : Fin 1) (k : Fin 128) :
    shiftRow s q gamma beta (ix2 u k) = beta (ix1 k)
      - Ideal.div (∑ i : Fin 16, s (ix2 i k)) (Ideal.ofBits .f32 0x47435000#32) * scaleRow s q gamma (ix2 u k) := by
  unfold shiftRow
  show FloatOps.subf (vecRow beta (ix2 u k)) (FloatOps.mulf (meanRow s (ix2 u k)) (scaleRow s q gamma (ix2 u k))) = _
  rw [vecRow_apply, meanRow_apply]
  simp only [Ideal.mulf_def, Ideal.subf_def]

end Cert.KernelIdeal.Hand

end
-- ==== Proof.KI.Prefix.lean ====
/-
  The arrays the regions are entered with, as functions of the argument arrays (exact extended reals). The host
  lines before the first region compute, from the features x, the edge lists (src, dst) and the weights W:
      deg    = the number of edges into each node (a scatter-add of ones),
      nrm    = (max 1 deg)^(−1/2) as a column,
      agg    = the scatter-add, by dst, of the rows of x · nrm gathered by src,
  pad each of agg, nrm, x with padding of width zero (the identity), and transpose W.
-/
import proofs.«112734_j34411277975785_2_alg».proof.Proof.KI.Frames
import Idealize.ShloMosaic.PureOps.Ideal.Laws
import Idealize.ShloMosaic.Lib.ValueIdx
import Idealize.ShloMosaic.Lib.KernelVsHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- The in-degrees: a scatter-add of ones into zeros at the destination list. -/
def degK (x6 : IVec S800000 32) : FVec Ideal S50000 .f32 :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 x6)
    (broadcastInDim S800000 ![] bcast_S_S800000 (constant (F := Ideal) S_ .f32 0x3F800000#32))
/-- The degrees clamped below at one. -/
def clipK (one : FVec Ideal S_ .f32) (deg : FVec Ideal S50000 .f32) : FVec Ideal S50000 .f32 :=
  maximumf (broadcastInDim S50000 ![] bcast_S_S50000 one) deg
/-- The normalising column: the clamped degrees to the power −1/2. -/
def nrmColK (cl : FVec Ideal S50000 .f32) : FVec Ideal S50000x1 .f32 :=
  broadcastInDim S50000x1 ![0] bcast_S50000_S50000x1_0
    (Host.powf (F := Ideal) cl (broadcastInDim S50000 ![] bcast_S_S50000 (constant (F := Ideal) S_ .f32 0xBF000000#32)))
/-- The aggregate: rows of x · nrm gathered by source and scatter-added by destination. -/
def aggOfK (x0 : FVec Ideal S50000x128 .f32) (x5 x6 : IVec S800000 32) (cl : FVec Ideal S50000 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x6)
    (Host.gather gather_S50000x128_S800000x1_S800000x128_1_0_n_n_0_1_1128
      (mulf x0 (broadcastInDim S50000x128 ![0, 1] bcast_S50000x1_S50000x128_0_1 (nrmColK cl)))
      (broadcastInDim S800000x1 ![0] bcast_S800000_S800000x1_0
        (select (cmpi .slt x5 (broadcastInDim S800000 ![] bcast_S_S800000 (constantI S_ 32 0#32)))
          (addi x5 (broadcastInDim S800000 ![] bcast_S_S800000 (constantI S_ 32 50000#32))) x5)))

/-- The word one as a scalar. -/
def oneK : FVec Ideal S_ .f32 := constant (F := Ideal) S_ .f32 0x3F800000#32
/-- The clamped degrees, the normalising column, the aggregate and the transposed weights, of the argument arrays. -/
def clK (x6 : IVec S800000 32) : FVec Ideal S50000 .f32 := clipK oneK (degK x6)
def nrmK (x6 : IVec S800000 32) : FVec Ideal S50000x1 .f32 := nrmColK (clK x6)
def aggK (x0 : FVec Ideal S50000x128 .f32) (x5 x6 : IVec S800000 32) : FVec Ideal S50000x128 .f32 := aggOfK x0 x5 x6 (clK x6)
def wtK (x1 : FVec Ideal S128x128 .f32) : FVec Ideal S128x128 .f32 := transpose S128x128 [1, 0] x1 transposes_S128x128_S128x128_1_0

/-- Padding of width zero on both axes, no interior padding: the identity. -/
theorem pad_zero2 {α : Type} {a b : ℕ} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x := by
  funext j
  refine pad_apply_of_inside ![0, 0] ![0, 0] ![0, 0] x v h hu j j fun ax => ?_
  match ax with
  | ⟨0, _⟩ => show (j ⟨0, _⟩).val = 0 + (j ⟨0, _⟩).val * (0 + 1); omega
  | ⟨1, _⟩ => show (j ⟨1, _⟩).val = 0 + (j ⟨1, _⟩).val * (0 + 1); omega

/-! ## Each stretch's results, from any contents -/

section Steps
variable (W : Valuation τ sig (Elt Ideal))

theorem st0_deg : StableHlo.after hostOps0 W (Proc.devRef .tc main_v3) = degK (W (Proc.devRef .tc main_arg6)) := by
  after_results_simp; rfl
theorem st0_one : StableHlo.after hostOps0 W (Proc.devRef .tc main_cst_1) = oneK := by
  after_results_simp; rfl
theorem st1_clip : StableHlo.after hostOps0_1 W (Proc.devRef .tc main_v4)
    = clipK (W (Proc.devRef .tc main_cst_1)) (W (Proc.devRef .tc main_v3)) := by
  after_results_simp; rfl
theorem st2_nrm : StableHlo.after hostOps0_2 W (Proc.devRef .tc main_v7) = nrmColK (W (Proc.devRef .tc main_v4)) := by
  after_results_simp; rfl
theorem st2_agg : StableHlo.after hostOps0_2 W (Proc.devRef .tc main_v19)
    = aggOfK (W (Proc.devRef .tc main_arg0)) (W (Proc.devRef .tc main_arg5)) (W (Proc.devRef .tc main_arg6)) (W (Proc.devRef .tc main_v4)) := by
  after_results_simp; rfl
theorem st3_pad : StableHlo.after hostOps0_3 W (Proc.devRef .tc main_v20) = (W (Proc.devRef .tc main_v19) : FVec Ideal S50000x128 .f32) := by
  after_results_simp
  rw [pad_zero2]
  rfl
theorem st5_pad : StableHlo.after hostOps0_5 W (Proc.devRef .tc main_v21) = (W (Proc.devRef .tc main_v7) : FVec Ideal S50000x1 .f32) := by
  after_results_simp
  rw [pad_zero2]
  rfl
theorem st7_pad : StableHlo.after hostOps0_7 W (Proc.devRef .tc main_v22) = (W (Proc.devRef .tc main_arg0) : FVec Ideal S50000x128 .f32) := by
  after_results_simp
  rw [pad_zero2]
  rfl
theorem st8_tr : StableHlo.after hostOps0_8 W (Proc.devRef .tc main_v23) = wtK (W (Proc.devRef .tc main_arg1)) := by
  after_results_simp; rfl

end Steps

/-! ## The first region's entry contents -/

variable (m : (ℓ : Loc nD τ sig) → Buf (Elt Ideal) ℓ)

theorem V2_arg (c : Dev nD) (r : Ref sig .tc) (h0 : r ∉ hostOps0_W) (h1 : r ∉ hostOps0_1_W) :
    V2 m c r = m ((c : Thread nD τ).loc r) :=
  (V2_of m c r h1).trans ((V1_of m c r h0).trans rfl)

/-- The clamped degrees after the second stretch. -/
theorem V2_clip (c : Dev nD) : V2 m c main_v4 = clK (m ((c : Thread nD τ).loc main_arg6)) := by
  show StableHlo.after hostOps0_1 (V1 m c) (Proc.devRef .tc main_v4) = _
  rw [st1_clip]
  show clipK (StableHlo.after hostOps0 (V0 m c) (Proc.devRef .tc main_cst_1)) (StableHlo.after hostOps0 (V0 m c) (Proc.devRef .tc main_v3)) = _
  rw [st0_one, st0_deg]
  rfl

theorem E9_agg (c : Dev nD) : E9 m c main_v20
    = aggK (m ((c : Thread nD τ).loc main_arg0)) (m ((c : Thread nD τ).loc main_arg5)) (m ((c : Thread nD τ).loc main_arg6)) := by
  show V9 m c main_v20 = _
  rw [V9_of m c main_v20 (by decide), V8_of m c main_v20 (by decide), V7_of m c main_v20 (by decide), V6_of m c main_v20 (by decide),
    V5_of m c main_v20 (by decide)]
  show StableHlo.after hostOps0_3 (V3 m c) (Proc.devRef .tc main_v20) = _
  rw [st3_pad]
  show StableHlo.after hostOps0_2 (V2 m c) (Proc.devRef .tc main_v19) = _
  rw [st2_agg]
  show aggOfK (V2 m c main_arg0) (V2 m c main_arg5) (V2 m c main_arg6) (V2 m c main_v4) = _
  rw [V2_arg m c main_arg0 (by decide) (by decide), V2_arg m c main_arg5 (by decide) (by decide),
    V2_arg m c main_arg6 (by decide) (by decide), V2_clip]
  rfl

theorem E9_nrm (c : Dev nD) : E9 m c main_v21 = nrmK (m ((c : Thread nD τ).loc main_arg6)) := by
  show V9 m c main_v21 = _
  rw [V9_of m c main_v21 (by decide), V8_of m c main_v21 (by decide), V7_of m c main_v21 (by decide)]
  show StableHlo.after hostOps0_5 (V5 m c) (Proc.devRef .tc main_v21) = _
  rw [st5_pad]
  show V5 m c main_v7 = _
  rw [V5_of m c main_v7 (by decide), V4_of m c main_v7 (by decide)]
  show StableHlo.after hostOps0_2 (V2 m c) (Proc.devRef .tc main_v7) = _
  rw [st2_nrm]
  show nrmColK (V2 m c main_v4) = _
  rw [V2_clip]
  rfl

theorem E9_feat (c : Dev nD) : E9 m c main_v22 = m ((c : Thread nD τ).loc main_arg0) := by
  show V9 m c main_v22 = _
  rw [V9_of m c main_v22 (by decide)]
  show StableHlo.after hostOps0_7 (V7 m c) (Proc.devRef .tc main_v22) = _
  rw [st7_pad]
  show V7 m c main_arg0 = _
  rw [V7_of m c main_arg0 (by decide), V6_of m c main_arg0 (by decide), V5_of m c main_arg0 (by decide), V4_of m c main_arg0 (by decide),
    V3_of m c main_arg0 (by decide), V2_arg m c main_arg0 (by decide) (by decide)]

theorem E9_wt (c : Dev nD) : E9 m c main_v23 = wtK (m ((c : Thread nD τ).loc main_arg1)) := by
  show StableHlo.after hostOps0_8 (V8 m c) (Proc.devRef .tc main_v23) = _
  rw [st8_tr]
  show wtK (V8 m c main_arg1) = _
  rw [V8_of m c main_arg1 (by decide), V7_of m c main_arg1 (by decide), V6_of m c main_arg1 (by decide), V5_of m c main_arg1 (by decide),
    V4_of m c main_arg1 (by decide), V3_of m c main_arg1 (by decide), V2_arg m c main_arg1 (by decide) (by decide)]

theorem E9_bias (c : Dev nD) : E9 m c main_arg2 = m ((c : Thread nD τ).loc main_arg2) :=
  V9_keep m c main_arg2 (by decide) (by decide) (by decide) (by decide) (by decide) (by decide) (by decide) (by decide) (by decide)

/-! ## The second region's entry contents -/

variable {dat0 : Entry Ideal → (c : Dev nD) → Dat τ (Elt Ideal) Unit ℕ (UR sig nD τ) ℕ cfg0 c}
  {dat1 : Entry Ideal → (c : Dev nD) → Dat τ (Elt Ideal) Unit ℕ (UR sig nD τ) ℕ cfg1 c}

/-- The scale's weights and the shift's offsets are as launched when the first region ends. -/
theorem Y10_gamma (c : Dev nD) : Y10 m dat0 c main_arg3 = m ((c : Thread nD τ).loc main_arg3) :=
  (Y10_of_ne m dat0 c main_arg3 (by decide)).trans
    (V9_keep m c main_arg3 (by decide) (by decide) (by decide) (by decide) (by decide) (by decide) (by decide) (by decide) (by decide))
theorem Y10_beta (c : Dev nD) : Y10 m dat0 c main_arg4 = m ((c : Thread nD τ).loc main_arg4) :=
  (Y10_of_ne m dat0 c main_arg4 (by decide)).trans
    (V9_keep m c main_arg4 (by decide) (by decide) (by decide) (by decide) (by decide) (by decide) (by decide) (by decide) (by decide))

variable (hL : Legs (F := Ideal) dat0 dat1)
include hL

/-- An input window's array of the first region is at the second region's entry what it was at the first's. -/
theorem E11_in0 (c : Dev nD) (w : Fin cfg0.W) (hw : (cfg0.win w).isOut = false) (hn : Pipeline.arrRef spec0 w ∉ hostOps1_W) :
    E11 m dat0 c (Pipeline.arrRef spec0 w) = E9 m c (Pipeline.arrRef spec0 w) :=
  (StableHlo.after_of_writes_sub hostOps1 _ hostOps1_writes hn).trans
    ((Y10_arr m dat0 c w).trans (((dat0 (E9 m) c).arrAt_in w hw _).trans (hL.A0 (E9 m) c w)))

theorem E11_agg (c : Dev nD) : E11 m dat0 c main_v20 = E9 m c main_v20 := E11_in0 m hL c 0 rfl (by decide)
theorem E11_nrm (c : Dev nD) : E11 m dat0 c main_v21 = E9 m c main_v21 := E11_in0 m hL c 1 rfl (by decide)
theorem E11_wt (c : Dev nD) : E11 m dat0 c main_v23 = E9 m c main_v23 := E11_in0 m hL c 2 rfl (by decide)
theorem E11_bias (c : Dev nD) : E11 m dat0 c main_arg2 = E9 m c main_arg2 := E11_in0 m hL c 3 rfl (by decide)
omit hL in
theorem E11_feat (c : Dev nD) : E11 m dat0 c main_v22 = E9 m c main_v22 :=
  (StableHlo.after_of_writes_sub hostOps1 _ hostOps1_writes (by decide)).trans (Y10_of_ne m dat0 c main_v22 (by decide))

end Cert.KernelIdeal.Hand

end
-- ==== Proof.Ref.Spec.lean ====
/-
  The specification: one GCN layer with batch normalisation, a rectifier and a residual, written index by index
  on the extended reals over arrays of literal shapes.

  With `h r k = (Σ_j agg r j · wt j k + b k) · nrm r` (`wt` is the weight matrix transposed) and `N = 50000` rows:

  * the two-pass form  `μ = Σ_r h / N`, `v = Σ_r (h − μ)² / N`, `out = feat + max ((h − μ) · rsqrt (v + ε) · γ + β) 0`;
  * the one-pass form  `μ = Σ_r h / N`, `q = Σ_r h² / N`, `v' = max (q − μ²) 0`, `s = γ · rsqrt (v' + ε)`,
    `t = β − μ · s`, `out = feat + max (h · s + t) 0`.

  The divisor `N` and `ε` are kept as the float words both programs print; zero is the real `0`.
-/
import Idealize.ShloMosaic.PureOps.Ideal
import Idealize.ShloMosaic.Lib.ValueIdx

noncomputable section

open scoped BigOperators

namespace Cert.RefSide

open Idealize.ShloMosaic Idealize.ShloMosaic.ValueIdx

/-! ## Arrays as functions on the indices of literal shapes -/

abbrev A50000x128 : Type := (⟨2, ![50000, 128]⟩ : Shape).Idx → EReal
abbrev A50000x1 : Type := (⟨2, ![50000, 1]⟩ : Shape).Idx → EReal
abbrev A128x128 : Type := (⟨2, ![128, 128]⟩ : Shape).Idx → EReal
abbrev A128 : Type := (⟨1, ![128]⟩ : Shape).Idx → EReal

/-- Row `r`, column `k` of the normalised linear layer: `(Σ_j agg r j · wt j k + b k) · nrm r`. -/
def hrow (agg : A50000x128) (wt : A128x128) (b : A128) (nrm : A50000x1) (r : Fin 50000) (k : Fin 128) : EReal :=
  ((∑ j : Fin 128, agg (ix2 r j) * wt (ix2 j k)) + b (ix1 k)) * nrm (ix2 r (0 : Fin 1))

/-! ## Batch statistics of a matrix `h` and the two forms of the normalised output -/

section Stats

variable (h : Fin 50000 → Fin 128 → EReal) (feat : A50000x128) (gamma beta : A128)

/-- The mean of column `k`: the column's sum divided by the number of rows. -/
def mean (k : Fin 128) : EReal :=
  Ideal.div (∑ r : Fin 50000, h r k) (Ideal.ofBits .f32 0x47435000#32)

/-- The mean of the squares of column `k`. -/
def meanSq (k : Fin 128) : EReal :=
  Ideal.div (∑ r : Fin 50000, h r k * h r k) (Ideal.ofBits .f32 0x47435000#32)

/-- One-pass variance: the mean of the squares minus the square of the mean, clamped at zero. -/
def varK (k : Fin 128) : EReal :=
  max (meanSq h k - mean h k * mean h k) 0

/-- One-pass scale: `γ · rsqrt (v' + ε)`. -/
def scaleK (k : Fin 128) : EReal :=
  gamma (ix1 k) * Ideal.rsqrt (varK h k + Ideal.ofBits .f32 0x3727C5AC#32)

/-- One-pass shift: `β − μ · s`. -/
def shiftK (k : Fin 128) : EReal :=
  beta (ix1 k) - mean h k * scaleK h gamma k

/-- One-pass output at row `r`, column `k`: `feat + max (h · s + t) 0`. -/
def outKat (r : Fin 50000) (k : Fin 128) : EReal :=
  feat (ix2 r k) + max (h r k * scaleK h gamma k + shiftK h gamma beta k) 0

/-- Two-pass variance: the mean of the squared deviations from the mean. -/
def varR (k : Fin 128) : EReal :=
  Ideal.div (∑ r : Fin 50000, (h r k - mean h k) * (h r k - mean h k)) (Ideal.ofBits .f32 0x47435000#32)

/-- Two-pass output at row `r`, column `k`: `feat + max ((h − μ) · rsqrt (v + ε) · γ + β) 0`. -/
def outRat (r : Fin 50000) (k : Fin 128) : EReal :=
  feat (ix2 r k)
    + max ((h r k - mean h k) * Ideal.rsqrt (varR h k + Ideal.ofBits .f32 0x3727C5AC#32) * gamma (ix1 k)
        + beta (ix1 k)) 0

end Stats

/-! ## The two output arrays -/

/-- The one-pass output array of the layer. -/
def outK (agg : A50000x128) (wt : A128x128) (b : A128) (nrm : A50000x1) (feat : A50000x128) (gamma beta : A128) :
    A50000x128 :=
  fun i => outKat (hrow agg wt b nrm) feat gamma beta (i 0) (i 1)

/-- The two-pass output array of the layer. -/
def outR (agg : A50000x128) (wt : A128x128) (b : A128) (nrm : A50000x1) (feat : A50000x128) (gamma beta : A128) :
    A50000x128 :=
  fun i => outRat (hrow agg wt b nrm) feat gamma beta (i 0) (i 1)

/-- The one-pass output array at coordinates. -/
theorem outK_ix2 (agg : A50000x128) (wt : A128x128) (b : A128) (nrm : A50000x1) (feat : A50000x128) (gamma beta : A128)
    (r : Fin 50000) (k : Fin 128) :
    outK agg wt b nrm feat gamma beta (ix2 r k) = outKat (hrow agg wt b nrm) feat gamma beta r k := rfl

/-- The two-pass output array at coordinates. -/
theorem outR_ix2 (agg : A50000x128) (wt : A128x128) (b : A128) (nrm : A50000x1) (feat : A50000x128) (gamma beta : A128)
    (r : Fin 50000) (k : Fin 128) :
    outR agg wt b nrm feat gamma beta (ix2 r k) = outRat (hrow agg wt b nrm) feat gamma beta r k := rfl

end Cert.RefSide

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibColumn.lean ====
/-
  One column broadcast over many. A `[a, 1]` array broadcast to `[a, b]` holds, at `(p, c)`, the operand's
  entry `(p, 0)`: every column of the result is the operand's one column. (The row form, `[1, b]` to `[a, b]`,
  is the library's `broadcastTo_1b_ab_apply`.) Also the host's `broadcast_in_dim` of a vector `[a]` to the column
  `[a, 1]` along axis 0, read at `(p, u)`: the vector's entry `p`.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` placed by `broadcast_in_dim` along axis 0 of the column shape `[a, 1]` reads, at `(p, u)`,
    the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Cert.LibColumn
-- ==== Proof.KI.Value1.lean ====
/- THE VALUE OF REGION 1 at the exact extended reals. The fused kernel's body, at row `p` and column `k` of a
   5000-row block, leaves
       feat (p,k) + max (((Σ_j agg (p,j) · wt (j,k)) + b k) · nrm (p,0) · scale (0,k) + shift (0,k)) 0 :
   the change of float format before the matrix product is the identity, the product into zeros is the plain sum over
   the contracted axis, the bias, scale and shift rows lie over every row and the norm column over every column.
   Point `t` of the grid works on rows `5000·t … 5000·t + 4999` of the aggregate, norm, feature and output arrays
   and on the whole weight, bias, scale and shift arrays; the ten blocks tile the 50000 rows, so the output array
   ends holding that expression of the arrays at every index. -/
import proofs.«112734_j34411277975785_2_alg».proof.Proof.KI.Region1
import proofs.«112734_j34411277975785_2_alg».proof.Proof.Ref.Spec
import proofs.«112734_j34411277975785_2_alg».proof.Proof.LibMatmul
import proofs.«112734_j34411277975785_2_alg».proof.Proof.LibColumn
import Idealize.ShloMosaic.PureOps.Ideal.Laws
import Idealize.ShloMosaic.Lib.ValueIdx
import Idealize.ShloMosaic.Lib.ValueLayout
import Idealize.ShloMosaic.Lib.Pipeline.Value

-- the arrays' long axis has 50000 coordinates
set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's arithmetic at an entry of a block -/

/-- Row `p`, column `k` of the normalised linear layer on one 5000-row block:
    `((Σ_j agg (p,j) · wt (j,k)) + b k) · nrm (p,0)`. -/
def hEntry (agg : Vec Ideal S5000x128 .f32) (wt : Vec Ideal S128x128 .f32) (b : Vec Ideal S128 .f32)
    (nrm : Vec Ideal S5000x1 .f32) (p : Fin 5000) (k : Fin 128) : EReal :=
  ((∑ j : Fin 128, agg (ix2 p j) * wt (ix2 j k)) + b (ix1 k)) * nrm (ix2 p (0 : Fin 1))

/-- The body's stored value at row `p`, column `k` of the block: the feature entry plus the rectified, scaled and
    shifted entry of the normalised linear layer. -/
theorem k1_pay1_apply (agg : Vec Ideal S5000x128 .f32) (wt : Vec Ideal S128x128 .f32) (b : Vec Ideal S128 .f32)
    (nrm : Vec Ideal S5000x1 .f32) (sc sh : Vec Ideal S1x128 .f32) (feat : Vec Ideal S5000x128 .f32)
    (p : Fin 5000) (k : Fin 128) :
    k1_pay1 (F := Ideal) agg wt b nrm sc sh feat (ix2 p k)
      = feat (ix2 p k) + max (hEntry agg wt b nrm p k * sc (ix2 (0 : Fin 1) k) + sh (ix2 (0 : Fin 1) k)) 0 := by
  -- the feature block is read through a cast to its own shape
  have e_feat : shapeCast S5000x128 feat shapeCasts_S5000x128_S5000x128 (ix2 p k) = feat (ix2 p k) :=
    congrFun (shapeCast_self feat _) _
  -- the product into zeros is the sum over the contracted axis; the change of float format is the identity
  have e_mm : matmul (F := Ideal) dot_S5000x128_S128x128_S5000x128_1_0_0_1_n_n none
        (truncf FTy.bf16 (shapeCast S5000x128 agg shapeCasts_S5000x128_S5000x128) bitsLt_bf16_f32)
        (truncf FTy.bf16 (shapeCast S128x128 wt shapeCasts_S128x128_S128x128) bitsLt_bf16_f32)
        (constant (F := Ideal) S5000x128 FTy.f32 0x00000000#32) (ix2 p k)
      = ∑ j : Fin 128, agg (ix2 p j) * wt (ix2 j k) := by
    refine (Cert.LibMatmul.matmul_zero_ix2 dot_S5000x128_S128x128_S5000x128_1_0_0_1_n_n none rfl rfl
      (fun _ _ => rfl) (fun _ _ => rfl) (fun _ _ => rfl) (fun _ _ => rfl) _ _ (ix2 p k)).trans ?_
    refine Finset.sum_congr rfl fun j _ => ?_
    show shapeCast S5000x128 agg shapeCasts_S5000x128_S5000x128 (ix2 p j)
      * shapeCast S128x128 wt shapeCasts_S128x128_S128x128 (ix2 j k) = _
    rw [shapeCast_self, shapeCast_self]
  -- the bias, a vector laid as one row, over every row
  have e_b : broadcastTo S5000x128 (shapeCast S1x128 b shapeCasts_S128_S1x128) broadcasts_S1x128_S5000x128 (ix2 p k)
      = b (ix1 k) :=
    (broadcastTo_1b_ab_apply _ _ p k).trans (shapeCast_a_1a_apply b _ 0 k)
  -- the norm column over every column
  have e_n : broadcastTo S5000x128 (shapeCast S5000x1 nrm shapeCasts_S5000x1_S5000x1) broadcasts_S5000x1_S5000x128 (ix2 p k)
      = nrm (ix2 p (0 : Fin 1)) :=
    (Cert.LibColumn.broadcastTo_a1_ab_apply _ _ p k).trans (congrFun (shapeCast_self nrm _) _)
  -- the scale and shift rows over every row
  have e_sc : broadcastTo S5000x128 (shapeCast S1x128 sc shapeCasts_S1x128_S1x128) broadcasts_S1x128_S5000x128 (ix2 p k)
      = sc (ix2 (0 : Fin 1) k) :=
    (broadcastTo_1b_ab_apply _ _ p k).trans (congrFun (shapeCast_self sc _) _)
  have e_sh : broadcastTo S5000x128 (shapeCast S1x128 sh shapeCasts_S1x128_S1x128) broadcasts_S1x128_S5000x128 (ix2 p k)
      = sh (ix2 (0 : Fin 1) k) :=
    (broadcastTo_1b_ab_apply _ _ p k).trans (congrFun (shapeCast_self sh _) _)
  -- the rectifier's zero
  have e_0 : (FloatOps.ofBits (F := Ideal) FTy.f32 0x00000000#32) = (0 : EReal) := Ideal.ofBits_zero_f32
  unfold k1_pay1 hEntry
  exact congrArg₂ (· + ·) e_feat (congrArg₂ max
    (congrArg₂ (· + ·) (congrArg₂ (· * ·) (congrArg₂ (· * ·) (congrArg₂ (· + ·) e_mm e_b) e_n) e_sc) e_sh) e_0)

/-! ## From blocks to the array -/

-- the buffers' contents when the region is entered
variable (V : (c : Dev nD) → (b : Ref sig .tc) → Buf (Elt Ideal) ((c : Thread nD τ).loc b))

/-- What the output array ends holding, as a function of the seven arrays the region reads: at row `r`, column `k`,
    `feat (r,k) + max (h (r,k) · scale (0,k) + shift (0,k)) 0`, `h` the normalised linear layer of the whole arrays. -/
def G1 (feat agg : Cert.RefSide.A50000x128) (wt : Cert.RefSide.A128x128) (b : Cert.RefSide.A128) (nrm : Cert.RefSide.A50000x1)
    (sc sh : (⟨2, ![1, 128]⟩ : Shape).Idx → EReal) : Cert.RefSide.A50000x128 := fun i =>
  feat i + max (Cert.RefSide.hrow agg wt b nrm (i 0) (i 1) * sc (ix2 (0 : Fin 1) (i 1)) + sh (ix2 (0 : Fin 1) (i 1))) 0

/-- `G1` at an index. -/
theorem G1_apply (feat agg : Cert.RefSide.A50000x128) (wt : Cert.RefSide.A128x128) (b : Cert.RefSide.A128) (nrm : Cert.RefSide.A50000x1)
    (sc sh : (⟨2, ![1, 128]⟩ : Shape).Idx → EReal) (i : (⟨2, ![50000, 128]⟩ : Shape).Idx) :
    G1 feat agg wt b nrm sc sh i
      = feat i + max (Cert.RefSide.hrow agg wt b nrm (i 0) (i 1) * sc (ix2 (0 : Fin 1) (i 1)) + sh (ix2 (0 : Fin 1) (i 1))) 0 := rfl

/-- The block index maps, decided over the ten points of the grid: the aggregate, norm, feature and output windows
    are on row block `t` at point `t` (and on the one column block); the weight, bias, scale and shift windows are
    on their one block at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! Where each window's block sits in its array at point `t`: a block's coordinate on an axis is the block index
    times the block's extent plus the coordinate inside the block. Each is stated against the output block's own
    position, `E = ` the array index of the output block's entry `(p, k)`. -/

/-- The feature block's entry `(p, k)` is the array entry the output block's `(p, k)` is. -/
theorem emb1_2 (c : Dev nD) (t : Fin cfg1.N) (p : Fin 5000) (k : Fin 128) :
    ((cfg1.win 2).blk t).view.emb (ix2 p k : S5000x128.Idx) = ((cfg1.win 7).blk t).view.emb (ix2 p k : S5000x128.Idx) := by
  obtain ⟨e00, e01, e10, e11, e20, e21, e30, e31, e40, e50, e51, e60, e61, e70, e71⟩ := idx_facts1 t
  funext a; apply Fin.ext
  match a with
  | ⟨0, _⟩ => show win1_2.index t (0 : Fin 2) * 5000 + 1 * p.val = win1_7.index t (0 : Fin 2) * 5000 + 1 * p.val; omega
  | ⟨1, _⟩ => show win1_2.index t (1 : Fin 2) * 128 + 1 * k.val = win1_7.index t (1 : Fin 2) * 128 + 1 * k.val; omega

/-- The aggregate block's entry `(p, j)` is on the output entry's row, at column `j`. -/
theorem emb1_0 (c : Dev nD) (t : Fin cfg1.N) (p : Fin 5000) (k j : Fin 128) :
    ((cfg1.win 0).blk t).view.emb (ix2 p j : S5000x128.Idx) = ix2 ((((cfg1.win 7).blk t).view.emb (ix2 p k : S5000x128.Idx)) 0) j := by
  obtain ⟨e00, e01, e10, e11, e20, e21, e30, e31, e40, e50, e51, e60, e61, e70, e71⟩ := idx_facts1 t
  funext a; apply Fin.ext
  match a with
  | ⟨0, _⟩ => show win1_0.index t (0 : Fin 2) * 5000 + 1 * p.val = win1_7.index t (0 : Fin 2) * 5000 + 1 * p.val; omega
  | ⟨1, _⟩ => show win1_0.index t (1 : Fin 2) * 128 + 1 * j.val = j.val; omega

/-- The weight block is the whole weight array: its entry `(j, k)` is at row `j`, on the output entry's column. -/
theorem emb1_3 (c : Dev nD) (t : Fin cfg1.N) (p : Fin 5000) (k j : Fin 128) :
    ((cfg1.win 3).blk t).view.emb (ix2 j k : S128x128.Idx) = ix2 j ((((cfg1.win 7).blk t).view.emb (ix2 p k : S5000x128.Idx)) 1) := by
  obtain ⟨e00, e01, e10, e11, e20, e21, e30, e31, e40, e50, e51, e60, e61, e70, e71⟩ := idx_facts1 t
  funext a; apply Fin.ext
  match a with
  | ⟨0, _⟩ => show win1_3.index t (0 : Fin 2) * 128 + 1 * j.val = j.val; omega
  | ⟨1, _⟩ => show win1_3.index t (1 : Fin 2) * 128 + 1 * k.val = win1_7.index t (1 : Fin 2) * 128 + 1 * k.val; omega

/-- The bias block is the whole bias vector: its entry `k` is on the output entry's column. -/
theorem emb1_4 (c : Dev nD) (t : Fin cfg1.N) (p : Fin 5000) (k : Fin 128) :
    ((cfg1.win 4).blk t).view.emb (ix1 k : S128.Idx) = ix1 ((((cfg1.win 7).blk t).view.emb (ix2 p k : S5000x128.Idx)) 1) := by
  obtain ⟨e00, e01, e10, e11, e20, e21, e30, e31, e40, e50, e51, e60, e61, e70, e71⟩ := idx_facts1 t
  funext a; apply Fin.ext
  match a with
  | ⟨0, _⟩ => show win1_4.index t (0 : Fin 1) * 128 + 1 * k.val = win1_7.index t (1 : Fin 2) * 128 + 1 * k.val; omega

/-- The norm block's entry `(p, 0)` is on the output entry's row. -/
theorem emb1_1 (c : Dev nD) (t : Fin cfg1.N) (p : Fin 5000) (k : Fin 128) :
    ((cfg1.win 1).blk t).view.emb (ix2 p (0 : Fin 1) : S5000x1.Idx) = ix2 ((((cfg1.win 7).blk t).view.emb (ix2 p k : S5000x128.Idx)) 0) (0 : Fin 1) := by
  obtain ⟨e00, e01, e10, e11, e20, e21, e30, e31, e40, e50, e51, e60, e61, e70, e71⟩ := idx_facts1 t
  funext a; apply Fin.ext
  match a with
  | ⟨0, _⟩ => show win1_1.index t (0 : Fin 2) * 5000 + 1 * p.val = win1_7.index t (0 : Fin 2) * 5000 + 1 * p.val; omega
  | ⟨1, _⟩ => show win1_1.index t (1 : Fin 2) * 1 + 1 * 0 = 0; omega

/-- The scale block is the whole scale row: its entry `(0, k)` is on the output entry's column. -/
theorem emb1_5 (c : Dev nD) (t : Fin cfg1.N) (p : Fin 5000) (k : Fin 128) :
    ((cfg1.win 5).blk t).view.emb (ix2 (0 : Fin 1) k : S1x128.Idx) = ix2 (0 : Fin 1) ((((cfg1.win 7).blk t).view.emb (ix2 p k : S5000x128.Idx)) 1) := by
  obtain ⟨e00, e01, e10, e11, e20, e21, e30, e31, e40, e50, e51, e60, e61, e70, e71⟩ := idx_facts1 t
  funext a; apply Fin.ext
  match a with
  | ⟨0, _⟩ => show win1_5.index t (0 : Fin 2) * 1 + 1 * 0 = 0; omega
  | ⟨1, _⟩ => show win1_5.index t (1 : Fin 2) * 128 + 1 * k.val = win1_7.index t (1 : Fin 2) * 128 + 1 * k.val; omega

/-- The shift block is the whole shift row: its entry `(0, k)` is on the output entry's column. -/
theorem emb1_6 (c : Dev nD) (t : Fin cfg1.N) (p : Fin 5000) (k : Fin 128) :
    ((cfg1.win 6).blk t).view.emb (ix2 (0 : Fin 1) k : S1x128.Idx) = ix2 (0 : Fin 1) ((((cfg1.win 7).blk t).view.emb (ix2 p k : S5000x128.Idx)) 1) := by
  obtain ⟨e00, e01, e10, e11, e20, e21, e30, e31, e40, e50, e51, e60, e61, e70, e71⟩ := idx_facts1 t
  funext a; apply Fin.ext
  match a with
  | ⟨0, _⟩ => show win1_6.index t (0 : Fin 2) * 1 + 1 * 0 = 0; omega
  | ⟨1, _⟩ => show win1_6.index t (1 : Fin 2) * 128 + 1 * k.val = win1_7.index t (1 : Fin 2) * 128 + 1 * k.val; omega

/-- WHAT POINT `t` WRITES BACK is block `t` of `G1` of the seven arrays as the region finds them. -/
theorem flushed1_eq (c : Dev nD) (t : Fin cfg1.N) :
    (dat1 (F := Ideal) V c).flushed 7 t = ((cfg1.win 7).blk t).view.read (Elt Ideal) (G1 (V c main_v22) (V c main_v20) (V c main_v23) (V c main_arg2) (V c main_v21) (V c main_v41) (V c main_v44)) := by
  show (cfg1.win 7).cut (grid1.coords t) ((dat1 V c).after 7 t) = _
  rw [after1_7, out1_7_eq]
  funext x
  obtain ⟨p, k, rfl⟩ : ∃ (p : Fin 5000) (k : Fin 128), x = ix2 p k := ⟨x 0, x 1, eq_ix2 (n0 := 5000) (n1 := 128) x⟩
  refine (k1_pay1_apply _ _ _ _ _ _ _ p k).trans ?_
  rw [View.read_apply]
  unfold hEntry G1 Cert.RefSide.hrow
  exact congrArg₂ (· + ·) (congrArg (V c main_v22 : Cert.RefSide.A50000x128) (emb1_2 c t p k))
    (congrArg₂ max
      (congrArg₂ (· + ·)
        (congrArg₂ (· * ·)
          (congrArg₂ (· * ·)
            (congrArg₂ (· + ·)
              (Finset.sum_congr rfl fun j _ => congrArg₂ (· * ·)
                (congrArg (V c main_v20 : Cert.RefSide.A50000x128) (emb1_0 c t p k j))
                (congrArg (V c main_v23 : Cert.RefSide.A128x128) (emb1_3 c t p k j)))
              (congrArg (V c main_arg2 : Cert.RefSide.A128) (emb1_4 c t p k)))
            (congrArg (V c main_v21 : Cert.RefSide.A50000x1) (emb1_1 c t p k)))
          (congrArg (V c main_v41 : (⟨2, ![1, 128]⟩ : Shape).Idx → EReal) (emb1_5 c t p k)))
        (congrArg (V c main_v44 : (⟨2, ![1, 128]⟩ : Shape).Idx → EReal) (emb1_6 c t p k)))
      rfl)

/-- An index of the output array is in point `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v45).slice (win1_7.rect t)).set ↔ _
  rw [View.set_slice_whole, Rect.mem_set_unit]
  exact Iff.rfl

/-- The ten blocks tile the rows: row `r` is in the block of point `r / 5000`, which is written back. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  have ht : (i 0).val / 5000 < cfg1.N := by rw [hN]; omega
  refine ⟨⟨(i 0).val / 5000, ht⟩, flush1_7 _, ?_⟩
  obtain ⟨e00, e01, e10, e11, e20, e21, e30, e31, e40, e50, e51, e60, e61, e70, e71⟩ := idx_facts1 ⟨(i 0).val / 5000, ht⟩
  rw [mem_blk1]
  intro a
  match a with
  | ⟨0, _⟩ =>
    show win1_7.index ⟨(i 0).val / 5000, ht⟩ (0 : Fin 2) * 5000 ≤ (i 0).val ∧ (i 0).val < win1_7.index ⟨(i 0).val / 5000, ht⟩ (0 : Fin 2) * 5000 + 5000
    rw [e70]; show (i 0).val / 5000 * 5000 ≤ (i 0).val ∧ (i 0).val < (i 0).val / 5000 * 5000 + 5000; omega
  | ⟨1, _⟩ =>
    show win1_7.index ⟨(i 0).val / 5000, ht⟩ (1 : Fin 2) * 128 ≤ (i 1).val ∧ (i 1).val < win1_7.index ⟨(i 0).val / 5000, ht⟩ (1 : Fin 2) * 128 + 128
    omega

/-- THE OUTPUT ARRAY after the region: at every row and column, the feature entry plus the rectified, scaled and
    shifted entry of the normalised linear layer of the arrays as the region finds them. -/
theorem final1 (V : (c : Dev nD) → (b : Ref sig .tc) → Buf (Elt Ideal) ((c : Thread nD τ).loc b)) (c : Dev nD) :
    (dat1 (F := Ideal) V c).arrAt 7 cfg1.N
      = G1 (V c main_v22) (V c main_v20) (V c main_v23) (V c main_arg2) (V c main_v21) (V c main_v41) (V c main_v44) :=
  (dat1 (F := Ideal) V c).arrAt_eq_of_cover 7 (G1 (V c main_v22) (V c main_v20) (V c main_v23) (V c main_arg2) (V c main_v21) (V c main_v41) (V c main_v44)) (fun t _ => flushed1_eq V c t) cover1

end Cert.KernelIdeal.Hand

end
-- ==== Proof.KI.Pieces0.lean ====
import proofs.«112734_j34411277975785_2_alg».proof.Proof.KI.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what the runs' found pieces are — each case's accumulators and stored output blocks as the kernel's
    payloads of the input blocks and of the accumulators the point before left -/

theorem hz2 : (![0, 0] : Fin 2 → Nat) = fun _ => 0 := funext fun a => by fin_cases a <;> rfl
theorem hz1 : (![0] : Fin 1 → Nat) = fun _ => 0 := funext fun a => by fin_cases a <;> rfl

theorem sout0_A_0_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) :
    sout0_A_0 c i arg2 harg2 arg3 harg3 arg4 harg4 arg5 harg5 arg6 harg6 arg7 harg7 arg8 harg8 arg9 harg9 hc0 hc1 x0 x1 x2 x3 = k0_pay8 i x0 x2 x3 x1 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  first
    | rw [View.canon_cons_unit_zero (S := S1x128) hz2]
    | rw [View.canon_unit_zero (S := S1x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

theorem sout0_A_1_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : cond0_0 i) (hc1 : ¬cond0_1 i)
    (x0 : Vec F S5000x128 .f32) (x1 : Vec F S5000x1 .f32) (x2 : Vec F S128x128 .f32) (x3 : Vec F S128 .f32) :
    sout0_A_1 c i arg2 harg2 arg3 harg3 arg4 harg4 arg5 harg5 arg6 harg6 arg7 harg7 arg8 harg8 arg9 harg9 hc0 hc1 x0 x1 x2 x3 = k0_pay1 (k0_pay7 i x0 x2 x3 x1) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  first
    | rw [View.canon_cons_unit_zero (S := S1x128) hz2]
    | rw [View.canon_unit_zero (S := S1x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

theorem sout0_B_0_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 xs1 : Vec F S1x128 .f32) :
    sout0_B_0 c i arg2 harg2 arg3 harg3 arg4 harg4 arg5 harg5 arg6 harg6 arg7 harg7 arg8 harg8 arg9 harg9 hc0 hc1 x0 x1 x2 x3 xs0 xs1 = k0_pay8 i x0 x2 x3 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  first
    | rw [View.canon_cons_unit_zero (S := S1x128) hz2]
    | rw [View.canon_unit_zero (S := S1x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

theorem sout0_B_1_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : ¬cond0_1 i)
    (x0 : Vec F S5000x128 .f32) (x1 : Vec F S5000x1 .f32) (x2 : Vec F S128x128 .f32) (x3 : Vec F S128 .f32) (xs0 xs1 : Vec F S1x128 .f32) :
    sout0_B_1 c i arg2 harg2 arg3 harg3 arg4 harg4 arg5 harg5 arg6 harg6 arg7 harg7 arg8 harg8 arg9 harg9 hc0 hc1 x0 x1 x2 x3 xs0 xs1 = k0_pay1 (k0_pay7 i x0 x2 x3 x1) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  first
    | rw [View.canon_cons_unit_zero (S := S1x128) hz2]
    | rw [View.canon_unit_zero (S := S1x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

theorem sout0_C_0_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 xs1 : Vec F S1x128 .f32) :
    sout0_C_0 c i arg2 harg2 arg3 harg3 arg4 harg4 arg5 harg5 arg6 harg6 arg7 harg7 arg8 harg8 arg9 harg9 hc0 hc1 x0 x1 x2 x3 xs0 xs1 = k0_pay8 i x0 x2 x3 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  first
    | rw [View.canon_cons_unit_zero (S := S1x128) hz2]
    | rw [View.canon_unit_zero (S := S1x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

theorem sout0_C_1_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 xs1 : Vec F S1x128 .f32) :
    sout0_C_1 c i arg2 harg2 arg3 harg3 arg4 harg4 arg5 harg5 arg6 harg6 arg7 harg7 arg8 harg8 arg9 harg9 hc0 hc1 x0 x1 x2 x3 xs0 xs1 = k0_pay1 (k0_pay7 i x0 x2 x3 x1) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  first
    | rw [View.canon_cons_unit_zero (S := S1x128) hz2]
    | rw [View.canon_unit_zero (S := S1x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

theorem out0_C_4_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 xs1 : Vec F S1x128 .f32) :
    out0_C_4 c i arg2 harg2 arg3 harg3 arg4 harg4 arg5 harg5 arg6 harg6 arg7 harg7 arg8 harg8 arg9 harg9 hc0 hc1 x0 x1 x2 x3 xs0 xs1 = k0_pay3 (k0_pay8 i x0 x2 x3 x1 xs0) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  first
    | rw [View.canon_cons_unit_zero (S := S8x128) hz2]
    | rw [View.canon_unit_zero (S := S8x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

theorem out0_C_5_eq (c : Dev nD) (i : grid0.Coords) (arg2 : Memref sig .tc .vmem S5000x128 .f32) (harg2 : arg2.IsWhole) (arg3 : Memref sig .tc .vmem S5000x1 .f32) (harg3 : arg3.IsWhole) (arg4 : Memref sig .tc .vmem S128x128 .f32) (harg4 : arg4.IsWhole) (arg5 : Memref sig .tc .vmem S128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x128 .f32) (harg9 : arg9.IsWhole) (hc0 : ¬cond0_0 i) (hc1 : cond0_1 i)
    (x0 : Vec F S5000x128 .f32) (x1 : Vec F S5000x1 .f32) (x2 : Vec F S128x128 .f32) (x3 : Vec F S128 .f32) (xs0 xs1 : Vec F S1x128 .f32) :
    out0_C_5 c i arg2 harg2 arg3 harg3 arg4 harg4 arg5 harg5 arg6 harg6 arg7 harg7 arg8 harg8 arg9 harg9 hc0 hc1 x0 x1 x2 x3 xs0 xs1 = k0_pay4 (k0_pay1 (k0_pay7 i x0 x2 x3 x1) xs1) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  first
    | rw [View.canon_cons_unit_zero (S := S8x128) hz2]
    | rw [View.canon_unit_zero (S := S8x128) hz2]
  simp only [View.readAt_eq_ld, harg2.read_unread, harg3.read_unread, harg4.read_unread, harg5.read_unread, harg8.read_unread, harg9.read_unread,
    View.ld_unit_zero (S := S5000x128) hz2, View.ld_unit_zero (S := S5000x1) hz2, View.ld_unit_zero (S := S128x128) hz2,
    View.ld_unit_zero (S := S128) hz1, View.ld_unit_zero (S := S1x128) hz2, View.readCov_unit_zero (S := S1x128) _ hz2]

end Cert.KernelIdeal.Hand

end
-- ==== Proof.KI.Pay0.lean ====
/- The statistics kernel's arithmetic at the exact extended reals, entry by entry of a 5000-row block: the masked
   normalised linear layer h (p,k) = ((Σ_j agg (p,j) · wt (j,k)) + b k) · nrm (p,0) (the row mask is 1 at every row
   of every block, the ten blocks holding exactly the 50000 rows), the two accumulator updates (the previous row plus
   the column sums of h and of h·h over the block's rows), the zero rows, and the output block (row 0 the accumulator,
   the other seven rows zero). -/
import proofs.«112734_j34411277975785_2_alg».proof.Proof.Gen.KernelIdeal.Skeleton
import proofs.«112734_j34411277975785_2_alg».proof.Proof.LibMatmul
import proofs.«112734_j34411277975785_2_alg».proof.Proof.LibColumn
import Idealize.ShloMosaic.PureOps.Ideal.Laws
import Idealize.ShloMosaic.Lib.ValueIdx
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.ValueIdx

/-! ## The row mask -/

/-- A row number below 50000, as a 32-bit word, compares signed-less-than 50000. -/
theorem mask_slt (n p : ℕ) (hn : n ≤ 45000) (hp : p < 5000) :
    (BitVec.ofNat 32 n + BitVec.ofNat 32 p).slt 50000#32 = true := by
  rw [← BitVec.ofNat_add]
  have hlt : n + p < 50000 := by omega
  generalize n + p = q at hlt
  have h1 : (BitVec.ofNat 32 q).toNat = q := by
    rw [BitVec.toNat_ofNat]; exact Nat.mod_eq_of_lt (by omega)
  have h2 : (BitVec.ofNat 32 q).toInt = (q : ℤ) := by
    rw [BitVec.toInt_eq_toNat_cond, h1]
    first
      | (rw [if_pos (by omega)])
      | (split <;> omega)
  have h3 : (50000#32 : BitVec 32).toInt = 50000 := by decide
  simp only [BitVec.slt, decide_eq_true_eq]
  rw [h2, h3]; omega

/-- The first row of the block at grid coordinates `(a, b)`, as the kernel computes it in 32-bit words, is the
    word of `(a · 5 + b) · 5000`. -/
theorem rowbase_eq (a b : ℕ) (ha : a < 2) (hb : b < 5) :
    Scalar.muli (Scalar.addi (Scalar.muli (BitVec.ofNat 32 a) 5#32) (BitVec.ofNat 32 b)) 5000#32 = BitVec.ofNat 32 ((a * 5 + b) * 5000) := by
  interval_cases a <;> interval_cases b <;> decide

/-- The word 1 widened to 32 bits and converted to a float is the real 1. -/
theorem sitofp_one : FloatOps.sitofp (F := Ideal) .f32 ((1#1 : BitVec 1).setWidth 32) = (1 : EReal) := by
  show (((( (1#1 : BitVec 1).setWidth 32).toInt : ℝ)) : EReal) = 1
  norm_num

/-! ## The normalised linear layer on a block -/

/-- Row `p`, column `k` of the normalised linear layer on one 5000-row block. -/
def hBlk0 (agg : Vec Ideal S5000x128 .f32) (wt : Vec Ideal S128x128 .f32) (b : Vec Ideal S128 .f32)
    (nrm : Vec Ideal S5000x1 .f32) (p : Fin 5000) (k : Fin 128) : EReal :=
  ((∑ j : Fin 128, agg (ix2 p j) * wt (ix2 j k)) + b (ix1 k)) * nrm (ix2 p (0 : Fin 1))

/-- The masked layer the kernel sums, at row `p`, column `k` of the block: the mask is 1, so it is the layer. -/
theorem k0_pay7_apply (i : grid0.Coords) (agg : Vec Ideal S5000x128 .f32) (wt : Vec Ideal S128x128 .f32) (b : Vec Ideal S128 .f32)
    (nrm : Vec Ideal S5000x1 .f32) (p : Fin 5000) (k : Fin 128) :
    k0_pay7 (F := Ideal) i agg wt b nrm (ix2 p k) = hBlk0 agg wt b nrm p k := by
  have e_mm : matmul (F := Ideal) dot_S5000x128_S128x128_S5000x128_1_0_0_1_n_n none
        (truncf FTy.bf16 (shapeCast S5000x128 agg shapeCasts_S5000x128_S5000x128) bitsLt_bf16_f32)
        (truncf FTy.bf16 (shapeCast S128x128 wt shapeCasts_S128x128_S128x128) bitsLt_bf16_f32)
        (constant (F := Ideal) S5000x128 FTy.f32 0x00000000#32) (ix2 p k)
      = ∑ j : Fin 128, agg (ix2 p j) * wt (ix2 j k) := by
    refine (Cert.LibMatmul.matmul_zero_ix2 dot_S5000x128_S128x128_S5000x128_1_0_0_1_n_n none rfl rfl
      (fun _ _ => rfl) (fun _ _ => rfl) (fun _ _ => rfl) (fun _ _ => rfl) _ _ (ix2 p k)).trans ?_
    refine Finset.sum_congr rfl fun j _ => ?_
    show shapeCast S5000x128 agg shapeCasts_S5000x128_S5000x128 (ix2 p j)
      * shapeCast S128x128 wt shapeCasts_S128x128_S128x128 (ix2 j k) = _
    rw [shapeCast_self, shapeCast_self]
  have e_b : broadcastTo S5000x128 (shapeCast S1x128 b shapeCasts_S128_S1x128) broadcasts_S1x128_S5000x128 (ix2 p k)
      = b (ix1 k) :=
    (broadcastTo_1b_ab_apply _ _ p k).trans (shapeCast_a_1a_apply b _ 0 k)
  have e_n : broadcastTo S5000x128 (shapeCast S5000x1 nrm shapeCasts_S5000x1_S5000x1) broadcasts_S5000x1_S5000x128 (ix2 p k)
      = nrm (ix2 p (0 : Fin 1)) :=
    (Cert.LibColumn.broadcastTo_a1_ab_apply _ _ p k).trans (congrFun (shapeCast_self nrm _) _)
  have h0 : (i 0).val < 2 := (i 0).isLt
  have h1 : (i 1).val < 5 := (i 1).isLt
  have hw : IntOp.cmpi .slt (IntOp.addi (Scalar.muli (Scalar.addi (Scalar.muli (BitVec.ofNat 32 (i 0).val) 5#32) (BitVec.ofNat 32 (i 1).val)) 5000#32)
        (BitVec.ofNat 32 (0 * 5000 + p.val))) (50000#32) = 1#1 := by
    rw [Nat.zero_mul, Nat.zero_add, rowbase_eq _ _ h0 h1]
    show BitVec.ofBool ((BitVec.ofNat 32 (((i 0).val * 5 + (i 1).val) * 5000) + BitVec.ofNat 32 p.val).slt 50000#32) = 1#1
    rw [mask_slt _ _ (by omega) p.isLt]; rfl
  have e_mask : broadcastTo S5000x128 (sitofp (F := Ideal) FTy.f32 (extui 32 (cmpi .slt (addi (broadcast S5000x1 (Scalar.muli (Scalar.addi (Scalar.muli (BitVec.ofNat 32 (i 0).val) 5#32) (BitVec.ofNat 32 (i 1).val)) 5000#32)) (iota .tc S5000x1 32 [0] iota_S5000x1_d0_w32)) (broadcast S5000x1 50000#32)) natLt_1_32)) broadcasts_S5000x1_S5000x128 (ix2 p k)
      = (1 : EReal) := by
    refine (Cert.LibColumn.broadcastTo_a1_ab_apply _ _ p k).trans ?_
    show FloatOps.sitofp (F := Ideal) FTy.f32 ((IntOp.cmpi .slt (IntOp.addi (Scalar.muli (Scalar.addi (Scalar.muli (BitVec.ofNat 32 (i 0).val) 5#32) (BitVec.ofNat 32 (i 1).val)) 5000#32)
        (BitVec.ofNat 32 (0 * 5000 + p.val))) (50000#32)).setWidth 32) = 1
    rw [hw]; exact sitofp_one
  unfold k0_pay7 hBlk0
  exact (congrArg₂ (· * ·) (congrArg₂ (· * ·) (congrArg₂ (· + ·) e_mm e_b) e_n) e_mask).trans (mul_one _)

/-! ## Column sums over the block's rows -/

/-- The sum over the rows of a 5000 × 128 block, at lane `k`. -/
theorem colsum (src : FVec Ideal S5000x128 .f32) (hacc : (0x00000000#32 : BitVec 32) = 0x00000000#32) (k : Fin 128) :
    multiReduction (F := Ideal) .add [0] S128 src 0x00000000#32 reduces_S5000x128_S128 (.inl rfl) hacc (ix1 k)
      = ∑ p : Fin 5000, src (ix2 p k) := by
  refine (Ideal.multiReduction_add_single src 0x00000000#32 reduces_S5000x128_S128 (.inl rfl) hacc (ix1 k)).trans ?_
  refine Finset.sum_congr rfl fun p _ => congrArg src ?_
  funext a; apply Fin.ext
  match a with
  | ⟨0, _⟩ => rfl
  | ⟨1, _⟩ => rfl

/-- The first accumulator's update: the previous row plus the column sums of the layer over the block. -/
theorem k0_pay8_apply (i : grid0.Coords) (agg : Vec Ideal S5000x128 .f32) (wt : Vec Ideal S128x128 .f32) (b : Vec Ideal S128 .f32)
    (nrm : Vec Ideal S5000x1 .f32) (s : Vec Ideal S1x128 .f32) (k : Fin 128) :
    k0_pay8 (F := Ideal) i agg wt b nrm s (ix2 (0 : Fin 1) k)
      = s (ix2 (0 : Fin 1) k) + ∑ p : Fin 5000, hBlk0 agg wt b nrm p k := by
  unfold k0_pay8
  refine (congrFun (shapeCast_self _ _) _).trans ?_
  refine congrArg (s (ix2 (0 : Fin 1) k) + ·) ?_
  refine (shapeCast_a_1a_apply _ _ 0 k).trans ?_
  refine (colsum _ _ k).trans ?_
  exact Finset.sum_congr rfl fun p _ => k0_pay7_apply i agg wt b nrm p k

/-- The second accumulator's update: the previous row plus the column sums of the squares over the block. -/
theorem k0_pay1_apply (v : FVec Ideal S5000x128 .f32) (s : Vec Ideal S1x128 .f32) (k : Fin 128) :
    k0_pay1 (F := Ideal) v s (ix2 (0 : Fin 1) k)
      = s (ix2 (0 : Fin 1) k) + ∑ p : Fin 5000, v (ix2 p k) * v (ix2 p k) := by
  unfold k0_pay1
  refine (congrFun (shapeCast_self _ _) _).trans ?_
  refine congrArg (s (ix2 (0 : Fin 1) k) + ·) ?_
  refine (shapeCast_a_1a_apply _ _ 0 k).trans ?_
  exact colsum _ _ k

/-- The rows the accumulators are reset to are zero. -/
theorem k0_pay5_apply (j : S1x128.Idx) : k0_pay5 (F := Ideal) j = (0 : EReal) := by
  unfold k0_pay5
  refine (congrFun (shapeCast_self _ _) _).trans ?_
  exact Ideal.ofBits_zero_f32
theorem k0_pay6_apply (j : S1x128.Idx) : k0_pay6 (F := Ideal) j = (0 : EReal) := by
  unfold k0_pay6
  refine (congrFun (shapeCast_self _ _) _).trans ?_
  exact Ideal.ofBits_zero_f32

/-! ## The output block -/

/-- The row selector of the output block: the row coordinate equals zero. -/
theorem row0_word (i : Fin 8) :
    IntOp.cmpi .eq (BitVec.ofNat 32 (0 * 8 + i.val)) (0#32) = if i.val = 0 then 1#1 else 0#1 := by
  fin_cases i <;> rfl

/-- The stored output block: row 0 is the accumulator's row, the other seven rows are zero. -/
theorem k0_pay3_apply (s : Vec Ideal S1x128 .f32) (i : Fin 8) (k : Fin 128) :
    k0_pay3 (F := Ideal) s (ix2 i k) = if i.val = 0 then s (ix2 (0 : Fin 1) k) else 0 := by
  have e54 : broadcastTo S8x128 (shapeCast S1x128 s shapeCasts_S1x128_S1x128) broadcasts_S1x128_S8x128 (ix2 i k)
      = s (ix2 (0 : Fin 1) k) :=
    (broadcastTo_1b_ab_apply _ _ i k).trans (congrFun (shapeCast_self s _) _)
  have e2 : k0_pay2 (F := Ideal) (ix2 i k) = (0 : EReal) := Ideal.ofBits_zero_f32
  unfold k0_pay3
  show Scalar.select (IntOp.cmpi .eq (BitVec.ofNat 32 (0 * 8 + i.val)) (0#32))
      (broadcastTo S8x128 (shapeCast S1x128 s shapeCasts_S1x128_S1x128) broadcasts_S1x128_S8x128 (ix2 i k))
      (k0_pay2 (F := Ideal) (ix2 i k)) = _
  rw [row0_word, e54, e2]
  by_cases h : i.val = 0
  · rw [if_pos h, if_pos h]; rfl
  · rw [if_neg h, if_neg h]; rfl

theorem k0_pay4_apply (s : Vec Ideal S1x128 .f32) (i : Fin 8) (k : Fin 128) :
    k0_pay4 (F := Ideal) s (ix2 i k) = if i.val = 0 then s (ix2 (0 : Fin 1) k) else 0 := by
  have e54 : broadcastTo S8x128 (shapeCast S1x128 s shapeCasts_S1x128_S1x128) broadcasts_S1x128_S8x128 (ix2 i k)
      = s (ix2 (0 : Fin 1) k) :=
    (broadcastTo_1b_ab_apply _ _ i k).trans (congrFun (shapeCast_self s _) _)
  have e2 : k0_pay2 (F := Ideal) (ix2 i k) = (0 : EReal) := Ideal.ofBits_zero_f32
  unfold k0_pay4
  show Scalar.select (IntOp.cmpi .eq (BitVec.ofNat 32 (0 * 8 + i.val)) (0#32))
      (broadcastTo S8x128 (shapeCast S1x128 s shapeCasts_S1x128_S1x128) broadcasts_S1x128_S8x128 (ix2 i k))
      (k0_pay2 (F := Ideal) (ix2 i k)) = _
  rw [row0_word, e54, e2]
  by_cases h : i.val = 0
  · rw [if_pos h, if_pos h]; rfl
  · rw [if_neg h, if_neg h]; rfl

end Cert.KernelIdeal.Hand

end
-- ==== Proof.LibBlocks.lean ====
/-
  A sum over a range cut into equal blocks: the sum over `a · b` consecutive indices is the sum, block by block,
  of the sums over each block's `b` indices — index `t · b + p` being entry `p` of block `t`.
-/
import Mathlib.Algebra.BigOperators.Fin
import Mathlib.Logic.Equiv.Fin.Basic

namespace Cert.LibBlocks

open Finset

/-- The position of entry `p` of block `t` among `a` blocks of `b` entries. -/
theorem pos_lt {a b : ℕ} (t : Fin a) (p : Fin b) : t.val * b + p.val < a * b := by
  have ht := t.isLt
  have hp := p.isLt
  calc t.val * b + p.val < t.val * b + b := by omega
    _ = (t.val + 1) * b := (Nat.succ_mul t.val b).symm
    _ ≤ a * b := Nat.mul_le_mul_right b (by omega)

/-- A sum over `a · b` indices is the iterated sum over `a` blocks of `b` indices each. -/
theorem sum_blocks {M : Type*} [AddCommMonoid M] {a b : ℕ} (f : Fin (a * b) → M) :
    ∑ r : Fin (a * b), f r = ∑ t : Fin a, ∑ p : Fin b, f ⟨t.val * b + p.val, pos_lt t p⟩ := by
  rw [← Finset.sum_product', Finset.univ_product_univ]
  refine (Equiv.sum_comp (finProdFinEquiv (m := a) (n := b)) f).symm.trans ?_
  refine Finset.sum_congr rfl fun x _ => ?_
  refine congrArg f (Fin.ext ?_)
  show x.2.val + b * x.1.val = x.1.val * b + x.2.val
  rw [Nat.mul_comm]; omega

/-- The same at a literal total: a sum over `n` indices with `n = a · b`. -/
theorem sum_blocks_of_eq {M : Type*} [AddCommMonoid M] {n a b : ℕ} (h : n = a * b) (f : Fin n → M) :
    ∑ r : Fin n, f r = ∑ t : Fin a, ∑ p : Fin b, f ⟨t.val * b + p.val, h ▸ pos_lt t p⟩ := by
  subst h
  exact sum_blocks f

end Cert.LibBlocks
-- ==== Proof.LibStats.lean ====
/-
  Sums over 50000 rows taken in ten blocks of 5000 and in two halves of five blocks: the running sum of a half
  after each block, the two halves' totals adding up to the sum over all rows, and a 16-row array holding the two
  halves' totals in rows 0 and 8 (zero elsewhere), whose rows add up to the same sum.
-/
import Idealize.ShloMosaic.PureOps.Ideal
import Idealize.ShloMosaic.Lib.ValueIdx
import proofs.«112734_j34411277975785_2_alg».proof.Proof.LibBlocks

noncomputable section

open scoped BigOperators

namespace Cert.LibStats

open Finset Idealize.ShloMosaic Idealize.ShloMosaic.ValueIdx

/-- A function of the 50000 rows, extended by zero to every natural number. -/
def Hn (H : Fin 50000 → EReal) (r : ℕ) : EReal := if h : r < 50000 then H ⟨r, h⟩ else 0

/-- The sum over the 5000 rows of block `t`. -/
def Bsum (H : Fin 50000 → EReal) (t : ℕ) : EReal := ∑ p : Fin 5000, Hn H (t * 5000 + p.val)

/-- The running sum of a half after block `t`: the blocks of `t`'s half up to and including `t`. -/
def Sacc (H : Fin 50000 → EReal) (t : ℕ) : EReal := ∑ j ∈ range (t % 5 + 1), Bsum H (5 * (t / 5) + j)

theorem Hn_of_lt (H : Fin 50000 → EReal) (r : ℕ) (h : r < 50000) : Hn H r = H ⟨r, h⟩ := dif_pos h

/-- The extension of a product is the product of the extensions. -/
theorem Hn_mul (H : Fin 50000 → EReal) (r : ℕ) : Hn (fun x => H x * H x) r = Hn H r * Hn H r := by
  unfold Hn
  by_cases h : r < 50000
  · rw [dif_pos h, dif_pos h]
  · rw [dif_neg h, dif_neg h, mul_zero]

theorem Bsum_mul (H : Fin 50000 → EReal) (t : ℕ) :
    Bsum (fun x => H x * H x) t = ∑ p : Fin 5000, Hn H (t * 5000 + p.val) * Hn H (t * 5000 + p.val) :=
  sum_congr rfl fun p _ => Hn_mul H _

/-- At the first block of a half the running sum is that block's. -/
theorem Sacc_reset (H : Fin 50000 → EReal) (t : ℕ) (h : t % 5 = 0) : Sacc H t = Bsum H t := by
  unfold Sacc
  rw [h, zero_add, sum_range_one, add_zero]
  congr 1; omega

/-- At a later block it is the running sum after the block before plus this block's. -/
theorem Sacc_step (H : Fin 50000 → EReal) (t : ℕ) (h : t % 5 ≠ 0) : Sacc H t = Sacc H (t - 1) + Bsum H t := by
  unfold Sacc
  have e1 : (t - 1) % 5 + 1 = t % 5 := by omega
  have e2 : (t - 1) / 5 = t / 5 := by omega
  have e3 : 5 * (t / 5) + t % 5 = t := by omega
  rw [sum_range_succ, e1, e2, e3]

theorem Sacc_4 (H : Fin 50000 → EReal) : Sacc H 4 = Bsum H 0 + Bsum H 1 + Bsum H 2 + Bsum H 3 + Bsum H 4 := by
  rw [Sacc_step H 4 (by decide), show 4 - 1 = 3 from rfl, Sacc_step H 3 (by decide), show 3 - 1 = 2 from rfl,
    Sacc_step H 2 (by decide), show 2 - 1 = 1 from rfl, Sacc_step H 1 (by decide), show 1 - 1 = 0 from rfl, Sacc_reset H 0 rfl]

theorem Sacc_9 (H : Fin 50000 → EReal) : Sacc H 9 = Bsum H 5 + Bsum H 6 + Bsum H 7 + Bsum H 8 + Bsum H 9 := by
  rw [Sacc_step H 9 (by decide), show 9 - 1 = 8 from rfl, Sacc_step H 8 (by decide), show 8 - 1 = 7 from rfl,
    Sacc_step H 7 (by decide), show 7 - 1 = 6 from rfl, Sacc_step H 6 (by decide), show 6 - 1 = 5 from rfl, Sacc_reset H 5 rfl]

/-- The two halves' totals add up to the sum over all rows. -/
theorem total (H : Fin 50000 → EReal) : Sacc H 4 + Sacc H 9 = ∑ r : Fin 50000, H r := by
  rw [Cert.LibBlocks.sum_blocks_of_eq (show 50000 = 10 * 5000 from rfl) H]
  have hb : ∀ t : Fin 10, (∑ p : Fin 5000, H ⟨t.val * 5000 + p.val, (show 50000 = 10 * 5000 from rfl) ▸ Cert.LibBlocks.pos_lt t p⟩) = Bsum H t.val :=
    fun t => sum_congr rfl fun p _ => (Hn_of_lt H _ _).symm
  rw [sum_congr rfl fun t _ => hb t, Fin.sum_univ_eq_sum_range (fun t => Bsum H t) 10, Sacc_4, Sacc_9]
  simp only [sum_range_succ, sum_range_zero, zero_add, add_assoc]

/-- The 16-row array: row `8a` holds `S (5a + 4)`, the other rows zero. -/
def G16 (S : ℕ → Fin 128 → EReal) : (⟨2, ![16, 128]⟩ : Shape).Idx → EReal :=
  fun y => if (y 0).val % 8 = 0 then S (5 * ((y 0).val / 8) + 4) (y 1) else 0

/-- The sum of column `k` over the 16 rows. -/
def rows16 (s : (⟨2, ![16, 128]⟩ : Shape).Idx → EReal) (k : Fin 128) : EReal := ∑ i : Fin 16, s (ix2 i k)

theorem rows16_G16 (S : ℕ → Fin 128 → EReal) (k : Fin 128) : rows16 (G16 S) k = S 4 k + S 9 k := by
  unfold rows16
  rw [Cert.LibBlocks.sum_blocks_of_eq (show 16 = 2 * 8 from rfl)]
  have inner : ∀ a : Fin 2, (∑ q : Fin 8, G16 S (ix2 (⟨a.val * 8 + q.val, (show 16 = 2 * 8 from rfl) ▸ Cert.LibBlocks.pos_lt a q⟩ : Fin 16) k)) = S (5 * a.val + 4) k := by
    intro a
    rw [sum_eq_single (0 : Fin 8)]
    · show (if (a.val * 8 + 0) % 8 = 0 then S (5 * ((a.val * 8 + 0) / 8) + 4) k else 0) = _
      have e1 : (a.val * 8 + 0) % 8 = 0 := by omega
      have e2 : (a.val * 8 + 0) / 8 = a.val := by omega
      rw [if_pos e1, e2]
    · intro q _ hq
      show (if (a.val * 8 + q.val) % 8 = 0 then S (5 * ((a.val * 8 + q.val) / 8) + 4) k else 0) = _
      have hq' : q.val ≠ 0 := fun h => hq (Fin.ext h)
      have e1 : ¬ (a.val * 8 + q.val) % 8 = 0 := by have := q.isLt; omega
      rw [if_neg e1]
    · intro h; exact absurd (mem_univ _) h
  rw [sum_congr rfl fun a _ => inner a, Fin.sum_univ_two]
  rfl

end Cert.LibStats

end
-- ==== Proof.KI.Value0.lean ====
/- THE VALUE OF REGION 0 at the exact extended reals. With h (r,k) = ((Σ_j agg (r,j) · wt (j,k)) + b k) · nrm (r,0)
   the normalised linear layer of the arrays as the region finds them: point t of the grid (t = 5a + j) works on rows
   5000·t … 5000·t + 4999; the two accumulators are zeroed at j = 0 and after point t hold, in lane k, the sums of
   h (·,k) and of h (·,k)² over the rows of blocks 5a … t; at j = 4 row 0 of the output blocks is stored from them (the
   other seven rows zero) and written back to rows 8a … 8a + 7 of the two 16-row result arrays. So each result array
   has the two halves' totals in rows 0 and 8 and zero elsewhere, and its rows add up, lane by lane, to the sums of h
   and of h² over all 50000 rows. -/
import proofs.«112734_j34411277975785_2_alg».proof.Proof.KI.Region0
import proofs.«112734_j34411277975785_2_alg».proof.Proof.KI.Pieces0
import proofs.«112734_j34411277975785_2_alg».proof.Proof.KI.Pay0
import proofs.«112734_j34411277975785_2_alg».proof.Proof.Ref.Spec
import proofs.«112734_j34411277975785_2_alg».proof.Proof.LibStats
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.LibStats (Hn Bsum Sacc G16)

/-- The sum of column `k` over the 16 rows of a result array. -/
def rows16 (s : (⟨2, ![16, 128]⟩ : Shape).Idx → EReal) (k : Fin 128) : EReal := ∑ i : Fin 16, s (ix2 i k)

variable (V : (c : Dev nD) → (b : Ref sig .tc) → Buf (Elt Ideal) ((c : Thread nD τ).loc b))

/-- Column `k` of the normalised linear layer of the arrays as the region finds them, row by row. -/
def hcol (c : Dev nD) (k : Fin 128) : Fin 50000 → EReal :=
  fun r => Cert.RefSide.hrow (V c main_v20) (V c main_v23) (V c main_arg2) (V c main_v21) r k

/-! ## Where the blocks sit in the arrays -/

/-- The block index maps over the ten points: the aggregate and norm windows are on row block `t`; the weight and
    bias windows on their one block; the two result windows on row block `t / 5`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val / 5 ∧ win0_4.index t (1 : Fin 2) = 0
    ∧ win0_5.index t (0 : Fin 2) = t.val / 5 ∧ win0_5.index t (1 : Fin 2) = 0 :=
  (by decide +kernel : ∀ t : Fin grid0.N, _)

theorem emb0_0 (t : Fin cfg0.N) (p : Fin 5000) (j : Fin 128) (h : t.val * 5000 + p.val < 50000) :
    ((cfg0.win 0).blk t).view.emb (ix2 p j : S5000x128.Idx) = ix2 (⟨t.val * 5000 + p.val, h⟩ : Fin 50000) j := by
  obtain ⟨e00, e01, e10, e11, e20, e21, e30, e40, e41, e50, e51⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * j.val = j.val; omega

theorem emb0_1 (t : Fin cfg0.N) (p : Fin 5000) (h : t.val * 5000 + p.val < 50000) :
    ((cfg0.win 1).blk t).view.emb (ix2 p (0 : Fin 1) : S5000x1.Idx) = ix2 (⟨t.val * 5000 + p.val, h⟩ : Fin 50000) (0 : Fin 1) := by
  obtain ⟨e00, e01, e10, e11, e20, e21, e30, e40, e41, e50, e51⟩ := idx_facts0 t
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega

theorem emb0_2 (t : Fin cfg0.N) (j k : Fin 128) :
    ((cfg0.win 2).blk t).view.emb (ix2 j k : S128x128.Idx) = ix2 j k := by
  obtain ⟨e00, e01, e10, e11, e20, e21, e30, e40, e41, e50, e51⟩ := idx_facts0 t
  funext a; apply Fin.ext
  match a with
  | ⟨0, _⟩ => show win0_2.index t (0 : Fin 2) * 128 + 1 * j.val = j.val; omega
  | ⟨1, _⟩ => show win0_2.index t (1 : Fin 2) * 128 + 1 * k.val = k.val; omega

theorem emb0_3 (t : Fin cfg0.N) (k : Fin 128) :
    ((cfg0.win 3).blk t).view.emb (ix1 k : S128.Idx) = ix1 k := by
  obtain ⟨e00, e01, e10, e11, e20, e21, e30, e40, e41, e50, e51⟩ := idx_facts0 t
  funext a; apply Fin.ext
  match a with
  | ⟨0, _⟩ => show win0_3.index t (0 : Fin 1) * 128 + 1 * k.val = k.val; omega

/-- The layer on block `t`, at row `p` of the block, is the layer of the arrays at row `5000·t + p`. -/
theorem hBlk0_iblk (c : Dev nD) (t : Fin cfg0.N) (p : Fin 5000) (k : Fin 128) :
    hBlk0 (iblk0 V c 0 t) (iblk0 V c 2 t) (iblk0 V c 3 t) (iblk0 V c 1 t) p k = Hn (hcol V c k) (t.val * 5000 + p.val) := by
  have hN : cfg0.N = 10 := N_0
  have hlt : t.val * 5000 + p.val < 50000 := by have := t.isLt; have := p.isLt; omega
  rw [Cert.LibStats.Hn_of_lt _ _ hlt]
  unfold hBlk0 hcol Cert.RefSide.hrow
  exact congrArg₂ (· * ·)
    (congrArg₂ (· + ·)
      (Finset.sum_congr rfl fun j _ => congrArg₂ (· * ·)
        (congrArg (V c main_v20 : Cert.RefSide.A50000x128) (emb0_0 t p j hlt))
        (congrArg (V c main_v23 : Cert.RefSide.A128x128) (emb0_2 t j k)))
      (congrArg (V c main_arg2 : Cert.RefSide.A128) (emb0_3 t k)))
    (congrArg (V c main_v21 : Cert.RefSide.A50000x1) (emb0_1 t p hlt))

/-! ## One point's update of the two accumulators -/

theorem step0 (c : Dev nD) (t : Fin cfg0.N) (s : Vec Ideal S1x128 .f32) (k : Fin 128) :
    k0_pay8 (F := Ideal) (grid0.coords t) (iblk0 V c 0 t) (iblk0 V c 2 t) (iblk0 V c 3 t) (iblk0 V c 1 t) s (ix2 (0 : Fin 1) k)
      = s (ix2 (0 : Fin 1) k) + Bsum (hcol V c k) t.val := by
  refine (k0_pay8_apply (grid0.coords t) (iblk0 V c 0 t) (iblk0 V c 2 t) (iblk0 V c 3 t) (iblk0 V c 1 t) s k).trans ?_
  refine congrArg (s (ix2 (0 : Fin 1) k) + ·) ?_
  exact Finset.sum_congr rfl fun p _ => hBlk0_iblk V c t p k

theorem step1 (c : Dev nD) (t : Fin cfg0.N) (s : Vec Ideal S1x128 .f32) (k : Fin 128) :
    k0_pay1 (F := Ideal) (k0_pay7 (grid0.coords t) (iblk0 V c 0 t) (iblk0 V c 2 t) (iblk0 V c 3 t) (iblk0 V c 1 t)) s (ix2 (0 : Fin 1) k)
      = s (ix2 (0 : Fin 1) k) + Bsum (fun r => hcol V c k r * hcol V c k r) t.val := by
  refine (k0_pay1_apply (k0_pay7 (grid0.coords t) (iblk0 V c 0 t) (iblk0 V c 2 t) (iblk0 V c 3 t) (iblk0 V c 1 t)) s k).trans ?_
  refine congrArg (s (ix2 (0 : Fin 1) k) + ·) ?_
  rw [Cert.LibStats.Bsum_mul]
  refine Finset.sum_congr rfl fun p _ => ?_
  rw [k0_pay7_apply (grid0.coords t) (iblk0 V c 0 t) (iblk0 V c 2 t) (iblk0 V c 3 t) (iblk0 V c 1 t) p k, hBlk0_iblk V c t p k]

/-! ## The accumulators after each point -/

/-- After point `t` the accumulators hold, in lane `k`, the sums of the layer's column `k` and of its square over the
    rows of the blocks of `t`'s half up to `t`. -/
theorem acc_inv (c : Dev nD) (k : Fin 128) : ∀ (n : ℕ) (t : Fin cfg0.N), t.val = n →
    (outsAt0 V c t.val t.isLt).2.2.1 (ix2 (0 : Fin 1) k) = Sacc (hcol V c k) t.val
    ∧ (outsAt0 V c t.val t.isLt).2.2.2 (ix2 (0 : Fin 1) k) = Sacc (fun r => hcol V c k r * hcol V c k r) t.val := by
  intro n
  induction n using Nat.strong_induction_on with
  | _ n ih =>
    intro t ht
    have hN : cfg0.N = 10 := N_0
    have htN : t.val < 10 := lt_of_lt_of_eq t.isLt hN
    by_cases h0 : t.val % 5 = 0
    · have h1 : ¬t.val % 5 = 4 := by omega
      rw [outsAt0_A V c t h0 h1]
      dsimp only
      refine ⟨?_, ?_⟩
      · refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) (ix2 (0 : Fin 1) k)).trans ?_
        refine (step0 V c t (k0_pay5 (F := Ideal)) k).trans ?_
        rw [k0_pay5_apply, zero_add, Cert.LibStats.Sacc_reset _ _ h0]
      · refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) (ix2 (0 : Fin 1) k)).trans ?_
        refine (step1 V c t (k0_pay6 (F := Ideal)) k).trans ?_
        rw [k0_pay6_apply, zero_add, Cert.LibStats.Sacc_reset _ _ h0]
    · have hpos : t.val - 1 < n := by omega
      have hlt' : t.val - 1 < cfg0.N := Nat.lt_of_le_of_lt (Nat.sub_le _ _) t.isLt
      have ihp := ih (t.val - 1) hpos ⟨t.val - 1, hlt'⟩ rfl
      have ih0 : (outsAt0 V c (t.val - 1) (Nat.lt_of_le_of_lt (Nat.sub_le _ _) t.isLt)).2.2.1 (ix2 (0 : Fin 1) k) = Sacc (hcol V c k) (t.val - 1) := ihp.1
      have ih1 : (outsAt0 V c (t.val - 1) (Nat.lt_of_le_of_lt (Nat.sub_le _ _) t.isLt)).2.2.2 (ix2 (0 : Fin 1) k) = Sacc (fun r => hcol V c k r * hcol V c k r) (t.val - 1) := ihp.2
      by_cases h1 : t.val % 5 = 4
      · rw [outsAt0_C V c t h0 h1]
        dsimp only
        refine ⟨?_, ?_⟩
        · refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) k)).trans ?_
          refine (step0 V c t (outsAt0 V c (t.val - 1) (Nat.lt_of_le_of_lt (Nat.sub_le _ _) t.isLt)).2.2.1 k).trans ?_
          rw [ih0, ← Cert.LibStats.Sacc_step _ _ h0]
        · refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) k)).trans ?_
          refine (step1 V c t (outsAt0 V c (t.val - 1) (Nat.lt_of_le_of_lt (Nat.sub_le _ _) t.isLt)).2.2.2 k).trans ?_
          rw [ih1, ← Cert.LibStats.Sacc_step _ _ h0]
      · rw [outsAt0_B V c t h0 h1]
        dsimp only
        refine ⟨?_, ?_⟩
        · refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) k)).trans ?_
          refine (step0 V c t (outsAt0 V c (t.val - 1) (Nat.lt_of_le_of_lt (Nat.sub_le _ _) t.isLt)).2.2.1 k).trans ?_
          rw [ih0, ← Cert.LibStats.Sacc_step _ _ h0]
        · refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 (0 : Fin 1) k)).trans ?_
          refine (step1 V c t (outsAt0 V c (t.val - 1) (Nat.lt_of_le_of_lt (Nat.sub_le _ _) t.isLt)).2.2.2 k).trans ?_
          rw [ih1, ← Cert.LibStats.Sacc_step _ _ h0]

/-! ## Result 0 (the sums): what is written back, and the array after the region -/

theorem emb0_4 (t : Fin cfg0.N) (i : Fin 8) (k : Fin 128) (h : t.val / 5 * 8 + i.val < 16) :
    ((cfg0.win 4).blk t).view.emb (ix2 i k : S8x128.Idx) = ix2 (⟨t.val / 5 * 8 + i.val, h⟩ : Fin 16) k := by
  obtain ⟨e00, e01, e10, e11, e20, e21, e30, e40, e41, e50, e51⟩ := idx_facts0 t
  funext a; apply Fin.ext
  match a with
  | ⟨0, _⟩ => show win0_4.index t (0 : Fin 2) * 8 + 1 * i.val = t.val / 5 * 8 + i.val; omega
  | ⟨1, _⟩ => show win0_4.index t (1 : Fin 2) * 128 + 1 * k.val = k.val; omega

/-- What a writing-back point (inner coordinate 4) writes is its block of the array holding the halves' totals in
    rows 0 and 8. -/
theorem flushed4_eq (c : Dev nD) (t : Fin cfg0.N) (hf : (cfg0.win 4).flush t = true) :
    (dat0 (F := Ideal) V c).flushed 4 t = ((cfg0.win 4).blk t).view.read (Elt Ideal) (G16 fun n k => Sacc (hcol V c k) n) := by
  have hN : cfg0.N = 10 := N_0
  have htN : t.val < 10 := lt_of_lt_of_eq t.isLt hN
  have h1 : t.val % 5 = 4 := (flush0_4 t).mp hf
  have h0 : ¬t.val % 5 = 0 := by omega
  show (cfg0.win 4).cut (grid0.coords t) ((dat0 V c).after 4 t) = _
  rw [after0_4, outsAt0_C V c t h0 h1]
  dsimp only
  funext x
  obtain ⟨i, k, rfl⟩ : ∃ (i : Fin 8) (k : Fin 128), x = ix2 i k := ⟨x 0, x 1, eq_ix2 (n0 := 8) (n1 := 128) x⟩
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 i k)).trans ?_
  refine (k0_pay3_apply (k0_pay8 (F := Ideal) (grid0.coords t) (iblk0 V c 0 t) (iblk0 V c 2 t) (iblk0 V c 3 t) (iblk0 V c 1 t) (outsAt0 V c (t.val - 1) (Nat.lt_of_le_of_lt (Nat.sub_le _ _) t.isLt)).2.2.1) i k).trans ?_
  have hacc : (k0_pay8 (F := Ideal) (grid0.coords t) (iblk0 V c 0 t) (iblk0 V c 2 t) (iblk0 V c 3 t) (iblk0 V c 1 t) (outsAt0 V c (t.val - 1) (Nat.lt_of_le_of_lt (Nat.sub_le _ _) t.isLt)).2.2.1) (ix2 (0 : Fin 1) k) = Sacc (hcol V c k) t.val := by
    refine (step0 V c t (outsAt0 V c (t.val - 1) (Nat.lt_of_le_of_lt (Nat.sub_le _ _) t.isLt)).2.2.1 k).trans ?_
    have hlt' : t.val - 1 < cfg0.N := Nat.lt_of_le_of_lt (Nat.sub_le _ _) t.isLt
    have ihp := acc_inv V c k (t.val - 1) ⟨t.val - 1, hlt'⟩ rfl
    have ihw : (outsAt0 V c (t.val - 1) (Nat.lt_of_le_of_lt (Nat.sub_le _ _) t.isLt)).2.2.1 (ix2 (0 : Fin 1) k) = Sacc (hcol V c k) (t.val - 1) := ihp.1
    rw [ihw, ← Cert.LibStats.Sacc_step _ _ h0]
  rw [hacc, View.read_apply]
  have hrow : t.val / 5 * 8 + i.val < 16 := by have := i.isLt; omega
  rw [emb0_4 t i k hrow]
  show _ = (if (t.val / 5 * 8 + i.val) % 8 = 0 then Sacc (hcol V c k) (5 * ((t.val / 5 * 8 + i.val) / 8) + 4) else 0)
  have e1 : (t.val / 5 * 8 + i.val) % 8 = i.val := by have := i.isLt; omega
  have e2 : 5 * ((t.val / 5 * 8 + i.val) / 8) + 4 = t.val := by have := i.isLt; omega
  rw [e1, e2]

theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v24_0).slice (win0_4.rect t)).set ↔ _
  rw [View.set_slice_whole, Rect.mem_set_unit]
  exact Iff.rfl

/-- The two writing-back points' blocks tile the 16 rows: row `r` is in the block of point `5 (r / 8) + 4`. -/
theorem cover4 (i : S16x128.Idx) :
    ∃ t : Fin cfg0.N, (cfg0.win 4).flush t = true ∧ i ∈ ((cfg0.win 4).blk t).view.set := by
  have hi0 : (i 0).val < 16 := (i 0).isLt
  have hi1 : (i 1).val < 128 := (i 1).isLt
  have hN : cfg0.N = 10 := N_0
  have ht : 5 * ((i 0).val / 8) + 4 < cfg0.N := by rw [hN]; omega
  refine ⟨⟨5 * ((i 0).val / 8) + 4, ht⟩, (flush0_4 _).mpr (by show (5 * ((i 0).val / 8) + 4) % 5 = 4; omega), ?_⟩
  obtain ⟨e00, e01, e10, e11, e20, e21, e30, e40, e41, e50, e51⟩ := idx_facts0 ⟨5 * ((i 0).val / 8) + 4, ht⟩
  rw [mem_blk4]
  intro a
  match a with
  | ⟨0, _⟩ =>
    show win0_4.index ⟨5 * ((i 0).val / 8) + 4, ht⟩ (0 : Fin 2) * 8 ≤ (i 0).val ∧ (i 0).val < win0_4.index ⟨5 * ((i 0).val / 8) + 4, ht⟩ (0 : Fin 2) * 8 + 8
    rw [e40]; show (5 * ((i 0).val / 8) + 4) / 5 * 8 ≤ (i 0).val ∧ (i 0).val < (5 * ((i 0).val / 8) + 4) / 5 * 8 + 8; omega
  | ⟨1, _⟩ =>
    show win0_4.index ⟨5 * ((i 0).val / 8) + 4, ht⟩ (1 : Fin 2) * 128 ≤ (i 1).val ∧ (i 1).val < win0_4.index ⟨5 * ((i 0).val / 8) + 4, ht⟩ (1 : Fin 2) * 128 + 128
    omega

/-- The result array after the region: the halves' totals in rows 0 and 8, zero elsewhere. -/
theorem final4 (c : Dev nD) :
    (dat0 (F := Ideal) V c).arrAt 4 cfg0.N = G16 fun n k => Sacc (hcol V c k) n :=
  (dat0 (F := Ideal) V c).arrAt_eq_of_cover 4 (G16 fun n k => Sacc (hcol V c k) n) (fun t hf => flushed4_eq V c t hf) cover4

/-! ## Result 1 (the sums of squares): what is written back, and the array after the region -/

theorem emb0_5 (t : Fin cfg0.N) (i : Fin 8) (k : Fin 128) (h : t.val / 5 * 8 + i.val < 16) :
    ((cfg0.win 5).blk t).view.emb (ix2 i k : S8x128.Idx) = ix2 (⟨t.val / 5 * 8 + i.val, h⟩ : Fin 16) k := by
  obtain ⟨e00, e01, e10, e11, e20, e21, e30, e40, e41, e50, e51⟩ := idx_facts0 t
  funext a; apply Fin.ext
  match a with
  | ⟨0, _⟩ => show win0_5.index t (0 : Fin 2) * 8 + 1 * i.val = t.val / 5 * 8 + i.val; omega
  | ⟨1, _⟩ => show win0_5.index t (1 : Fin 2) * 128 + 1 * k.val = k.val; omega

/-- What a writing-back point (inner coordinate 4) writes is its block of the array holding the halves' totals in
    rows 0 and 8. -/
theorem flushed5_eq (c : Dev nD) (t : Fin cfg0.N) (hf : (cfg0.win 5).flush t = true) :
    (dat0 (F := Ideal) V c).flushed 5 t = ((cfg0.win 5).blk t).view.read (Elt Ideal) (G16 fun n k => Sacc (fun r => hcol V c k r * hcol V c k r) n) := by
  have hN : cfg0.N = 10 := N_0
  have htN : t.val < 10 := lt_of_lt_of_eq t.isLt hN
  have h1 : t.val % 5 = 4 := (flush0_5 t).mp hf
  have h0 : ¬t.val % 5 = 0 := by omega
  show (cfg0.win 5).cut (grid0.coords t) ((dat0 V c).after 5 t) = _
  rw [after0_5, outsAt0_C V c t h0 h1]
  dsimp only
  funext x
  obtain ⟨i, k, rfl⟩ : ∃ (i : Fin 8) (k : Fin 128), x = ix2 i k := ⟨x 0, x 1, eq_ix2 (n0 := 8) (n1 := 128) x⟩
  refine (congrFun (out0_C_5_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 i k)).trans ?_
  refine (k0_pay4_apply (k0_pay1 (F := Ideal) (k0_pay7 (grid0.coords t) (iblk0 V c 0 t) (iblk0 V c 2 t) (iblk0 V c 3 t) (iblk0 V c 1 t)) (outsAt0 V c (t.val - 1) (Nat.lt_of_le_of_lt (Nat.sub_le _ _) t.isLt)).2.2.2) i k).trans ?_
  have hacc : (k0_pay1 (F := Ideal) (k0_pay7 (grid0.coords t) (iblk0 V c 0 t) (iblk0 V c 2 t) (iblk0 V c 3 t) (iblk0 V c 1 t)) (outsAt0 V c (t.val - 1) (Nat.lt_of_le_of_lt (Nat.sub_le _ _) t.isLt)).2.2.2) (ix2 (0 : Fin 1) k) = Sacc (fun r => hcol V c k r * hcol V c k r) t.val := by
    refine (step1 V c t (outsAt0 V c (t.val - 1) (Nat.lt_of_le_of_lt (Nat.sub_le _ _) t.isLt)).2.2.2 k).trans ?_
    have hlt' : t.val - 1 < cfg0.N := Nat.lt_of_le_of_lt (Nat.sub_le _ _) t.isLt
    have ihp := acc_inv V c k (t.val - 1) ⟨t.val - 1, hlt'⟩ rfl
    have ihw : (outsAt0 V c (t.val - 1) (Nat.lt_of_le_of_lt (Nat.sub_le _ _) t.isLt)).2.2.2 (ix2 (0 : Fin 1) k) = Sacc (fun r => hcol V c k r * hcol V c k r) (t.val - 1) := ihp.2
    rw [ihw, ← Cert.LibStats.Sacc_step _ _ h0]
  rw [hacc, View.read_apply]
  have hrow : t.val / 5 * 8 + i.val < 16 := by have := i.isLt; omega
  rw [emb0_5 t i k hrow]
  show _ = (if (t.val / 5 * 8 + i.val) % 8 = 0 then Sacc (fun r => hcol V c k r * hcol V c k r) (5 * ((t.val / 5 * 8 + i.val) / 8) + 4) else 0)
  have e1 : (t.val / 5 * 8 + i.val) % 8 = i.val := by have := i.isLt; omega
  have e2 : 5 * ((t.val / 5 * 8 + i.val) / 8) + 4 = t.val := by have := i.isLt; omega
  rw [e1, e2]

theorem mem_blk5 (t : Fin cfg0.N) (i : S16x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v24_1).slice (win0_5.rect t)).set ↔ _
  rw [View.set_slice_whole, Rect.mem_set_unit]
  exact Iff.rfl

/-- The two writing-back points' blocks tile the 16 rows: row `r` is in the block of point `5 (r / 8) + 4`. -/
theorem cover5 (i : S16x128.Idx) :
    ∃ t : Fin cfg0.N, (cfg0.win 5).flush t = true ∧ i ∈ ((cfg0.win 5).blk t).view.set := by
  have hi0 : (i 0).val < 16 := (i 0).isLt
  have hi1 : (i 1).val < 128 := (i 1).isLt
  have hN : cfg0.N = 10 := N_0
  have ht : 5 * ((i 0).val / 8) + 4 < cfg0.N := by rw [hN]; omega
  refine ⟨⟨5 * ((i 0).val / 8) + 4, ht⟩, (flush0_5 _).mpr (by show (5 * ((i 0).val / 8) + 4) % 5 = 4; omega), ?_⟩
  obtain ⟨e00, e01, e10, e11, e20, e21, e30, e40, e41, e50, e51⟩ := idx_facts0 ⟨5 * ((i 0).val / 8) + 4, ht⟩
  rw [mem_blk5]
  intro a
  match a with
  | ⟨0, _⟩ =>
    show win0_5.index ⟨5 * ((i 0).val / 8) + 4, ht⟩ (0 : Fin 2) * 8 ≤ (i 0).val ∧ (i 0).val < win0_5.index ⟨5 * ((i 0).val / 8) + 4, ht⟩ (0 : Fin 2) * 8 + 8
    rw [e50]; show (5 * ((i 0).val / 8) + 4) / 5 * 8 ≤ (i 0).val ∧ (i 0).val < (5 * ((i 0).val / 8) + 4) / 5 * 8 + 8; omega
  | ⟨1, _⟩ =>
    show win0_5.index ⟨5 * ((i 0).val / 8) + 4, ht⟩ (1 : Fin 2) * 128 ≤ (i 1).val ∧ (i 1).val < win0_5.index ⟨5 * ((i 0).val / 8) + 4, ht⟩ (1 : Fin 2) * 128 + 128
    omega

/-- The result array after the region: the halves' totals in rows 0 and 8, zero elsewhere. -/
theorem final5 (c : Dev nD) :
    (dat0 (F := Ideal) V c).arrAt 5 cfg0.N = G16 fun n k => Sacc (fun r => hcol V c k r * hcol V c k r) n :=
  (dat0 (F := Ideal) V c).arrAt_eq_of_cover 5 (G16 fun n k => Sacc (fun r => hcol V c k r * hcol V c k r) n) (fun t hf => flushed5_eq V c t hf) cover5

/-! ## The rows of the result arrays add up to the sums over all 50000 rows -/

theorem stats0_sum (c : Dev nD) (k : Fin 128) :
    rows16 ((dat0 (F := Ideal) V c).arrAt 4 cfg0.N) k
      = ∑ r : Fin 50000, Cert.RefSide.hrow (V c main_v20) (V c main_v23) (V c main_arg2) (V c main_v21) r k :=
  (congrArg (fun s => rows16 s k) (final4 V c)).trans
    ((Cert.LibStats.rows16_G16 (fun n k => Sacc (hcol V c k) n) k).trans (Cert.LibStats.total (hcol V c k)))

theorem stats0_sumsq (c : Dev nD) (k : Fin 128) :
    rows16 ((dat0 (F := Ideal) V c).arrAt 5 cfg0.N) k
      = ∑ r : Fin 50000, Cert.RefSide.hrow (V c main_v20) (V c main_v23) (V c main_arg2) (V c main_v21) r k
          * Cert.RefSide.hrow (V c main_v20) (V c main_v23) (V c main_arg2) (V c main_v21) r k :=
  (congrArg (fun s => rows16 s k) (final5 V c)).trans
    ((Cert.LibStats.rows16_G16 (fun n k => Sacc (fun r => hcol V c k r * hcol V c k r) n) k).trans (Cert.LibStats.total (fun r => hcol V c k r * hcol V c k r)))

end Cert.KernelIdeal.Hand

end
-- ==== Proof.KI.Final.lean ====
/-
  The idealized kernel's result, entry by entry, as one function of the argument arrays. With h r k the row entry
  ((Σ_j agg (r,j) · wt (j,k)) + b k) · nrm (r,0) of the host prefix's arrays, the first region leaves the column
  sums S k = Σ_r h r k and Q k = Σ_r h r k · h r k (spread over two rows of two small arrays), the host lines
  between the regions turn them into mean, clamped variance, scale and shift, and the second region's blocks tile
  the result with  feat (r,k) + max (h r k · scale k + shift k) 0.
-/
import proofs.«112734_j34411277975785_2_alg».proof.Proof.KI.Legs
import proofs.«112734_j34411277975785_2_alg».proof.Proof.KI.Mid
import proofs.«112734_j34411277975785_2_alg».proof.Proof.KI.Prefix
import proofs.«112734_j34411277975785_2_alg».proof.Proof.KI.Value1
import proofs.«112734_j34411277975785_2_alg».proof.Proof.KI.Value0
import proofs.«112734_j34411277975785_2_alg».proof.Proof.Ref.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-- With the statistics arrays' row sums known, the second region's whole-array function at the scale and shift
    rows the host lines make of them is the kernel's arrangement of the layer. Stated over arrays of literal shapes. -/
theorem G1_stats (feat agg : Cert.RefSide.A50000x128) (wt : Cert.RefSide.A128x128) (b : Cert.RefSide.A128) (nrm : Cert.RefSide.A50000x1)
    (s q : FVec Ideal S16x128 .f32) (gamma beta : FVec Ideal S128 .f32)
    (hs : ∀ k : Fin 128, rows16 s k = ∑ r : Fin 50000, Cert.RefSide.hrow agg wt b nrm r k)
    (hq : ∀ k : Fin 128, rows16 q k = ∑ r : Fin 50000, Cert.RefSide.hrow agg wt b nrm r k * Cert.RefSide.hrow agg wt b nrm r k) :
    G1 feat agg wt b nrm (scaleRow s q gamma) (shiftRow s q gamma beta) = Cert.RefSide.outK agg wt b nrm feat gamma beta := by
  funext i
  obtain ⟨r, k, rfl⟩ : ∃ (r : Fin 50000) (k : Fin 128), i = ix2 r k := ⟨i 0, i 1, eq_ix2 i⟩
  rw [G1_apply, Cert.RefSide.outK_ix2, shiftRow_apply, scaleRow_apply]
  have hs' := hs k
  have hq' := hq k
  unfold rows16 at hs' hq'
  rw [hs', hq']
  rfl

variable (m : (ℓ : Loc nD τ sig) → Buf (Elt Ideal) ℓ) (c : Dev nD)

/-- The kernel's result array in terms of the arrays the first region is entered with. -/
theorem value_at_entry :
    (dat1 (F := Ideal) (E11 m (fun V c => dat0 V c)) c).arrAt 7 cfg1.N
      = Cert.RefSide.outK (E9 m c main_v20) (E9 m c main_v23) (E9 m c main_arg2) (E9 m c main_v21) (E9 m c main_v22)
          (m ((c : Thread nD τ).loc main_arg3)) (m ((c : Thread nD τ).loc main_arg4)) := by
  have hL := legs (F := Ideal)
  rw [final1]
  rw [E11_feat m c, E11_agg m hL c, E11_wt m hL c, E11_bias m hL c, E11_nrm m hL c, E11_scale, E11_shift]
  rw [show Y10 m (fun V c => dat0 V c) c main_v24_0 = (dat0 (F := Ideal) (E9 m) c).arrAt 4 cfg0.N from Y10_arr m _ c 4,
    show Y10 m (fun V c => dat0 V c) c main_v24_1 = (dat0 (F := Ideal) (E9 m) c).arrAt 5 cfg0.N from Y10_arr m _ c 5,
    Y10_gamma, Y10_beta]
  exact G1_stats _ _ _ _ _ _ _ _ _ (fun k => stats0_sum (E9 m) c k) (fun k => stats0_sumsq (E9 m) c k)

/-- The kernel's result array as the kernel's arrangement of the layer, of the argument arrays. -/
theorem kernel_value :
    (dat1 (F := Ideal) (E11 m (fun V c => dat0 V c)) c).arrAt 7 cfg1.N
      = Cert.RefSide.outK (aggK (m ((c : Thread nD τ).loc main_arg0)) (m ((c : Thread nD τ).loc main_arg5)) (m ((c : Thread nD τ).loc main_arg6)))
          (wtK (m ((c : Thread nD τ).loc main_arg1))) (m ((c : Thread nD τ).loc main_arg2)) (nrmK (m ((c : Thread nD τ).loc main_arg6)))
          (m ((c : Thread nD τ).loc main_arg0)) (m ((c : Thread nD τ).loc main_arg3)) (m ((c : Thread nD τ).loc main_arg4)) := by
  rw [value_at_entry, E9_agg, E9_wt, E9_bias, E9_nrm, E9_feat]

end Cert.KernelIdeal.Hand

end
-- ==== Proof.KI.RealOps.lean ====
/- REAL NUMBERS AMONG THE EXTENDED REALS. The real numbers are closed under sums, products, the larger of two, finite
   sums and real powers; a 32-bit float word with exponent field below 255 denotes one; and an array all of whose
   entries are real stays so under the operations that read one operand entry per index (broadcast, transpose,
   gather), under the pointwise power, maximum and product, and under the accumulating scatter (an entry plus a
   finite sum of updates). -/
import proofs.«112734_j34411277975785_2_alg».proof.Proof.Gen.KernelIdeal
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-! ## Real numbers among the extended reals are closed under the operations the host lines use -/

/-- A sum of two real numbers is a real number. -/
theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

/-- A product of two real numbers is a real number. -/
theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

/-- The larger of two real numbers is one of them. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of real numbers is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty]; rfl⟩
  | insert a s ha ih =>
    rw [Finset.sum_insert ha]
    exact real_add (h a (Finset.mem_insert_self a s)) (ih fun i hi => h i (Finset.mem_insert_of_mem hi))

/-- A real base to a real exponent is a real number: on two reals the power is the real power. -/
theorem real_pow {a b : EReal} (ha : ∃ r : ℝ, a = (r : EReal)) (hb : ∃ r : ℝ, b = (r : EReal)) :
    ∃ r : ℝ, Ideal.pow a b = (r : EReal) := by
  obtain ⟨x, rfl⟩ := ha; obtain ⟨y, rfl⟩ := hb
  exact ⟨Real.rpow x y, rfl⟩

/-- A 32-bit float word whose exponent field is not all ones denotes a real number (a zero, a subnormal or a
    normal), not an infinity. -/
theorem ofBits_f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  dsimp only
  rw [if_neg h]
  split_ifs <;> exact ⟨_, rfl⟩

/-! ## Arrays of real numbers through the layout operations and the accumulating scatter -/

variable {α : Type} {s t : Shape}

/-- A constant array of a word that denotes a real number. -/
theorem constant_real (w : BitVec 32) (h : (w.extractLsb' 23 8).toNat ≠ 2 ^ 8 - 1) :
    ∀ i, ∃ r : ℝ, constant (F := Ideal) s .f32 w i = (r : EReal) :=
  fun _ => ofBits_f32_real w h

/-- A broadcast reads, at each index, one entry of its operand. -/
theorem broadcastInDim_real (dims : Fin s.rank → Fin t.rank) (h : s.BroadcastsInDim t dims) (x : s.Idx → EReal)
    (hx : ∀ i, ∃ r : ℝ, x i = (r : EReal)) : ∀ j, ∃ r : ℝ, broadcastInDim t dims h x j = (r : EReal) :=
  fun _ => hx _

/-- A transpose reads, at each index, one entry of its operand. -/
theorem transpose_real (perm : List (Fin s.rank)) (x : s.Idx → EReal) (h : s.Transposes perm t)
    (hx : ∀ i, ∃ r : ℝ, x i = (r : EReal)) : ∀ j, ∃ r : ℝ, transpose t perm x h j = (r : EReal) :=
  fun _ => hx _

/-- A gather reads, at each index, one entry of its operand (the start indices are clamped into range). -/
theorem gather_real {si : Shape} {w : ℕ} (d : GatherDims s si t) (x : s.Idx → EReal) (idx : IVec si w)
    (hx : ∀ i, ∃ r : ℝ, x i = (r : EReal)) : ∀ j, ∃ r : ℝ, Host.gather d x idx j = (r : EReal) :=
  fun _ => hx _

/-- The accumulating scatter is, at each index, the operand's entry plus the finite sum of the updates that land
    there. -/
theorem scatterAdd_real {si u : Shape} {w : ℕ} (d : ScatterDims s si u) (x : FVec Ideal s .f32) (idx : IVec si w)
    (upd : FVec Ideal u .f32) (hx : ∀ i, ∃ r : ℝ, x i = (r : EReal)) (hu : ∀ j, ∃ r : ℝ, upd j = (r : EReal)) :
    ∀ i, ∃ r : ℝ, Host.scatterAdd (F := Ideal) d x idx upd i = (r : EReal) := fun i => by
  show ∃ r : ℝ, x i + ∑ j ∈ Finset.univ.filter (fun j => d.resultIdx? j idx = some i), upd j = (r : EReal)
  exact real_add (hx i) (real_sum _ _ fun j _ => hu j)

/-! ## Arrays of real numbers through the pointwise operations -/

/-- The power, entry by entry. -/
theorem powf_real (a b : FVec Ideal s .f32) (ha : ∀ i, ∃ r : ℝ, a i = (r : EReal)) (hb : ∀ i, ∃ r : ℝ, b i = (r : EReal)) :
    ∀ i, ∃ r : ℝ, Host.powf (F := Ideal) a b i = (r : EReal) := fun i => real_pow (ha i) (hb i)

/-- The larger of two arrays, entry by entry. -/
theorem maximumf_real (a b : FVec Ideal s .f32) (ha : ∀ i, ∃ r : ℝ, a i = (r : EReal)) (hb : ∀ i, ∃ r : ℝ, b i = (r : EReal)) :
    ∀ i, ∃ r : ℝ, maximumf a b i = (r : EReal) := fun i => real_max (ha i) (hb i)

/-- The product of two arrays, entry by entry. -/
theorem mulf_real (a b : FVec Ideal s .f32) (ha : ∀ i, ∃ r : ℝ, a i = (r : EReal)) (hb : ∀ i, ∃ r : ℝ, b i = (r : EReal)) :
    ∀ i, ∃ r : ℝ, mulf a b i = (r : EReal) := fun i => real_mul (ha i) (hb i)

/-! ## The three constants of the host lines -/

/-- The three constants of the host lines: zero, one and minus one half. -/
theorem word_zero_real : ((0x00000000#32 : BitVec 32).extractLsb' 23 8).toNat ≠ 2 ^ 8 - 1 := by decide
theorem word_one_real : ((0x3F800000#32 : BitVec 32).extractLsb' 23 8).toNat ≠ 2 ^ 8 - 1 := by decide
theorem word_neg_half_real : ((0xBF000000#32 : BitVec 32).extractLsb' 23 8).toNat ≠ 2 ^ 8 - 1 := by decide

end Cert.KernelIdeal.Hand

end
-- ==== Proof.KI.PrefixReal.lean ====
/- FINITENESS of the arrays the regions are entered with. Read at the exact extended reals, every host line before
   the first region keeps real numbers real: the in-degrees are zeros plus finite sums of ones; the clamped degrees are
   the larger of one and a degree; the normalising column is a real base to the real power −1/2; the aggregate is
   zeros plus finite sums of products of a feature entry and a normalising entry; the transposed weights are the
   weights' entries. -/
import proofs.«112734_j34411277975785_2_alg».proof.Proof.KI.Prefix
import proofs.«112734_j34411277975785_2_alg».proof.Proof.KI.RealOps
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-! ## The arrays the first region is entered with -/

/-- The in-degrees are real: zeros plus finite sums of ones. -/
theorem degK_real (x6 : IVec S800000 32) : ∀ i, ∃ r : ℝ, degK x6 i = (r : EReal) :=
  scatterAdd_real _ _ _ _
    (broadcastInDim_real _ _ _ (constant_real _ word_zero_real))
    (broadcastInDim_real _ _ _ (constant_real _ word_one_real))

/-- The clamped degrees are real: the larger of one and a degree. -/
theorem clK_real (x6 : IVec S800000 32) : ∀ i, ∃ r : ℝ, clK x6 i = (r : EReal) := by
  unfold clK clipK oneK
  exact maximumf_real _ _ (broadcastInDim_real _ _ _ (constant_real _ word_one_real)) (degK_real x6)

/-- The normalising column is real: a real clamped degree to the power minus one half. -/
theorem nrmK_real (x6 : IVec S800000 32) : ∀ i, ∃ r : ℝ, nrmK x6 i = (r : EReal) := by
  unfold nrmK nrmColK
  exact broadcastInDim_real _ _ _
    (powf_real _ _ (clK_real x6) (broadcastInDim_real _ _ _ (constant_real _ word_neg_half_real)))

/-- The aggregate of real features is real: zeros plus finite sums of gathered products of a feature entry and a
    normalising entry. -/
theorem aggK_real (x0 : FVec Ideal S50000x128 .f32) (x5 x6 : IVec S800000 32) (h0 : ∀ i, ∃ r : ℝ, x0 i = (r : EReal)) :
    ∀ i, ∃ r : ℝ, aggK x0 x5 x6 i = (r : EReal) := by
  unfold aggK aggOfK
  exact scatterAdd_real _ _ _ _
    (broadcastInDim_real _ _ _ (constant_real _ word_zero_real))
    (gather_real _ _ _ (mulf_real _ _ h0 (broadcastInDim_real _ _ _ (nrmK_real x6))))

/-- The transposed weights of real weights are real. -/
theorem wtK_real (x1 : FVec Ideal S128x128 .f32) (h1 : ∀ i, ∃ r : ℝ, x1 i = (r : EReal)) :
    ∀ i, ∃ r : ℝ, wtK x1 i = (r : EReal) :=
  transpose_real _ _ _ h1

end Cert.KernelIdeal.Hand

end
-- ==== Proof.Ref.RefValue.lean ====
/-
  The reference program's result, index by index, is the two-pass output of the specification.

  The host prefix of the program (the in-degree scatter-add, the clip, the power, the gather and the
  feature scatter-add, and the transpose of the weights) is kept as three opaque arrays `aggR`, `nrmR`, `wtR`
  of the arguments; every operation after them is read at an index.
-/
import proofs.«112734_j34411277975785_2_alg».proof.Proof.Ref.Spec
import proofs.«112734_j34411277975785_2_alg».proof.Proof.Gen.ReferenceIdeal.Read

set_option pp.maxSteps 5000
set_option pp.deepTerms false

noncomputable section

open scoped BigOperators

namespace Cert.RefSide

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The argument arrays' types, as the stages of the program take them. -/
abbrev C50000x128 : Type := (⟨S50000x128, .f32⟩ : BufTy).Contents (Elt Ideal)
abbrev C128x128 : Type := (⟨S128x128, .f32⟩ : BufTy).Contents (Elt Ideal)
abbrev C128 : Type := (⟨S128, .f32⟩ : BufTy).Contents (Elt Ideal)
abbrev C800000i : Type := (⟨S800000, .i32⟩ : BufTy).Contents (Elt Ideal)

/-! ## The host prefix, opaque -/

/-- The aggregated features: the scatter-add, by destination, of the gathered rows of `features · norm`. -/
def aggR (x0 : C50000x128) (x5 x6 : C800000i) : A50000x128 := val_main_v19 (F := Ideal) x0 x5 x6

/-- The normalisation column: the in-degrees clipped below at one, to the power `-1/2`, as a `[50000, 1]` array. -/
def nrmR (x6 : C800000i) : A50000x1 := val_main_v7 (F := Ideal) x6

/-- The weight matrix transposed. -/
def wtR (x1 : C128x128) : A128x128 := val_main_v20 (F := Ideal) x1

section

variable (x0 : C50000x128) (x1 : C128x128) (x2 x3 x4 : C128) (x5 x6 : C800000i)

/-- The normalised linear layer of the reference, as a matrix. -/
abbrev hR : Fin 50000 → Fin 128 → EReal := hrow (aggR x0 x5 x6) (wtR x1) x2 (nrmR x6)

/-! ## Index equations: the composed index functions of the stages are coordinates -/

theorem lidx21 (r : Fin 50000) (k j : Fin 128) : lidx_main_v21 (ix2 r k) j = ix2 r j :=
  funext fun a => Fin.ext (by match a with | ⟨0, _⟩ => rfl | ⟨1, _⟩ => rfl)
theorem ridx21 (r : Fin 50000) (k j : Fin 128) : ridx_main_v21 (ix2 r k) j = ix2 j k :=
  funext fun a => Fin.ext (by match a with | ⟨0, _⟩ => rfl | ⟨1, _⟩ => rfl)
theorem idx22_23 (r : Fin 50000) (k : Fin 128) : idx_main_v22 (idx_main_v23 (ix2 r k)) = ix1 k :=
  funext fun a => Fin.ext (by match a with | ⟨0, _⟩ => rfl)
theorem idx25 (r : Fin 50000) (k : Fin 128) : idx_main_v25 (ix2 r k) = ix2 r (0 : Fin 1) :=
  funext fun a => Fin.ext (by match a with | ⟨0, _⟩ => rfl | ⟨1, _⟩ => rfl)
theorem idx27 (k : Fin 128) (r : Fin 50000) : idx_main_v27 (ix1 k) r = ix2 r k :=
  funext fun a => Fin.ext (by match a with | ⟨0, _⟩ => rfl | ⟨1, _⟩ => rfl)
theorem idx34 (k : Fin 128) (r : Fin 50000) : idx_main_v34 (ix1 k) r = ix2 r k :=
  funext fun a => Fin.ext (by match a with | ⟨0, _⟩ => rfl | ⟨1, _⟩ => rfl)
theorem idx30_31 (r : Fin 50000) (k : Fin 128) : idx_main_v30 (idx_main_v31 (ix2 r k)) = ix1 k :=
  funext fun a => Fin.ext (by match a with | ⟨0, _⟩ => rfl)
theorem idx37_38 (r : Fin 50000) (k : Fin 128) : idx_main_v37 (idx_main_v38 (ix2 r k)) = ix1 k :=
  funext fun a => Fin.ext (by match a with | ⟨0, _⟩ => rfl)
theorem idx43_44 (r : Fin 50000) (k : Fin 128) : idx_main_v43 (idx_main_v44 (ix2 r k)) = ix1 k :=
  funext fun a => Fin.ext (by match a with | ⟨0, _⟩ => rfl)
theorem idx46_47 (r : Fin 50000) (k : Fin 128) : idx_main_v46 (idx_main_v47 (ix2 r k)) = ix1 k :=
  funext fun a => Fin.ext (by match a with | ⟨0, _⟩ => rfl)
theorem idx49_50 (r : Fin 50000) (k : Fin 128) : idx_main_v49 (idx_main_v50 (ix2 r k)) = ix1 k :=
  funext fun a => Fin.ext (by match a with | ⟨0, _⟩ => rfl)

/-! ## The stages at coordinates -/

/-- The linear layer scaled by the normalisation column is `hrow` of the prefix arrays. -/
theorem v26_at (r : Fin 50000) (k : Fin 128) :
    val_main_v26 (F := Ideal) x0 x1 x2 x5 x6 (ix2 r k) = hR x0 x1 x2 x5 x6 r k := by
  rw [val_main_v26_apply, val_main_v24_apply, val_main_v21_apply, val_main_v23_apply, val_main_v22_apply,
    val_main_v25_apply]
  simp only [hR, hrow, aggR, wtR, nrmR, Ideal.mulf_def, Ideal.addf_def, lidx21, ridx21, idx22_23, idx25]

/-- The column means. -/
theorem v29_at (k : Fin 128) :
    val_main_v29 (F := Ideal) x0 x1 x2 x5 x6 (ix1 k) = mean (hR x0 x1 x2 x5 x6) k := by
  rw [val_main_v29_apply, val_main_v27_apply, val_main_v28_apply, val_main_cst_6_apply, val_main_cst_5_apply,
    Ideal.hostDivf_def, Ideal.ofBits_def, Ideal.ofBits_def, Ideal.ofBits_zero_f32, zero_add]
  unfold mean
  refine congrArg (fun s => Ideal.div s (Ideal.ofBits .f32 0x47435000#32)) (Finset.sum_congr rfl fun r _ => ?_)
  rw [idx27, v26_at]

/-- The deviations from the mean (first copy, squared for the variance). -/
theorem v32_at (r : Fin 50000) (k : Fin 128) :
    val_main_v32 (F := Ideal) x0 x1 x2 x5 x6 (ix2 r k)
      = hR x0 x1 x2 x5 x6 r k - mean (hR x0 x1 x2 x5 x6) k := by
  rw [val_main_v32_apply, val_main_v31_apply, val_main_v30_apply, idx30_31, v29_at, v26_at]
  simp only [Ideal.subf_def]

/-- The deviations from the mean (second copy, normalised). -/
theorem v39_at (r : Fin 50000) (k : Fin 128) :
    val_main_v39 (F := Ideal) x0 x1 x2 x5 x6 (ix2 r k)
      = hR x0 x1 x2 x5 x6 r k - mean (hR x0 x1 x2 x5 x6) k := by
  rw [val_main_v39_apply, val_main_v38_apply, val_main_v37_apply, idx37_38, v29_at, v26_at]
  simp only [Ideal.subf_def]

/-- The squared deviations. -/
theorem v33_at (r : Fin 50000) (k : Fin 128) :
    val_main_v33 (F := Ideal) x0 x1 x2 x5 x6 (ix2 r k)
      = (hR x0 x1 x2 x5 x6 r k - mean (hR x0 x1 x2 x5 x6) k) * (hR x0 x1 x2 x5 x6 r k - mean (hR x0 x1 x2 x5 x6) k) := by
  rw [val_main_v33_apply, v32_at, Ideal.mulf_def]

/-- The column variances. -/
theorem v36_at (k : Fin 128) :
    val_main_v36 (F := Ideal) x0 x1 x2 x5 x6 (ix1 k) = varR (hR x0 x1 x2 x5 x6) k := by
  rw [val_main_v36_apply, val_main_v34_apply, val_main_v35_apply, val_main_cst_8_apply, val_main_cst_7_apply,
    Ideal.hostDivf_def, Ideal.ofBits_def, Ideal.ofBits_def, Ideal.ofBits_zero_f32, zero_add]
  unfold varR
  refine congrArg (fun s => Ideal.div s (Ideal.ofBits .f32 0x47435000#32)) (Finset.sum_congr rfl fun r _ => ?_)
  rw [idx34, v33_at]

/-- The reciprocal standard deviations. -/
theorem v42_at (k : Fin 128) :
    val_main_v42 (F := Ideal) x0 x1 x2 x5 x6 (ix1 k)
      = Ideal.rsqrt (varR (hR x0 x1 x2 x5 x6) k + Ideal.ofBits .f32 0x3727C5AC#32) := by
  rw [val_main_v42_apply, val_main_v41_apply, val_main_v40_apply, val_main_cst_9_apply, v36_at]
  simp only [Ideal.hostUnary_rsqrt_def, Ideal.addf_def, Ideal.ofBits_def]

/-! ## The result -/

/-- The reference's result array is the two-pass output of the specification at the prefix arrays. -/
theorem ref_result :
    val_main_v53 (F := Ideal) x0 x1 x2 x3 x4 x5 x6
      = outR (aggR x0 x5 x6) (wtR x1) x2 (nrmR x6) x0 x3 x4 := by
  funext i
  obtain ⟨r, k, rfl⟩ : ∃ (r : Fin 50000) (k : Fin 128), i = ix2 r k := ⟨i 0, i 1, eq_ix2 i⟩
  rw [outR_ix2, val_main_v53_apply, val_main_v52_apply, val_main_v51_apply, val_main_v48_apply, val_main_v45_apply,
    val_main_v44_apply, val_main_v43_apply, val_main_v47_apply, val_main_v46_apply, val_main_v50_apply,
    val_main_v49_apply, val_main_call1_v0_apply, val_main_call1_cst_apply, idx43_44, idx46_47, idx49_50, v42_at, v39_at]
  simp only [outRat, hR, Ideal.addf_def, Ideal.mulf_def, Ideal.maximumf_def, Ideal.ofBits_def, Ideal.ofBits_zero_f32]

end

/-- The reference run's result term is the two-pass output of the specification at the prefix arrays of the
    arguments' launch contents. -/
theorem ref_result_run (m : (ℓ : Loc nD τ sig) → Buf (Elt Ideal) ℓ) (c : Dev nD) :
    Cert.ReferenceIdeal.Value.res_main_v53 (F := Ideal) m c
      = outR (aggR (m ((c.tc : Thread nD τ).loc main_arg0)) (m ((c.tc : Thread nD τ).loc main_arg5))
            (m ((c.tc : Thread nD τ).loc main_arg6)))
          (wtR (m ((c.tc : Thread nD τ).loc main_arg1))) (m ((c.tc : Thread nD τ).loc main_arg2))
          (nrmR (m ((c.tc : Thread nD τ).loc main_arg6))) (m ((c.tc : Thread nD τ).loc main_arg0))
          (m ((c.tc : Thread nD τ).loc main_arg3)) (m ((c.tc : Thread nD τ).loc main_arg4)) :=
  (val_main_v53_eq (F := Ideal) m c).trans (ref_result _ _ _ _ _ _ _)

end Cert.RefSide

end
-- ==== Proof.Ref.Consts.lean ====
/-
  The float words of the batch normalisation and of the precondition, as the extended reals they denote: the number
  of rows, the variance offset, and `+∞`. One module unfolds the bit patterns, once.
-/
import Idealize.ShloMosaic.PureOps.Ideal

noncomputable section

namespace Cert.RefSide

open Idealize.ShloMosaic

/-- The divisor word denotes the real `50000`. -/
theorem ofBits_rows : Ideal.ofBits .f32 0x47435000#32 = ((50000 : ℝ) : EReal) := by
  simp [Ideal.ofBits, Ideal.ieee, -EReal.coe_mul]; norm_num

/-- The offset word denotes the real `10995116 · 2⁻⁴⁰`. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- The word the precondition compares magnitudes against denotes `+∞`. -/
theorem ofBits_inf : Ideal.ofBits .f32 0x7F800000#32 = ⊤ := by
  simp [Ideal.ofBits, Ideal.ieee]

/-- The offset word denotes a positive real. -/
theorem ofBits_eps_pos : ∃ e : ℝ, 0 < e ∧ Ideal.ofBits .f32 0x3727C5AC#32 = (e : EReal) :=
  ⟨_, by positivity, ofBits_eps⟩

end Cert.RefSide

end
-- ==== Proof.Ref.Algebra.lean ====
/-
  The one-pass and the two-pass forms of the batch-normalised layer agree when every entry is a real.

  Over the reals, with `μ = (Σ f) / N`:  `(Σ (f − μ)²) / N = (Σ f²) / N − μ²`, and the left side is a mean of squares, so it is
  not negative and the clamp at zero is the identity. The offset is positive, so the reciprocal square root is that of a
  positive real, hence a real; and `h · (γ ρ) + (β − μ · (γ ρ)) = (h − μ) · ρ · γ + β`.
-/
import proofs.«112734_j34411277975785_2_alg».proof.Proof.Ref.Spec
import proofs.«112734_j34411277975785_2_alg».proof.Proof.Ref.Consts

set_option pp.maxSteps 5000
set_option pp.deepTerms false

noncomputable section

open scoped BigOperators

namespace Cert.RefSide

open Idealize.ShloMosaic Idealize.ShloMosaic.ValueIdx

/-! ## Coercions -/

/-- The coercion of a finite sum of reals is the sum of the coercions. -/
theorem coe_sum {ι : Type} (s : Finset ι) (f : ι → ℝ) :
    (∑ i ∈ s, ((f i : ℝ) : EReal)) = ((∑ i ∈ s, f i : ℝ) : EReal) := by
  classical
  refine Finset.induction_on s (by simp) (fun a s ha ih => ?_)
  rw [Finset.sum_insert ha, Finset.sum_insert ha, ih, EReal.coe_add]

/-- The reciprocal square root of a positive real is a real. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-! ## The variance identity, over the reals -/

/-- The mean of the squared deviations from the mean is the mean of the squares minus the square of the mean. -/
theorem var_identity {n : ℕ} (f : Fin n → ℝ) (N μ : ℝ) (hN : N = (n : ℝ)) (h0 : N ≠ 0) (hμ : μ = (∑ r, f r) / N) :
    (∑ r, (f r - μ) * (f r - μ)) / N = (∑ r, f r * f r) / N - μ * μ := by
  have hS : (∑ r, f r) = N * μ := by rw [hμ, mul_div_cancel₀ _ h0]
  have e : ∀ r, (f r - μ) * (f r - μ) = f r * f r - 2 * μ * f r + μ * μ := fun r => by ring
  rw [Finset.sum_congr rfl (fun r _ => e r), Finset.sum_add_distrib, Finset.sum_sub_distrib, ← Finset.mul_sum,
    Finset.sum_const, Finset.card_univ, Fintype.card_fin, nsmul_eq_mul, ← hN, hS]
  have : (∑ r, f r * f r) - 2 * μ * (N * μ) + N * (μ * μ) = (∑ r, f r * f r) - N * (μ * μ) := by ring
  rw [this, sub_div, mul_div_cancel_left₀ _ h0]

/-- A mean of squares is not negative. -/
theorem var_nonneg {n : ℕ} (f : Fin n → ℝ) (N μ : ℝ) (h0 : 0 < N) : 0 ≤ (∑ r, (f r - μ) * (f r - μ)) / N :=
  div_nonneg (Finset.sum_nonneg fun r _ => mul_self_nonneg _) h0.le

/-! ## The two forms agree on a real matrix -/

section

variable (h : Fin 50000 → Fin 128 → EReal) (feat : A50000x128) (gamma beta : A128)

/-- At every row and column, the one-pass output is the two-pass output, when `h`, `γ` and `β` are real. -/
theorem outKat_eq_outRat (hh : ∀ r k, ∃ x : ℝ, h r k = (x : EReal)) (hg : ∀ i, ∃ x : ℝ, gamma i = (x : EReal))
    (hb : ∀ i, ∃ x : ℝ, beta i = (x : EReal)) (r : Fin 50000) (k : Fin 128) :
    outKat h feat gamma beta r k = outRat h feat gamma beta r k := by
  choose hr hhr using hh
  obtain ⟨g, hg⟩ := hg (ix1 k)
  obtain ⟨bt, hbt⟩ := hb (ix1 k)
  obtain ⟨e, he, hε⟩ := ofBits_eps_pos
  have hN : (50000 : ℝ) ≠ 0 := by norm_num
  -- the column's mean, mean of squares and two-pass variance are reals
  have hmean : mean h k = (((∑ r, hr r k) / 50000 : ℝ) : EReal) := by
    unfold mean
    rw [ofBits_rows, Ideal.div_coe hN]
    simp only [hhr, coe_sum, ← EReal.coe_mul, mul_one_div]
  have hmsq : meanSq h k = (((∑ r, hr r k * hr r k) / 50000 : ℝ) : EReal) := by
    unfold meanSq
    rw [ofBits_rows, Ideal.div_coe hN]
    simp only [hhr, coe_sum, ← EReal.coe_mul, mul_one_div]
  have hvarR : varR h k
      = (((∑ r, (hr r k - (∑ r, hr r k) / 50000) * (hr r k - (∑ r, hr r k) / 50000)) / 50000 : ℝ) : EReal) := by
    unfold varR
    rw [hmean, ofBits_rows, Ideal.div_coe hN]
    simp only [hhr, coe_sum, ← EReal.coe_sub, ← EReal.coe_mul, mul_one_div]
  -- the clamp is the identity: the one-pass variance is the two-pass variance
  have hvarK : varK h k = varR h k := by
    unfold varK
    rw [hmsq, hmean, hvarR, ← EReal.coe_mul, ← EReal.coe_sub,
      ← var_identity (fun r => hr r k) 50000 ((∑ r, hr r k) / 50000) (by norm_num) hN rfl]
    exact max_eq_left (EReal.coe_nonneg.mpr (var_nonneg _ _ _ (by norm_num)))
  -- the reciprocal standard deviation is a real
  have hv0 := var_nonneg (fun r => hr r k) 50000 ((∑ r, hr r k) / 50000) (by norm_num)
  have hρ : Ideal.rsqrt (varR h k + Ideal.ofBits .f32 0x3727C5AC#32)
      = (((Real.sqrt ((∑ r, (hr r k - (∑ r, hr r k) / 50000) * (hr r k - (∑ r, hr r k) / 50000)) / 50000 + e))⁻¹ : ℝ)
          : EReal) := by
    rw [hvarR, hε, ← EReal.coe_add, rsqrt_coe_pos (by linarith)]
  unfold outKat outRat shiftK scaleK
  rw [hvarK, hρ, hmean, hhr r k, hg, hbt]
  simp only [← EReal.coe_mul, ← EReal.coe_sub, ← EReal.coe_add]
  refine congrArg (fun t : ℝ => feat (ix2 r k) + max ((t : ℝ) : EReal) 0) ?_
  ring

end

/-! ## The linear layer of real arrays is real -/

/-- Every entry of the normalised linear layer is a real when every entry of its four operands is. -/
theorem hrow_real (agg : A50000x128) (wt : A128x128) (b : A128) (nrm : A50000x1)
    (hagg : ∀ i, ∃ x : ℝ, agg i = (x : EReal)) (hwt : ∀ i, ∃ x : ℝ, wt i = (x : EReal))
    (hb : ∀ i, ∃ x : ℝ, b i = (x : EReal)) (hnrm : ∀ i, ∃ x : ℝ, nrm i = (x : EReal)) (r : Fin 50000) (k : Fin 128) :
    ∃ x : ℝ, hrow agg wt b nrm r k = (x : EReal) := by
  choose a ha using hagg
  choose w hw using hwt
  choose bb hbb using hb
  choose nn hnn using hnrm
  refine ⟨((∑ j : Fin 128, a (ix2 r j) * w (ix2 j k)) + bb (ix1 k)) * nn (ix2 r (0 : Fin 1)), ?_⟩
  unfold hrow
  simp only [ha, hw, hbb, hnn, ← EReal.coe_mul, coe_sum, ← EReal.coe_add]

/-! ## The two output arrays agree -/

/-- The one-pass output array is the two-pass output array when every entry of the operands is a real
    (nothing is asked of the residual `feat`: it is the same summand on both sides). -/
theorem outK_eq_outR (agg : A50000x128) (wt : A128x128) (b : A128) (nrm : A50000x1) (feat : A50000x128) (gamma beta : A128)
    (hagg : ∀ i, ∃ x : ℝ, agg i = (x : EReal)) (hwt : ∀ i, ∃ x : ℝ, wt i = (x : EReal))
    (hb : ∀ i, ∃ x : ℝ, b i = (x : EReal)) (hnrm : ∀ i, ∃ x : ℝ, nrm i = (x : EReal))
    (hgamma : ∀ i, ∃ x : ℝ, gamma i = (x : EReal)) (hbeta : ∀ i, ∃ x : ℝ, beta i = (x : EReal)) :
    outK agg wt b nrm feat gamma beta = outR agg wt b nrm feat gamma beta := by
  funext i
  obtain ⟨r, k, rfl⟩ : ∃ (r : Fin 50000) (k : Fin 128), i = ix2 r k := ⟨i 0, i 1, eq_ix2 i⟩
  rw [outK_ix2, outR_ix2]
  exact outKat_eq_outRat _ feat gamma beta (hrow_real agg wt b nrm hagg hwt hb hnrm) hgamma hbeta r k

end Cert.RefSide

end
-- ==== Proof.Ref.Finite.lean ====
/-
  From the precondition to real entries: when the printed predicate "every float argument has a magnitude below
  `+∞`" is all ones, every entry of the five float arguments is a real.

  The predicate is a conjunction, per array, of an `and`-reduction over every axis of the element comparisons
  `|x| < +∞`. A conjunction that is one has both conjuncts one; an `and`-reduction into a single element that is
  one met only ones; and an extended real whose magnitude is below `+∞` is neither `⊥` nor `⊤`.
-/
import proofs.«112734_j34411277975785_2_alg».proof.Pre_finite_inputs
import proofs.«112734_j34411277975785_2_alg».proof.Proof.Ref.Consts
import Idealize.ShloMosaic.Lib.ReduceAll
import Idealize.ShloMosaic.Lib.ValueIdx
import Idealize.ShloMosaic.PureOps.Ideal.Laws

set_option pp.maxSteps 5000
set_option pp.deepTerms false

noncomputable section

namespace Cert.RefSide

open Idealize.ShloMosaic Cert.Pre_finite_inputs

/-- An extended real whose magnitude compares below `+∞` is a real. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  rw [Ideal.cmpf_def, Ideal.hostAbsf_def, Ideal.absf_def, Ideal.ofBits_def, ofBits_inf] at h
  induction x using EReal.rec
  · exfalso; simp [Ideal.cmp] at h
  · exact ⟨_, rfl⟩
  · exfalso; simp [Ideal.cmp] at h

/-- When the precondition holds of the arguments, every entry of the five float arguments is a real. -/
theorem args_real [Cert.Pre_finite_inputs.Facts]
    (x0 : FVec Ideal S50000x128 .f32) (x1 : FVec Ideal S128x128 .f32) (x2 x3 x4 : FVec Ideal S128 .f32)
    (x5 x6 : IVec S800000 32)
    (h : Cert.Pre_finite_inputs.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  haveI : Subsingleton S_.Idx := ⟨fun a b => funext fun d => d.elim0⟩
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨hr0, hr1⟩ := IntOp.andi_eq_one.1 h01
  exact ⟨fun i => real_of_abs_lt_inf _ (Host.reduce_andi_all _ _ _ _ _ hr0 i),
    fun i => real_of_abs_lt_inf _ (Host.reduce_andi_all _ _ _ _ _ hr1 i),
    fun i => real_of_abs_lt_inf _ (Host.reduce_andi_all _ _ _ _ _ h2 i),
    fun i => real_of_abs_lt_inf _ (Host.reduce_andi_all _ _ _ _ _ h3 i),
    fun i => real_of_abs_lt_inf _ (Host.reduce_andi_all _ _ _ _ _ h4 i)⟩

end Cert.RefSide

end
-- ==== Proof.Ref.Bridge.lean ====
/-
  The host prefix is one function of the arguments in both programs: the reference's opaque prefix arrays
  (aggregate, normalisation column, transposed weights) are the kernel program's, term for term — the same
  operations, the same dimension records and the same float words, spelt in two namespaces.
-/
import proofs.«112734_j34411277975785_2_alg».proof.Proof.Ref.RefValue
import proofs.«112734_j34411277975785_2_alg».proof.Proof.KI.Prefix

set_option pp.maxSteps 5000
set_option pp.deepTerms false

noncomputable section

namespace Cert.RefSide

open Cert.ReferenceIdeal Cert.ReferenceIdeal.Gen Cert.ReferenceIdeal.Read
open Idealize.ShloMosaic

/-- The transposed weights. -/
theorem wtR_eq (x1 : C128x128) : wtR x1 = Cert.KernelIdeal.Hand.wtK x1 := by
  unfold wtR val_main_v20 Cert.KernelIdeal.Hand.wtK
  rfl

/-- The normalisation column. -/
theorem nrmR_eq (x6 : C800000i) : nrmR x6 = Cert.KernelIdeal.Hand.nrmK x6 := by
  unfold nrmR val_main_v7 val_main_v6 val_main_v5 val_main_cst_2 val_main_v4 val_main_call0_v1 val_main_call0_v0
    val_main_cst_1 val_main_v3 val_main_v2 val_main_v1 val_main_v0 val_main_cst_0 val_main_cst
  unfold Cert.KernelIdeal.Hand.nrmK Cert.KernelIdeal.Hand.nrmColK Cert.KernelIdeal.Hand.clK Cert.KernelIdeal.Hand.clipK
    Cert.KernelIdeal.Hand.oneK Cert.KernelIdeal.Hand.degK
  rfl

/-- The aggregated features. -/
theorem aggR_eq (x0 : C50000x128) (x5 x6 : C800000i) : aggR x0 x5 x6 = Cert.KernelIdeal.Hand.aggK x0 x5 x6 := by
  unfold aggR val_main_v19 val_main_v18 val_main_v17 val_main_cst_4 val_main_v16 val_main_v15 val_main_v14 val_main_v13
    val_main_v12 val_main_c_3 val_main_v11 val_main_v10 val_main_c val_main_v9 val_main_v8
  unfold val_main_v7 val_main_v6 val_main_v5 val_main_cst_2 val_main_v4 val_main_call0_v1 val_main_call0_v0
    val_main_cst_1 val_main_v3 val_main_v2 val_main_v1 val_main_v0 val_main_cst_0 val_main_cst
  unfold Cert.KernelIdeal.Hand.aggK Cert.KernelIdeal.Hand.aggOfK Cert.KernelIdeal.Hand.nrmColK Cert.KernelIdeal.Hand.clK
    Cert.KernelIdeal.Hand.clipK Cert.KernelIdeal.Hand.oneK Cert.KernelIdeal.Hand.degK
  rfl

end Cert.RefSide

end
-- ==== Proof.lean ====
/-
  The certificate of a graph-convolution layer's kernel against its reference. Both programs compute, from the
  features x, the edge lists and the weights, the same degree-normalised aggregate agg and norm column nrm on the
  host, the row entries h r k = ((Σ_j agg (r,j) · W (k,j)) + b k) · nrm r, and add to x the rectified batch
  normalisation of h. The kernel takes the column sums of h and of h · h in a first region (two running sums carried
  across its grid), forms mean, variance max (E[h²] − mean²) 0, scale and shift on the host, and applies
  h · scale + shift in a second region; the reference takes mean and the mean of (h − mean)² directly. Over the reals
  the two variances agree (so the clamp at zero is the identity) and the affine maps agree by distributivity — laws
  that need every entry finite, which the precondition gives for the arguments and the host prefix preserves.
  The three frames: the reference's is its run with the result dropped; each kernel program's is the launch of its
  twelve segments over the two regions' body obligations.
-/
import proofs.«112734_j34411277975785_2_alg».proof.Defs
import proofs.«112734_j34411277975785_2_alg».proof.Proof.Gen.Kernel
import proofs.«112734_j34411277975785_2_alg».proof.Proof.Gen.KernelIdeal
import proofs.«112734_j34411277975785_2_alg».proof.Proof.Gen.ReferenceIdeal
import proofs.«112734_j34411277975785_2_alg».proof.Proof.Gen.Pre_finite_inputs
import proofs.«112734_j34411277975785_2_alg».proof.Proof.Gen.ReferenceIdeal.Run
import proofs.«112734_j34411277975785_2_alg».proof.Proof.K.Frames
import proofs.«112734_j34411277975785_2_alg».proof.Proof.K.Legs
import proofs.«112734_j34411277975785_2_alg».proof.Proof.KI.Frames
import proofs.«112734_j34411277975785_2_alg».proof.Proof.KI.Legs
import proofs.«112734_j34411277975785_2_alg».proof.Proof.KI.Final
import proofs.«112734_j34411277975785_2_alg».proof.Proof.KI.PrefixReal
import proofs.«112734_j34411277975785_2_alg».proof.Proof.Ref.RefValue
import proofs.«112734_j34411277975785_2_alg».proof.Proof.Ref.Algebra
import proofs.«112734_j34411277975785_2_alg».proof.Proof.Ref.Finite
import proofs.«112734_j34411277975785_2_alg».proof.Proof.Ref.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all m ρ Cert.Kernel.Hand.legs
theorem frame_ki : Cert.frame_KernelIdeal := fun m ρ _ => Cert.KernelIdeal.Hand.frame_all m ρ Cert.KernelIdeal.Hand.legs
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

theorem algebraic : Cert.algebraic_KernelIdeal_ReferenceIdeal := by
  intro m ρ m' ρ' hpre hagree
  refine ⟨_, (θ_run Cert.KernelIdeal.defs _ _).mono (fun r h c => ⟨(h c).1.trans (Cert.KernelIdeal.Hand.kernel_value m c), (h c).2⟩)
    (Cert.KernelIdeal.Hand.run_value m ρ Cert.KernelIdeal.Hand.legs), ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6⟩ := hagree c
  rw [Cert.RefSide.ref_result_run, a0, a1, a2, a3, a4, a5, a6]
  rw [Cert.RefSide.aggR_eq, Cert.RefSide.nrmR_eq, Cert.RefSide.wtR_eq]
  obtain ⟨h0, h1, h2, h3, h4⟩ := Cert.RefSide.args_real _ _ _ _ _ _ _ (hpre c)
  exact (Cert.RefSide.outK_eq_outR _ _ _ _ _ _ _
    (Cert.KernelIdeal.Hand.aggK_real _ _ _ h0) (Cert.KernelIdeal.Hand.wtK_real _ h1) h2
    (Cert.KernelIdeal.Hand.nrmK_real _) h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
